-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x4 : Shape := ⟨2, ![64, 4]⟩
abbrev S4 : Shape := ⟨1, ![4]⟩
abbrev S50000x64 : Shape := ⟨2, ![50000, 64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_
  bcast_S_S50000x64 : S_.BroadcastsInDim S50000x64 (![] : Fin 0 → Fin S50000x64.rank)
  reducesTo_S50000x64_S_d0_1 : S50000x64.ReducesTo [0, 1] S_

variable [Facts]

def fn_part2 {F : FTy → Type} [FloatOps F] (main_arg9 : FVec F S64x4 .f32) (main_arg10 : FVec F S4 .f32) (main_arg11 : FVec F S50000x64 .f32) (main_v33 : IVec S_ 1) : IVec S_ 1 :=
  let main_v34 : FVec F S64x4 .f32 := Host.absf main_arg9
  let main_cst_12 : FVec F S_ .f32 := constant S_ .f32 0x7F800000#32
  let main_v35 : FVec F S64x4 .f32 := broadcastInDim S64x4 ![] bcast_S_S64x4 main_cst_12
  let main_v36 : IVec S64x4 1 := cmpf .olt main_v34 main_v35
  let main_c_13 : IVec S_ 1 := constantI S_ 1 1#1
  let main_v37 : IVec S_ 1 := (fun x v => Host.reduce IntOp.andi x v reducesTo_S64x4_S_d0_1 h_S_) main_v36 main_c_13
  let main_v38 : IVec S_ 1 := andi main_v33 main_v37
  let main_v39 : FVec F S4 .f32 := Host.absf main_arg10
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : FVec F S50000x64 .f32 := Host.absf main_arg11
  let main_cst_16 : FVec F S_ .f32 := constant S_ .f32 0x7F800000#32
  let main_v45 : FVec F S50000x64 .f32 := broadcastInDim S50000x64 ![] bcast_S_S50000x64 main_cst_16
  let main_v46 : IVec S50000x64 1 := cmpf .olt main_v44 main_v45
  let main_c_17 : IVec S_ 1 := constantI S_ 1 1#1
  let main_v47 : IVec S_ 1 := (fun x v => Host.reduce IntOp.andi x v reducesTo_S50000x64_S_d0_1 h_S_) main_v46 main_c_17
  let main_v48 : IVec S_ 1 := andi main_v43 main_v47
  main_v48

def fn_part1 {F : FTy → Type} [FloatOps F] (main_arg6 : FVec F S64 .f32) (main_arg7 : FVec F S128x64 .f32) (main_arg8 : FVec F S64 .f32) (main_arg9 : FVec F S64x4 .f32) (main_arg10 : FVec F S4 .f32) (main_arg11 : FVec F S50000x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_v33

def fn {F : FTy → Type} [FloatOps F] (main_arg0 : FVec F S50000x256 .f32) (main_arg1 : IVec S2x800000 32) (main_arg2 : IVec S50000 32) (main_arg3 : FVec F S256x128 .f32) (main_arg4 : FVec F S128 .f32) (main_arg5 : FVec F S128x64 .f32) (main_arg6 : FVec F S64 .f32) (main_arg7 : FVec F S128x64 .f32) (main_arg8 : FVec F S64 .f32) (main_arg9 : FVec F S64x4 .f32) (main_arg10 : FVec F S4 .f32) (main_arg11 : FVec F S50000x64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x4 : Shape := ⟨2, ![64, 4]⟩
abbrev S4 : Shape := ⟨1, ![4]⟩
abbrev S50000x64 : Shape := ⟨2, ![50000, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x128 : Shape := ⟨2, ![50000, 128]⟩
abbrev S5000x256 : Shape := ⟨2, ![5000, 256]⟩
abbrev S5000x128 : Shape := ⟨2, ![5000, 128]⟩
abbrev S800000x128 : Shape := ⟨2, ![800000, 128]⟩
abbrev S1x128 : Shape := ⟨2, ![1, 128]⟩
abbrev S128x128 : Shape := ⟨2, ![128, 128]⟩
abbrev S5000x1 : Shape := ⟨2, ![5000, 1]⟩
abbrev S5000x64 : Shape := ⟨2, ![5000, 64]⟩
abbrev S512x64 : Shape := ⟨2, ![512, 64]⟩
abbrev S512 : Shape := ⟨1, ![512]⟩
abbrev S512x1 : Shape := ⟨2, ![512, 1]⟩
abbrev S1x4 : Shape := ⟨2, ![1, 4]⟩
abbrev S512x4 : Shape := ⟨2, ![512, 4]⟩

abbrev nBuf : Space → Nat
  | .hbm => 105
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x4, .f32⟩
  | .hbm, ⟨10, _⟩ => ⟨S4, .f32⟩
  | .hbm, ⟨11, _⟩ => ⟨S50000x64, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000, .f32⟩
  | .hbm, ⟨46, _⟩ => ⟨S800000, .f32⟩
  | .hbm, ⟨47, _⟩ => ⟨S800000x1, .f32⟩
  | .hbm, ⟨48, _⟩ => ⟨S50000x128, .bf16⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .bf16⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S1x128, .f32⟩
  | .hbm, ⟨66, _⟩ => ⟨S128x128, .f32⟩
  | .hbm, ⟨67, _⟩ => ⟨S128, .f32⟩
  | .hbm, ⟨68, _⟩ => ⟨S50000x128, .bf16⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .bf16⟩
  | .hbm, ⟨78, _⟩ => ⟨S800000x128, .f32⟩
  | .hbm, ⟨79, _⟩ => ⟨S800000x128, .f32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S1x128, .f32⟩
  | .hbm, ⟨86, _⟩ => ⟨S50000x64, .f32⟩
  | .hbm, ⟨87, _⟩ => ⟨S_, .f32⟩
  | .hbm, ⟨88, _⟩ => ⟨S512x64, .f32⟩
  | .hbm, ⟨89, _⟩ => ⟨S50000x1, .i32⟩
  | .hbm, ⟨90, _⟩ => ⟨S512x64, .f32⟩
  | .hbm, ⟨91, _⟩ => ⟨S_, .f32⟩
  | .hbm, ⟨92, _⟩ => ⟨S50000, .f32⟩
  | .hbm, ⟨93, _⟩ => ⟨S_, .f32⟩
  | .hbm, ⟨94, _⟩ => ⟨S512, .f32⟩
  | .hbm, ⟨95, _⟩ => ⟨S50000x1, .i32⟩
  | .hbm, ⟨96, _⟩ => ⟨S512, .f32⟩
  | .hbm, ⟨97, _⟩ => ⟨S_, .f32⟩
  | .hbm, ⟨98, _⟩ => ⟨S512, .f32⟩
  | .hbm, ⟨99, _⟩ => ⟨S512, .f32⟩
  | .hbm, ⟨100, _⟩ => ⟨S512x1, .f32⟩
  | .hbm, ⟨101, _⟩ => ⟨S512x64, .f32⟩
  | .hbm, ⟨102, _⟩ => ⟨S512x64, .f32⟩
  | .hbm, ⟨103, _⟩ => ⟨S1x4, .f32⟩
  | .hbm, ⟨104, _⟩ => ⟨S512x4, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S5000x128, .bf16⟩
  | .local _ .vmem, ⟨8, _⟩ => ⟨S5000x128, .bf16⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S5000x128, .bf16⟩
  | .local _ .vmem, ⟨18, _⟩ => ⟨S5000x128, .bf16⟩
  | .local _ .vmem, ⟨19, _⟩ => ⟨S5000x1, .f32⟩
  | .local _ .vmem, ⟨20, _⟩ => ⟨S5000x1, .f32⟩
  | .local _ .vmem, ⟨21, _⟩ => ⟨S1x128, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S512x64, .f32⟩
  | .local _ .vmem, ⟨27, _⟩ => ⟨S64x4, .f32⟩
  | .local _ .vmem, ⟨28, _⟩ => ⟨S1x4, .f32⟩
  | .local _ .vmem, ⟨29, _⟩ => ⟨S512x4, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_12 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem1_0 : DmaSem sig := 27
abbrev cc3_sem2_0 : DmaSem sig := 28
abbrev cc3_sem3_0 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x4 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x4 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S800000_S800000x1 : S800000.ShapeCasts S800000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  concatenates_S128x64_S128x64_S128x128_d1 : Shape.Concatenates [S128x64, S128x64] S128x128 1
  concatenates_S64_S64_S128_d0 : Shape.Concatenates [S64, S64] S128 0
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S5000x128_o0_0_S5000x64 : S5000x128.Slices ![0, 0] S5000x64
  slices_S5000x128_o0_64_S5000x64 : S5000x128.Slices ![0, 64] S5000x64
  inb_S5000x64_S5000x64_0_0 : ∀ a, (![0, 0] : Fin 2 → Nat) a + S5000x64.size a ≤ S5000x64.size a
  h_S5000x64 : 0 < S5000x64.numel
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S4_S1x4 : S4.ShapeCasts S1x4
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S512x4 : S1x4.Broadcasts S512x4
  reduces_S512x4_S512 : S512x4.Reduces [1] S512
  shapeCasts_S512_S512x1 : S512.ShapeCasts S512x1
  broadcasts_S512x1_S512x4 : S512x1.Broadcasts S512x4
  inb_S512x4_S512x4_0_0 : ∀ a, (![0, 0] : Fin 2 → Nat) a + S512x4.size a ≤ S512x4.size a
  h_S512x4 : 0 < S512x4.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x4_S512x4_1_0_0_1_n_n_wf : DotDims.WF S512x64 S64x4 S512x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .bf16 = 32 ∨ (Rect.block (s := S50000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .bf16 = 32 ∨ (Rect.block (s := S50000x128) S5000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x64.size a ≤ S512x64.size a
  hwx3_0 : ∀ i : grid3.Coords, EltTy.bits .f32 = 32 ∨ (Rect.block (s := S512x64) S512x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x4.size a ≤ S64x4.size a
  hwx3_1 : ∀ i : grid3.Coords, EltTy.bits .f32 = 32 ∨ (Rect.block (s := S64x4) S64x4.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x4.size a ≤ S1x4.size a
  hwx3_2 : ∀ i : grid3.Coords, EltTy.bits .f32 = 32 ∨ (Rect.block (s := S1x4) S1x4.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x4.size a ≤ S512x4.size a
  hwx3_3 : ∀ i : grid3.Coords, EltTy.bits .f32 = 32 ∨ (Rect.block (s := S512x4) S512x4.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x4_S512x4_1_0_0_1_n_n : DotDims S512x64 S64x4 S512x4 where
  lhsContracting := [1]
  rhsContracting := [0]
  lhsNonContracting := [0]
  rhsNonContracting := [1]
  lhsBatch := []
  rhsBatch := []
  wf := dot_S512x64_S64x4_S512x4_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S5000x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v61) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v73) S512x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64x4.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S1x4.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S512x4.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x4 : Shape := ⟨2, ![64, 4]⟩
abbrev S4 : Shape := ⟨1, ![4]⟩
abbrev S50000x64 : Shape := ⟨2, ![50000, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x128 : Shape := ⟨2, ![50000, 128]⟩
abbrev S800000x128 : Shape := ⟨2, ![800000, 128]⟩
abbrev S50000x1 : Shape := ⟨2, ![50000, 1]⟩
abbrev S1x128 : Shape := ⟨2, ![1, 128]⟩
abbrev S800000x64 : Shape := ⟨2, ![800000, 64]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S512x4 : Shape := ⟨2, ![512, 4]⟩
abbrev S1x4 : Shape := ⟨2, ![1, 4]⟩

abbrev nBuf : Space → Nat
  | .hbm => 199
  | .vmem => 0
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S256x128, .f32⟩
  | 4 => ⟨S128, .f32⟩
  | 5 => ⟨S128x64, .f32⟩
  | 6 => ⟨S64, .f32⟩
  | 7 => ⟨S128x64, .f32⟩
  | 8 => ⟨S64, .f32⟩
  | 9 => ⟨S64x4, .f32⟩
  | 10 => ⟨S4, .f32⟩
  | 11 => ⟨S50000x64, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S50000x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x1, .f32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000, .f32⟩
  | 63 => ⟨S50000x1, .f32⟩
  | 64 => ⟨S50000x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x64, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000, .f32⟩
  | 92 => ⟨S800000, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x64, .f32⟩
  | 102 => ⟨S800000x1, .f32⟩
  | 103 => ⟨S800000x64, .f32⟩
  | 104 => ⟨S800000x64, .f32⟩
  | 105 => ⟨S_, .f32⟩
  | 106 => ⟨S50000x64, .f32⟩
  | 107 => ⟨S800000x1, .i32⟩
  | 108 => ⟨S50000x64, .f32⟩
  | 109 => ⟨S50000, .f32⟩
  | 110 => ⟨S50000x1, .f32⟩
  | 111 => ⟨S50000x64, .f32⟩
  | 112 => ⟨S50000x64, .f32⟩
  | 113 => ⟨S50000x64, .f32⟩
  | 114 => ⟨S1x64, .f32⟩
  | 115 => ⟨S50000x64, .f32⟩
  | 116 => ⟨S50000x64, .f32⟩
  | 117 => ⟨S50000x64, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000, .f32⟩
  | 127 => ⟨S_, .i32⟩
  | _ => ⟨S50000x256, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000, .f32⟩
  | 8 => ⟨S800000, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x64, .f32⟩
  | 18 => ⟨S800000x1, .f32⟩
  | 19 => ⟨S800000x64, .f32⟩
  | 20 => ⟨S800000x64, .f32⟩
  | 21 => ⟨S_, .f32⟩
  | 22 => ⟨S50000x64, .f32⟩
  | 23 => ⟨S800000x1, .i32⟩
  | 24 => ⟨S50000x64, .f32⟩
  | 25 => ⟨S50000, .f32⟩
  | 26 => ⟨S50000x1, .f32⟩
  | 27 => ⟨S50000x64, .f32⟩
  | 28 => ⟨S50000x64, .f32⟩
  | 29 => ⟨S50000x64, .f32⟩
  | 30 => ⟨S1x64, .f32⟩
  | 31 => ⟨S50000x64, .f32⟩
  | 32 => ⟨S50000x64, .f32⟩
  | 33 => ⟨S50000x64, .f32⟩
  | 34 => ⟨S50000x64, .f32⟩
  | 35 => ⟨S50000x64, .f32⟩
  | 36 => ⟨S_, .f32⟩
  | 37 => ⟨S512x64, .f32⟩
  | 38 => ⟨S50000x1, .i32⟩
  | 39 => ⟨S512x64, .f32⟩
  | 40 => ⟨S_, .f32⟩
  | 41 => ⟨S50000, .f32⟩
  | 42 => ⟨S_, .f32⟩
  | 43 => ⟨S512, .f32⟩
  | 44 => ⟨S50000x1, .i32⟩
  | 45 => ⟨S512, .f32⟩
  | 46 => ⟨S_, .f32⟩
  | 47 => ⟨S512, .f32⟩
  | 48 => ⟨S512, .f32⟩
  | 49 => ⟨S512x1, .f32⟩
  | 50 => ⟨S512x64, .f32⟩
  | 51 => ⟨S512x64, .f32⟩
  | 52 => ⟨S512x4, .f32⟩
  | 53 => ⟨S1x4, .f32⟩
  | 54 => ⟨S512x4, .f32⟩
  | 55 => ⟨S512x4, .f32⟩
  | 56 => ⟨S_, .f32⟩
  | 57 => ⟨S512, .f32⟩
  | 58 => ⟨S_, .f32⟩
  | 59 => ⟨S512, .f32⟩
  | 60 => ⟨S512, .f32⟩
  | 61 => ⟨S512x1, .f32⟩
  | 62 => ⟨S512x4, .f32⟩
  | 63 => ⟨S512x4, .f32⟩
  | 64 => ⟨S512x4, .f32⟩
  | 65 => ⟨S_, .f32⟩
  | 66 => ⟨S512, .f32⟩
  | 67 => ⟨S512x1, .f32⟩
  | 68 => ⟨S512x1, .f32⟩
  | 69 => ⟨S512x4, .f32⟩
  | 70 => ⟨S512x4, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_cst : Ref sig .tc := ⟨.hbm, 70, rfl⟩
abbrev main_call0_v0 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_c_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_12 : Ref sig .tc := ⟨.hbm, 93, rfl⟩
abbrev main_v65 : Ref sig .tc := ⟨.hbm, 94, rfl⟩
abbrev main_v66 : Ref sig .tc := ⟨.hbm, 95, rfl⟩
abbrev main_c_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_15 : Ref sig .tc := ⟨.hbm, 118, rfl⟩
abbrev main_v87 : Ref sig .tc := ⟨.hbm, 119, rfl⟩
abbrev main_v88 : Ref sig .tc := ⟨.hbm, 120, rfl⟩
abbrev main_c_16 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_17 : Ref sig .tc := ⟨.hbm, 127, rfl⟩
abbrev main_v94 : Ref sig .tc := ⟨.hbm, 128, rfl⟩
abbrev main_v95 : Ref sig .tc := ⟨.hbm, 129, rfl⟩
abbrev main_c_18 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_19 : Ref sig .tc := ⟨.hbm, 137, rfl⟩
abbrev main_v102 : Ref sig .tc := ⟨.hbm, 138, rfl⟩
abbrev main_v103 : Ref sig .tc := ⟨.hbm, 139, rfl⟩
abbrev main_c_20 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_21 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_22 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_23 : Ref sig .tc := ⟨.hbm, 168, rfl⟩
abbrev main_v129 : Ref sig .tc := ⟨.hbm, 169, rfl⟩
abbrev main_cst_24 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_25 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_call1_cst : Ref sig .tc := ⟨.hbm, 184, rfl⟩
abbrev main_call1_v0 : Ref sig .tc := ⟨.hbm, 185, rfl⟩
abbrev main_call1_cst_0 : Ref sig .tc := ⟨.hbm, 186, rfl⟩
abbrev main_call1_v1 : Ref sig .tc := ⟨.hbm, 187, rfl⟩
abbrev main_call1_v2 : Ref sig .tc := ⟨.hbm, 188, rfl⟩
abbrev main_call1_v3 : Ref sig .tc := ⟨.hbm, 189, rfl⟩
abbrev main_call1_v4 : Ref sig .tc := ⟨.hbm, 190, rfl⟩
abbrev main_call1_v5 : Ref sig .tc := ⟨.hbm, 191, rfl⟩
abbrev main_call1_v6 : Ref sig .tc := ⟨.hbm, 192, rfl⟩
abbrev main_call1_cst_1 : Ref sig .tc := ⟨.hbm, 193, rfl⟩
abbrev main_call1_v7 : Ref sig .tc := ⟨.hbm, 194, rfl⟩
abbrev main_call1_v8 : Ref sig .tc := ⟨.hbm, 195, rfl⟩
abbrev main_call1_v9 : Ref sig .tc := ⟨.hbm, 196, rfl⟩
abbrev main_call1_v10 : Ref sig .tc := ⟨.hbm, 197, rfl⟩
abbrev main_v142 : Ref sig .tc := ⟨.hbm, 198, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S4_S1x4_1 : S4.BroadcastsInDim S1x4 (![1] : Fin 1 → Fin S1x4.rank)
  bcast_S1x4_S512x4_0_1 : S1x4.BroadcastsInDim S512x4 (![0, 1] : Fin 2 → Fin S512x4.rank)
  reducesTo_S512x4_S512_d1 : S512x4.ReducesTo [1] S512
  h_S_ : 0 < S_.numel
  bcast_S512x1_S512x4_0_1 : S512x1.BroadcastsInDim S512x4 (![0, 1] : Fin 2 → Fin S512x4.rank)
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x4_S512x4_1_0_0_1_n_n_wf : DotDims.WF S512x64 S64x4 S512x4 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x4_S512x4_1_0_0_1_n_n : DotDims S512x64 S64x4 S512x4 where
  lhsContracting := [1]
  rhsContracting := [0]
  lhsNonContracting := [0]
  rhsNonContracting := [1]
  lhsBatch := []
  rhsBatch := []
  wf := dot_S512x64_S64x4_S512x4_1_0_0_1_n_n_wf

class Facts : Prop extends Facts₀ where

variable [Facts]
-- ==== Proof.KThread.lean ====
/-
  Which buffer holds what between the launches.

  The program runs four kernel launches among four stretches of host operations.  Every buffer is written once: by
  one host operation or by one launch's write-backs.  So the contents a later segment finds in a buffer are the
  contents at the boundary right after the buffer's writer: a host stretch that does not write the buffer leaves it
  alone, and a launch leaves alone every buffer that is not its output (an input window's array is read, never
  written).  Each lemma below walks one buffer back through the boundaries to the one where it was written.
-/
import proofs.«179847_j10969346474792_2_alg».proof.Proof.Gen.KernelIdeal.Frame

set_option maxRecDepth 16384

noncomputable section

namespace Cert.KernelIdeal.KThread

open Cert.KernelIdeal Cert.KernelIdeal.Gen
open Idealize.ShloMosaic Idealize.ShloMosaic.TcCoe Idealize.SL.Sem

/-- No operation of the named stretch writes the named buffer, so the stretch leaves it as it was. -/
macro "skip_host " ops:ident b:ident : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable {F : FTy → Type} [FloatOps F]

variable (m : (ℓ : Loc nD τ sig) → Buf (Elt F) ℓ) (ρ : Dev nD → PrngReg) (c : Dev nD)

/-- Argument 0 is never written: the first launch finds it as launched. -/
theorem arg0_W1 : W1 m ρ c (Proc.devRef .tc main_arg0) = W0 m ρ c (Proc.devRef .tc main_arg0) :=
  calc W1 m ρ c (Proc.devRef .tc main_arg0)
    _ = W0 m ρ c (Proc.devRef .tc main_arg0) := by skip_host hostOps0 main_arg0

/-- Argument 3 is never written: the first launch finds it as launched. -/
theorem arg3_W1 : W1 m ρ c (Proc.devRef .tc main_arg3) = W0 m ρ c (Proc.devRef .tc main_arg3) :=
  calc W1 m ρ c (Proc.devRef .tc main_arg3)
    _ = W0 m ρ c (Proc.devRef .tc main_arg3) := by skip_host hostOps0 main_arg3

/-- Argument 4 is never written: the second stretch of host operations finds it as launched. -/
theorem arg4_W2 : W2 m ρ c (Proc.devRef .tc main_arg4) = W0 m ρ c (Proc.devRef .tc main_arg4) :=
  calc W2 m ρ c (Proc.devRef .tc main_arg4)
    _ = W1 m ρ c (Proc.devRef .tc main_arg4) := W2_of_ne m ρ c main_arg4 (by decide)
    _ = W0 m ρ c (Proc.devRef .tc main_arg4) := by skip_host hostOps0 main_arg4

/-- Argument 5 is never written: the second stretch of host operations finds it as launched. -/
theorem arg5_W2 : W2 m ρ c (Proc.devRef .tc main_arg5) = W0 m ρ c (Proc.devRef .tc main_arg5) :=
  calc W2 m ρ c (Proc.devRef .tc main_arg5)
    _ = W1 m ρ c (Proc.devRef .tc main_arg5) := W2_of_ne m ρ c main_arg5 (by decide)
    _ = W0 m ρ c (Proc.devRef .tc main_arg5) := by skip_host hostOps0 main_arg5

/-- Argument 6 is never written: the second stretch of host operations finds it as launched. -/
theorem arg6_W2 : W2 m ρ c (Proc.devRef .tc main_arg6) = W0 m ρ c (Proc.devRef .tc main_arg6) :=
  calc W2 m ρ c (Proc.devRef .tc main_arg6)
    _ = W1 m ρ c (Proc.devRef .tc main_arg6) := W2_of_ne m ρ c main_arg6 (by decide)
    _ = W0 m ρ c (Proc.devRef .tc main_arg6) := by skip_host hostOps0 main_arg6

/-- Argument 7 is never written: the second stretch of host operations finds it as launched. -/
theorem arg7_W2 : W2 m ρ c (Proc.devRef .tc main_arg7) = W0 m ρ c (Proc.devRef .tc main_arg7) :=
  calc W2 m ρ c (Proc.devRef .tc main_arg7)
    _ = W1 m ρ c (Proc.devRef .tc main_arg7) := W2_of_ne m ρ c main_arg7 (by decide)
    _ = W0 m ρ c (Proc.devRef .tc main_arg7) := by skip_host hostOps0 main_arg7

/-- Argument 8 is never written: the second stretch of host operations finds it as launched. -/
theorem arg8_W2 : W2 m ρ c (Proc.devRef .tc main_arg8) = W0 m ρ c (Proc.devRef .tc main_arg8) :=
  calc W2 m ρ c (Proc.devRef .tc main_arg8)
    _ = W1 m ρ c (Proc.devRef .tc main_arg8) := W2_of_ne m ρ c main_arg8 (by decide)
    _ = W0 m ρ c (Proc.devRef .tc main_arg8) := by skip_host hostOps0 main_arg8

/-- Argument 11 is never written: the third launch finds it as launched. -/
theorem arg11_W5 : W5 m ρ c (Proc.devRef .tc main_arg11) = W0 m ρ c (Proc.devRef .tc main_arg11) :=
  calc W5 m ρ c (Proc.devRef .tc main_arg11)
    _ = W4 m ρ c (Proc.devRef .tc main_arg11) := by skip_host hostOps2 main_arg11
    _ = W3 m ρ c (Proc.devRef .tc main_arg11) := W4_of_ne m ρ c main_arg11 (by decide)
    _ = W2 m ρ c (Proc.devRef .tc main_arg11) := by skip_host hostOps1 main_arg11
    _ = W1 m ρ c (Proc.devRef .tc main_arg11) := W2_of_ne m ρ c main_arg11 (by decide)
    _ = W0 m ρ c (Proc.devRef .tc main_arg11) := by skip_host hostOps0 main_arg11

/-- Argument 2 is never written: the last stretch of host operations finds it as launched. -/
theorem arg2_W6 : W6 m ρ c (Proc.devRef .tc main_arg2) = W0 m ρ c (Proc.devRef .tc main_arg2) :=
  calc W6 m ρ c (Proc.devRef .tc main_arg2)
    _ = W5 m ρ c (Proc.devRef .tc main_arg2) := W6_of_ne m ρ c main_arg2 (by decide)
    _ = W4 m ρ c (Proc.devRef .tc main_arg2) := by skip_host hostOps2 main_arg2
    _ = W3 m ρ c (Proc.devRef .tc main_arg2) := W4_of_ne m ρ c main_arg2 (by decide)
    _ = W2 m ρ c (Proc.devRef .tc main_arg2) := by skip_host hostOps1 main_arg2
    _ = W1 m ρ c (Proc.devRef .tc main_arg2) := W2_of_ne m ρ c main_arg2 (by decide)
    _ = W0 m ρ c (Proc.devRef .tc main_arg2) := by skip_host hostOps0 main_arg2

/-- Argument 10 is never written: the last stretch of host operations finds it as launched. -/
theorem arg10_W6 : W6 m ρ c (Proc.devRef .tc main_arg10) = W0 m ρ c (Proc.devRef .tc main_arg10) :=
  calc W6 m ρ c (Proc.devRef .tc main_arg10)
    _ = W5 m ρ c (Proc.devRef .tc main_arg10) := W6_of_ne m ρ c main_arg10 (by decide)
    _ = W4 m ρ c (Proc.devRef .tc main_arg10) := by skip_host hostOps2 main_arg10
    _ = W3 m ρ c (Proc.devRef .tc main_arg10) := W4_of_ne m ρ c main_arg10 (by decide)
    _ = W2 m ρ c (Proc.devRef .tc main_arg10) := by skip_host hostOps1 main_arg10
    _ = W1 m ρ c (Proc.devRef .tc main_arg10) := W2_of_ne m ρ c main_arg10 (by decide)
    _ = W0 m ρ c (Proc.devRef .tc main_arg10) := by skip_host hostOps0 main_arg10

/-- Argument 9 is never written: the last launch finds it as launched. -/
theorem arg9_W7 : W7 m ρ c (Proc.devRef .tc main_arg9) = W0 m ρ c (Proc.devRef .tc main_arg9) :=
  calc W7 m ρ c (Proc.devRef .tc main_arg9)
    _ = W6 m ρ c (Proc.devRef .tc main_arg9) := by skip_host hostOps3 main_arg9
    _ = W5 m ρ c (Proc.devRef .tc main_arg9) := W6_of_ne m ρ c main_arg9 (by decide)
    _ = W4 m ρ c (Proc.devRef .tc main_arg9) := by skip_host hostOps2 main_arg9
    _ = W3 m ρ c (Proc.devRef .tc main_arg9) := W4_of_ne m ρ c main_arg9 (by decide)
    _ = W2 m ρ c (Proc.devRef .tc main_arg9) := by skip_host hostOps1 main_arg9
    _ = W1 m ρ c (Proc.devRef .tc main_arg9) := W2_of_ne m ρ c main_arg9 (by decide)
    _ = W0 m ρ c (Proc.devRef .tc main_arg9) := by skip_host hostOps0 main_arg9

/-- A buffer the first stretch wrote is untouched by the first launch. -/
theorem v1_W2 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

/-- A buffer the first stretch wrote is untouched up to the third stretch. -/
theorem v1_W4 : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by skip_host hostOps1 main_v1
    _ = W1 m ρ c (Proc.devRef .tc main_v1) := W2_of_ne m ρ c main_v1 (by decide)

/-- A buffer the first stretch wrote is untouched by the first launch. -/
theorem v3_W2 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- A buffer the first stretch wrote is untouched up to the third stretch. -/
theorem v3_W4 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by skip_host hostOps1 main_v3
    _ = W1 m ρ c (Proc.devRef .tc main_v3) := W2_of_ne m ρ c main_v3 (by decide)

/-- A buffer the first stretch wrote is untouched by the first launch. -/
theorem v28_W2 : W2 m ρ c (Proc.devRef .tc main_v28) = W1 m ρ c (Proc.devRef .tc main_v28) :=
  calc W2 m ρ c (Proc.devRef .tc main_v28)
    _ = W1 m ρ c (Proc.devRef .tc main_v28) := W2_of_ne m ρ c main_v28 (by decide)

/-- A buffer the first stretch wrote is untouched up to the third stretch. -/
theorem v28_W4 : W4 m ρ c (Proc.devRef .tc main_v28) = W1 m ρ c (Proc.devRef .tc main_v28) :=
  calc W4 m ρ c (Proc.devRef .tc main_v28)
    _ = W3 m ρ c (Proc.devRef .tc main_v28) := W4_of_ne m ρ c main_v28 (by decide)
    _ = W2 m ρ c (Proc.devRef .tc main_v28) := by skip_host hostOps1 main_v28
    _ = W1 m ρ c (Proc.devRef .tc main_v28) := W2_of_ne m ρ c main_v28 (by decide)

/-- The squared-scale column, written by the first stretch, is as written when the second launch starts. -/
theorem v12_W3 : W3 m ρ c (Proc.devRef .tc main_v12) = W1 m ρ c (Proc.devRef .tc main_v12) :=
  calc W3 m ρ c (Proc.devRef .tc main_v12)
    _ = W2 m ρ c (Proc.devRef .tc main_v12) := by skip_host hostOps1 main_v12
    _ = W1 m ρ c (Proc.devRef .tc main_v12) := W2_of_ne m ρ c main_v12 (by decide)

/-- The squared-scale column, written by the first stretch, is as written when the third launch starts. -/
theorem v12_W5 : W5 m ρ c (Proc.devRef .tc main_v12) = W1 m ρ c (Proc.devRef .tc main_v12) :=
  calc W5 m ρ c (Proc.devRef .tc main_v12)
    _ = W4 m ρ c (Proc.devRef .tc main_v12) := by skip_host hostOps2 main_v12
    _ = W3 m ρ c (Proc.devRef .tc main_v12) := (W4_arr m ρ c 2).trans (((dat1 (V3 m ρ) c).arrAt_in 2 rfl _).trans (A_eq1 (V3 m ρ) c 2))
    _ = W2 m ρ c (Proc.devRef .tc main_v12) := by skip_host hostOps1 main_v12
    _ = W1 m ρ c (Proc.devRef .tc main_v12) := W2_of_ne m ρ c main_v12 (by decide)

/-- The first launch's output is untouched by the second stretch. -/
theorem v29_W3 : W3 m ρ c (Proc.devRef .tc main_v29) = W2 m ρ c (Proc.devRef .tc main_v29) :=
  calc W3 m ρ c (Proc.devRef .tc main_v29)
    _ = W2 m ρ c (Proc.devRef .tc main_v29) := by skip_host hostOps1 main_v29

/-- The joined bias, written by the second stretch, is untouched by the second launch. -/
theorem v45_W4 : W4 m ρ c (Proc.devRef .tc main_v45) = W3 m ρ c (Proc.devRef .tc main_v45) :=
  calc W4 m ρ c (Proc.devRef .tc main_v45)
    _ = W3 m ρ c (Proc.devRef .tc main_v45) := W4_of_ne m ρ c main_v45 (by decide)

/-- The second launch's output is untouched by the third stretch. -/
theorem v46_W5 : W5 m ρ c (Proc.devRef .tc main_v46) = W4 m ρ c (Proc.devRef .tc main_v46) :=
  calc W5 m ρ c (Proc.devRef .tc main_v46)
    _ = W4 m ρ c (Proc.devRef .tc main_v46) := by skip_host hostOps2 main_v46

end Cert.KernelIdeal.KThread

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KHost0.lean ====
/-
  What the first stretch of host operations leaves for the launches.

  Before the first launch the program computes, from the edge list alone, the source and destination node of every
  edge, the inverse square root of every node's degree, its square as a one-column matrix, and every edge's weight
  (the product of its two endpoints' inverse square roots) as a one-column matrix.  The reference computes the same
  quantities by the same operations; each is named here by the reference's own stage function of the edge list, so
  that later stages of the two programs can be compared through these names.  The two one-column matrices are
  reshapes in this program where the reference broadcasts, so they are read at an entry.
-/
import proofs.«179847_j10969346474792_2_alg».proof.Proof.Gen.KernelIdeal.Frame
import proofs.«179847_j10969346474792_2_alg».proof.Proof.Gen.ReferenceIdeal.Read
import proofs.«179847_j10969346474792_2_alg».proof.Proof.LibColumnLayout

set_option maxRecDepth 16384

noncomputable section

namespace Cert.KernelIdeal.KHost0

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- Every edge's source node, as the reference names it. -/
theorem src_eq : W1 (F := Ideal) m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results
  rfl

/-- Every edge's destination node, as the reference names it. -/
theorem dst_eq : W1 (F := Ideal) m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl

/-- The squared inverse square root of node `p`'s degree sits in row `p` of the one-column matrix. -/
theorem dsq_apply (p : Fin 50000) :
    W1 (F := Ideal) m ρ c (Proc.devRef .tc main_v12) (ix2 p 0) = Cert.ReferenceIdeal.Read.val_main_v40 (F := Ideal) (m ((c : Thread nD τ).loc main_arg1)) (ix1 p) := by
  have e : W1 (F := Ideal) m ρ c (Proc.devRef .tc main_v12)
      = shapeCast S50000x1 (Cert.ReferenceIdeal.Read.val_main_v40 (F := Ideal) (m ((c : Thread nD τ).loc main_arg1))) shapeCasts_S50000_S50000x1 := by
    show StableHlo.after hostOps0 (W0 m ρ c) (Proc.devRef .tc main_v12) = _
    after_results
    rfl
  rw [e]
  exact Cert.ColumnLayout.shapeCast_a_a1_apply _ _ p 0

set_option maxHeartbeats 4000000 in
/-- Edge `e`'s weight sits in row `e` of the one-column matrix. -/
theorem nrm_apply (e : Fin 800000) :
    W1 (F := Ideal) m ρ c (Proc.devRef .tc main_v28) (ix2 e 0) = Cert.ReferenceIdeal.Read.val_main_v26 (F := Ideal) (m ((c : Thread nD τ).loc main_arg1)) (ix1 e) := by
  have h : W1 (F := Ideal) m ρ c (Proc.devRef .tc main_v28)
      = shapeCast S800000x1 (Cert.ReferenceIdeal.Read.val_main_v26 (F := Ideal) (m ((c : Thread nD τ).loc main_arg1))) shapeCasts_S800000_S800000x1 := by
    show StableHlo.after hostOps0 (W0 m ρ c) (Proc.devRef .tc main_v28) = _
    after_results_simp
    rfl
  rw [h]
  exact Cert.ColumnLayout.shapeCast_a_a1_apply _ _ e 0

end Cert.KernelIdeal.KHost0

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.Region0.lean ====
/-
  The first matrix-product region, from blocks to the whole array.

  The region's grid has ten points. At point `t` the body reads rows `5000 t … 5000 t + 4999` of the `[50000, 256]`
  operand and the whole `[256, 128]` operand, and writes rows `5000 t … 5000 t + 4999` of the `[50000, 128]` result:
  the plain matrix product of the two blocks into a zero accumulator (the narrowing conversions before and after it are
  the identity on the ideal values). A row of the product depends only on the same row of the left operand, so every
  block written is the restriction of ONE function of the two whole arrays — entry `(p, q)` is
  `∑ k, a[p, k] · b[k, q]` — and the ten row blocks cover the result.
-/
import proofs.«179847_j10969346474792_2_alg».proof.Proof.Gen.KernelIdeal.Frame
import proofs.«179847_j10969346474792_2_alg».proof.Proof.LibPlainProduct
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

/-! ## The dimension numbers of the block product: contraction over the left operand's columns and the right operand's rows -/

theorem lhs_row (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_col (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_row (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_col (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-! ## One block: the body's result at an entry -/

/-- Entry `(p, q)` of the block the body writes is the inner product of row `p` of the left block with column `q` of the
    right operand. -/
theorem block_entry (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  rw [truncf_apply]
  exact Cert.PlainProduct.matmul_zero_entry dot_S5000x256_S256x128_S5000x128_1_0_0_1_n_n rfl rfl lhs_row lhs_col rhs_row rhs_col
    (truncf .bf16 x0 bitsLt_bf16_f32) (truncf .bf16 x1 bitsLt_bf16_f32) p q

/-- Two such inner products agree when the row read and the column read agree term by term. -/
theorem inner_congr (x0 : Vec Ideal S5000x256 .f32) (x1 : Vec Ideal S256x128 .f32)
    (a : S50000x256.Idx → Elt Ideal .f32) (b : S256x128.Idx → Elt Ideal .f32)
    (p : Fin 5000) (q : Fin 128) (P : Fin 50000) (Q : Fin 128)
    (h0 : ∀ k : Fin 256, x0 (ix2 p k) = a (ix2 P k)) (h1 : ∀ k : Fin 256, x1 (ix2 k q) = b (ix2 k Q)) :
    ∑ k : Fin 256, x0 (ix2 p k) * x1 (ix2 k q) = ∑ k : Fin 256, a (ix2 P k) * b (ix2 k Q) :=
  Finset.sum_congr rfl fun k _ => by rw [h0 k, h1 k]

/-! ## The whole result as one function of the two operand arrays -/

/-- Entry `(p, q)` of the product of the whole arrays `a` (`[50000, 256]`) and `b` (`[256, 128]`). -/
abbrev entry (a : S50000x256.Idx → Elt Ideal .f32) (b : S256x128.Idx → Elt Ideal .f32) (p : Fin 50000) (q : Fin 128) : Elt Ideal .bf16 :=
  ∑ k : Fin 256, a (ix2 p k) * b (ix2 k q)

/-- The product of the whole arrays, as a function of the result's index. -/
abbrev product (a : S50000x256.Idx → Elt Ideal .f32) (b : S256x128.Idx → Elt Ideal .f32) : S50000x128.Idx → Elt Ideal .bf16 :=
  fun i => entry a b ⟨(i 0).val, (i 0).isLt⟩ ⟨(i 1).val, (i 1).isLt⟩

theorem zeros : (![0, 0] : Fin 2 → Nat) = fun _ => 0 := funext fun a => by fin_cases a <;> rfl

/-- The printed index maps over the grid: the left operand's row block moves with the result's, which is the point's
    number; every other block index is zero. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every row block of the result is some point's. -/
theorem index_onto : ∀ r : Fin 10, ∃ t : Fin cfg0.N, win0_2.index t = ![r.val, 0] :=
  (by decide +kernel : ∀ r : Fin 10, ∃ t : Fin grid0.N, win0_2.index t = ![r.val, 0])

/-- What point `t` writes, entry by entry, is the product of the whole arrays at the entry's place in the result. -/
theorem written_entry (V : (c : Dev nD) → (b : Ref sig .tc) → Buf (Elt Ideal) ((c : Thread nD τ).loc b)) (c : Dev nD)
    (t : Fin cfg0.N) (j : S5000x128.Idx) :
    k0_pay1 (F := Ideal) (iblk0 V c 0 t) (iblk0 V c 1 t) j
      = product (V c main_arg0) (V c main_arg3) (((cfg0.win 2).blk t).view.emb j) := by
  obtain ⟨p, q, rfl⟩ : ∃ (p : Fin 5000) (q : Fin 128), j = ix2 p q := ⟨j 0, j 1, eq_ix2 j⟩
  obtain ⟨e0, e1, e2, e3, e4, e5⟩ := index_facts t
  refine (block_entry (iblk0 V c 0 t) (iblk0 V c 1 t) p q).trans
    (inner_congr _ _ (V c main_arg0) (V c main_arg3) p q _ _ (fun k => ?_) (fun k => ?_))
  · show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  · show V c main_arg3 (((cfg0.win 1).blk t).view.emb (ix2 k q)) = _
    refine congrArg (V c main_arg3) ?_
    funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega

/-- WHAT POINT `t` WRITES BACK is block `t` of the product of the whole arrays. -/
theorem flushed_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (product (V c main_arg0) (V c main_arg3)) := by
  show (cfg0.win 2).cut (grid0.coords t) ((dat0 (F := Ideal) V c).after 2 t) = _
  rw [after0_2]
  unfold out0_2
  rw [View.canon_unit_zero zeros]
  simp only [View.ld_unit_zero (S := S5000x256) zeros, View.ld_unit_zero (S := S256x128) zeros]
  funext j
  exact written_entry V c t j

/-! ## The ten row blocks cover the result -/

/-- An index of the result is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Row `r` of the result is written at point `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-! ## The array after the region -/

/-- The result array after the region is the product of the two operand arrays as the region finds them. -/
theorem final_array (V : (c : Dev nD) → (b : Ref sig .tc) → Buf (Elt Ideal) ((c : Thread nD τ).loc b)) (c : Dev nD) :
    (dat0 (F := Ideal) V c).arrAt 2 cfg0.N = product (V c main_arg0) (V c main_arg3) :=
  (dat0 (F := Ideal) V c).arrAt_eq_of_cover 2 (product (V c main_arg0) (V c main_arg3)) (fun t _ => flushed_eq V c t) cover

/-- Entry `(p, q)` of the result array after the region. -/
theorem final (V : (c : Dev nD) → (b : Ref sig .tc) → Buf (Elt Ideal) ((c : Thread nD τ).loc b)) (c : Dev nD)
    (p : Fin 50000) (q : Fin 128) :
    (dat0 (F := Ideal) V c).arrAt 2 cfg0.N (ix2 p q) = entry (V c main_arg0) (V c main_arg3) p q :=
  congrFun (final_array V c) (ix2 p q)

end Cert.KernelIdeal.Region0

end
-- ==== Proof.KStage1.lean ====
/-
  The first launch computes the reference's first matrix product.

  The first launch finds the node features and the first weight matrix as launched and leaves, in its output, their
  plain matrix product: entry (p, q) is the sum over k of x[p, k] · W1[k, q].  The reference's first stage is the
  host's product of the same two arrays, which at the ideal values is the same sum.
-/
import proofs.«179847_j10969346474792_2_alg».proof.Proof.Gen.KernelIdeal.Frame
import proofs.«179847_j10969346474792_2_alg».proof.Proof.Gen.ReferenceIdeal.Read
import proofs.«179847_j10969346474792_2_alg».proof.Proof.KThread
import proofs.«179847_j10969346474792_2_alg».proof.Proof.Region0

set_option maxRecDepth 16384

noncomputable section

namespace Cert.KernelIdeal.KStage1

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The first launch reads the node features as launched. -/
theorem feat_eq : V1 m ρ c main_arg0 = m ((c : Thread nD τ).loc main_arg0) := KThread.arg0_W1 m ρ c
/-- The first launch reads the first weight matrix as launched. -/
theorem w1_eq : V1 m ρ c main_arg3 = m ((c : Thread nD τ).loc main_arg3) := KThread.arg3_W1 m ρ c

/-- Entry (p, q) of the first launch's output is entry (p, q) of the reference's first product. -/
theorem h1_apply (p : Fin 50000) (q : Fin 128) :
    W2 m ρ c (Proc.devRef .tc main_v29) (ix2 p q)
      = Cert.ReferenceIdeal.Read.val_main_v11 (F := Ideal) (m ((c : Thread nD τ).loc main_arg0)) (m ((c : Thread nD τ).loc main_arg3)) (ix2 p q) := by
  have hl : ∀ k : Fin 256, Cert.ReferenceIdeal.Read.lidx_main_v11 (ix2 p q) k = ix2 p k := fun k =>
    funext fun a => Fin.ext (by match a with | ⟨0, _⟩ => rfl | ⟨1, _⟩ => rfl)
  have hr : ∀ k : Fin 256, Cert.ReferenceIdeal.Read.ridx_main_v11 (ix2 p q) k = ix2 k q := fun k =>
    funext fun a => Fin.ext (by match a with | ⟨0, _⟩ => rfl | ⟨1, _⟩ => rfl)
  rw [Cert.ReferenceIdeal.Read.val_main_v11_apply]
  simp only [hl, hr]
  show W2 m ρ c (Proc.devRef .tc (Pipeline.arrRef spec0 2)) (ix2 p q) = _
  rw [W2_arr m ρ c 2, Region0.final (V1 m ρ) c p q, feat_eq, w1_eq]

end Cert.KernelIdeal.KStage1

end
-- ==== Proof.LibGatherRows.lean ====
/-
  A host gather of whole rows, read at one element.

  Two layouts of the same indexing x[idx] along one axis.  For a matrix of shape [N, C] and start indices of shape
  [E, 1] (one row number per result row), the result [E, C] holds at (e, c) the operand's element (r, c), where r is
  the start index of e read as a signed integer and clamped into [0, N - 1].  For a rank-3 array of shape [B, N, C]
  gathered along its MIDDLE axis (x[:, idx]), the result [B, E, C] holds at (b, e, c) the operand's element (b, r, c)
  with the same r.  The clamp is the gather's own: a start index below zero reads row 0, one past the end reads the
  last row.
-/
import Idealize.ShloMosaic.PureOps.ShapeOps
import Idealize.ShloMosaic.Lib.ValueIdx

namespace Cert.GatherRows

open Idealize.ShloMosaic Idealize.ShloMosaic.ValueIdx

variable {α : Type} {B N E C w : Nat}

/-- The row a start index names: read signed, clamped into [0, N - 1]. -/
def row (hN : 0 < N) (idx : IVec ⟨2, ![E, 1]⟩ w) (e : Fin E) : Fin N :=
  ⟨min (idx (ix2 e 0)).toInt.toNat (N - 1), by omega⟩

/-! ## Rows of a matrix -/

/-- The dimension numbers of x[idx] on a matrix: axis 0 collapsed and indexed, axis 1 carried over whole. -/
abbrev rowsDims (N E C : Nat) (sb : List (Fin 2))
    (wf : GatherDims.WF ⟨2, ![N, C]⟩ ⟨2, ![E, 1]⟩ ⟨2, ![E, C]⟩ [1] [0] [] [0] sb 1 ![1, C]) :
    GatherDims ⟨2, ![N, C]⟩ ⟨2, ![E, 1]⟩ ⟨2, ![E, C]⟩ where
  offsetDims := [1]
  collapsedSliceDims := [0]
  operandBatchingDims := []
  startIndicesBatchingDims := sb
  startIndexMap := [0]
  indexVectorDim := 1
  sliceSizes := ![1, C]
  wf := wf

theorem rowsDims_apply (hN : 0 < N) (sb : List (Fin 2))
    (wf : GatherDims.WF ⟨2, ![N, C]⟩ ⟨2, ![E, 1]⟩ ⟨2, ![E, C]⟩ [1] [0] [] [0] sb 1 ![1, C])
    (x : (⟨2, ![N, C]⟩ : Shape).Idx → α) (idx : IVec ⟨2, ![E, 1]⟩ w) (e : Fin E) (c : Fin C) :
    Host.gather (rowsDims N E C sb wf) x idx (ix2 e c) = x (ix2 (row hN idx e) c) := by
  unfold Host.gather
  congr 1
  funext a
  refine Fin.ext ?_
  match a with
  | ⟨0, _⟩ =>
    show (rowsDims N E C sb wf).start (ix2 e c) idx 0 + (rowsDims N E C sb wf).batchCoord (ix2 e c) 0
      + (rowsDims N E C sb wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C sb wf).startIndexMap from List.mem_singleton.mpr rfl)]
    have hsi : (rowsDims N E C sb wf).siIdx (ix2 e c) ⟨List.idxOf (0 : Fin 2) (rowsDims N E C sb wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C sb wf).start (ix2 e c) idx 1 + (rowsDims N E C sb wf).batchCoord (ix2 e c) 1
      + (rowsDims N E C sb wf).offCoord (ix2 e c) 1 = c.val
    rw [GatherDims.batchCoord_eq_zero _ _ _ List.not_mem_nil]
    have hst : (rowsDims N E C sb wf).start (ix2 e c) idx 1 = 0 := by
      unfold GatherDims.start
      rw [dif_neg (by simp)]
    have hoc : (rowsDims N E C sb wf).offCoord (ix2 e c) 1 = c.val := by
      unfold GatherDims.offCoord
      rw [dif_pos (by simp [GatherDims.sKept, Shape.kept])]
      rfl
    rw [hst, hoc]
    omega

/-- Rows of a matrix gathered: result (e, c) is the operand at (row of e, c). -/
theorem gather_rows2 (hN : 0 < N) (d : GatherDims ⟨2, ![N, C]⟩ ⟨2, ![E, 1]⟩ ⟨2, ![E, C]⟩)
    (hod : d.offsetDims = [1]) (hcs : d.collapsedSliceDims = [0]) (hob : d.operandBatchingDims = [])
    (hsm : d.startIndexMap = [0]) (hiv : d.indexVectorDim = 1) (hss : d.sliceSizes = ![1, C])
    (x : (⟨2, ![N, C]⟩ : Shape).Idx → α) (idx : IVec ⟨2, ![E, 1]⟩ w) (e : Fin E) (c : Fin C) :
    Host.gather d x idx (ix2 e c) = x (ix2 (row hN idx e) c) := by
  obtain ⟨od, cs, ob, sb, sm, iv, ss, wf⟩ := d
  simp only at hod hcs hob hsm hiv hss
  subst hod hcs hob hsm hiv hss
  exact rowsDims_apply hN sb wf x idx e c

/-! ## Rows along the middle axis of a rank-3 array -/

/-- The dimension numbers of x[:, idx] on a rank-3 array: axis 1 collapsed and indexed, axes 0 and 2 carried over whole. -/
abbrev midDims (B N E C : Nat) (sb : List (Fin 2))
    (wf : GatherDims.WF ⟨3, ![B, N, C]⟩ ⟨2, ![E, 1]⟩ ⟨3, ![B, E, C]⟩ [0, 2] [1] [] [1] sb 1 ![B, 1, C]) :
    GatherDims ⟨3, ![B, N, C]⟩ ⟨2, ![E, 1]⟩ ⟨3, ![B, E, C]⟩ where
  offsetDims := [0, 2]
  collapsedSliceDims := [1]
  operandBatchingDims := []
  startIndicesBatchingDims := sb
  startIndexMap := [1]
  indexVectorDim := 1
  sliceSizes := ![B, 1, C]
  wf := wf

theorem midDims_apply (hN : 0 < N) (sb : List (Fin 2))
    (wf : GatherDims.WF ⟨3, ![B, N, C]⟩ ⟨2, ![E, 1]⟩ ⟨3, ![B, E, C]⟩ [0, 2] [1] [] [1] sb 1 ![B, 1, C])
    (x : (⟨3, ![B, N, C]⟩ : Shape).Idx → α) (idx : IVec ⟨2, ![E, 1]⟩ w) (b : Fin B) (e : Fin E) (c : Fin C) :
    Host.gather (midDims B N E C sb wf) x idx (ix3 b e c) = x (ix3 b (row hN idx e) c) := by
  unfold Host.gather
  congr 1
  funext a
  refine Fin.ext ?_
  match a with
  | ⟨0, _⟩ =>
    show (midDims B N E C sb wf).start (ix3 b e c) idx 0 + (midDims B N E C sb wf).batchCoord (ix3 b e c) 0
      + (midDims B N E C sb wf).offCoord (ix3 b e c) 0 = b.val
    rw [GatherDims.batchCoord_eq_zero _ _ _ List.not_mem_nil]
    have hst : (midDims B N E C sb wf).start (ix3 b e c) idx 0 = 0 := by
      unfold GatherDims.start
      rw [dif_neg (by simp)]
    have hoc : (midDims B N E C sb wf).offCoord (ix3 b e c) 0 = b.val := by
      unfold GatherDims.offCoord
      rw [dif_pos (by simp [GatherDims.sKept, Shape.kept])]
      rfl
    rw [hst, hoc]
    omega
  | ⟨1, _⟩ =>
    show (midDims B N E C sb wf).start (ix3 b e c) idx 1 + (midDims B N E C sb wf).batchCoord (ix3 b e c) 1
      + (midDims B N E C sb wf).offCoord (ix3 b e c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midDims B N E C sb wf).startIndexMap from List.mem_singleton.mpr rfl)]
    have hsi : (midDims B N E C sb wf).siIdx (ix3 b e c) ⟨List.idxOf (1 : Fin 3) (midDims B N E C sb wf).startIndexMap,
        List.idxOf_lt_length_iff.2 (List.mem_singleton.mpr rfl)⟩ = ix2 e 0 := by
      funext b'; refine Fin.ext ?_
      match b' with
      | ⟨0, _⟩ => rfl
      | ⟨1, _⟩ => rfl
    rw [hsi]
    rfl
  | ⟨2, _⟩ =>
    show (midDims B N E C sb wf).start (ix3 b e c) idx 2 + (midDims B N E C sb wf).batchCoord (ix3 b e c) 2
      + (midDims B N E C sb wf).offCoord (ix3 b e c) 2 = c.val
    rw [GatherDims.batchCoord_eq_zero _ _ _ List.not_mem_nil]
    have hst : (midDims B N E C sb wf).start (ix3 b e c) idx 2 = 0 := by
      unfold GatherDims.start
      rw [dif_neg (by simp)]
    have hoc : (midDims B N E C sb wf).offCoord (ix3 b e c) 2 = c.val := by
      unfold GatherDims.offCoord
      rw [dif_pos (by simp [GatherDims.sKept, Shape.kept])]
      rfl
    rw [hst, hoc]
    omega

/-- Rows gathered along the middle axis of a rank-3 array: result (b, e, c) is the operand at (b, row of e, c). -/
theorem gather_mid3 (hN : 0 < N) (d : GatherDims ⟨3, ![B, N, C]⟩ ⟨2, ![E, 1]⟩ ⟨3, ![B, E, C]⟩)
    (hod : d.offsetDims = [0, 2]) (hcs : d.collapsedSliceDims = [1]) (hob : d.operandBatchingDims = [])
    (hsm : d.startIndexMap = [1]) (hiv : d.indexVectorDim = 1) (hss : d.sliceSizes = ![B, 1, C])
    (x : (⟨3, ![B, N, C]⟩ : Shape).Idx → α) (idx : IVec ⟨2, ![E, 1]⟩ w) (b : Fin B) (e : Fin E) (c : Fin C) :
    Host.gather d x idx (ix3 b e c) = x (ix3 b (row hN idx e) c) := by
  obtain ⟨od, cs, ob, sb, sm, iv, ss, wf⟩ := d
  simp only at hod hcs hob hsm hiv hss
  subst hod hcs hob hsm hiv hss
  exact midDims_apply hN sb wf x idx b e c

end Cert.GatherRows
-- ==== Proof.LibHostLayout.lean ====
/-
  The host's broadcasts of a vector along the rows or along the columns of a matrix, read at an entry.

  A length-a vector placed as an a × 1 column and that column repeated across b columns holds, at (p, c), the vector's
  entry p. A length-b vector placed as a 1 × b row and that row repeated down a rows holds, at (p, c), the vector's
  entry c. These are the forms a per-row quantity (a row maximum, a row sum) and a bias take when they are combined
  with a matrix entry by entry.
-/
import Idealize.ShloMosaic.Lib.Pipeline.Value
import Idealize.ShloMosaic.Lib.ValueIdx

namespace Cert.HostLayout

open Idealize.ShloMosaic Idealize.ShloMosaic.ValueIdx

variable {α : Type}

/-- An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a, 1]` column broadcast in dimensions (0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` array broadcast in dimension 1 to `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A `[1, b]` row broadcast in dimensions (0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A rank-0 array broadcast to any shape reads, everywhere, its one entry. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.HostLayout
-- ==== Proof.LibConcatCols.lean ====
/-
  Two matrices with the same number of rows laid side by side, read at one entry.

  Joining an [n, a] matrix and an [n, b] matrix along their columns gives an [n, c] matrix whose first a columns are the
  first matrix and whose remaining columns are the second: entry (p, q) is the first matrix's entry (p, q) when q < a, and
  the second matrix's entry (p, q - a) otherwise. Both readings are stated with the piece's own column q' and the
  arithmetic relation between q' and q, so that a caller names the column it wants and proves the relation.
-/
import Idealize.ShloMosaic.Lib.Pipeline.Value
import Idealize.ShloMosaic.Lib.ValueIdx

namespace Cert.ConcatCols

open Idealize.ShloMosaic Idealize.ShloMosaic.ValueIdx

variable {α : Type} {n a b c : Nat}

/-- A column q of the joined matrix that is column q' of the first piece (q' = q) reads the first piece. -/
theorem concat_cols_left (x : (⟨2, ![n, a]⟩ : Shape).Idx → α) (y : (⟨2, ![n, b]⟩ : Shape).Idx → α)
    (h : Shape.Concatenates [⟨2, ![n, a]⟩, ⟨2, ![n, b]⟩] ⟨2, ![n, c]⟩ 1) (p : Fin n) (q : Fin c) (q' : Fin a)
    (hq : q'.val = q.val) :
    concatenate ⟨2, ![n, c]⟩ 1 [⟨⟨2, ![n, a]⟩, x⟩, ⟨⟨2, ![n, b]⟩, y⟩] h (ix2 p q) = x (ix2 p q') :=
  concatenate_pair_apply_left 1 x y h (ix2 p q) rfl (ix2 p q') fun ax =>
    match ax with
    | ⟨0, _⟩ => rfl
    | ⟨1, _⟩ => hq

/-- A column q of the joined matrix that lies a columns past column q' of the second piece (q' + a = q) reads the
    second piece. -/
theorem concat_cols_right (x : (⟨2, ![n, a]⟩ : Shape).Idx → α) (y : (⟨2, ![n, b]⟩ : Shape).Idx → α)
    (h : Shape.Concatenates [⟨2, ![n, a]⟩, ⟨2, ![n, b]⟩] ⟨2, ![n, c]⟩ 1) (p : Fin n) (q : Fin c) (q' : Fin b)
    (hq : q'.val + a = q.val) :
    concatenate ⟨2, ![n, c]⟩ 1 [⟨⟨2, ![n, a]⟩, x⟩, ⟨⟨2, ![n, b]⟩, y⟩] h (ix2 p q) = y (ix2 p q') :=
  concatenate_pair_apply_right 1 x y h (ix2 p q) rfl rfl (ix2 p q')
    (fun ax hax =>
      match ax, hax with
      | ⟨0, _⟩, _ => rfl
      | ⟨1, _⟩, hax => absurd rfl hax)
    hq

end Cert.ConcatCols
-- ==== Proof.KHost1.lean ====
/-
  What the second stretch of host operations leaves for the second launch.

  Between the first two launches the program gathers the first product's rows along the edges' sources, scales each
  gathered row by its edge's weight and sums the rows into their destinations; it also reshapes the first bias into a
  row and joins the two second-layer weight matrices side by side and the two second-layer biases end to end.  The
  neighbourhood sum is, operation for operation, the reference's (the reference broadcasts where this program
  reshapes, and gathers the product itself where this program gathers its narrowed copy: equal entry by entry).  The
  joined matrix reads its left half from the third layer's weights and its right half from the fourth layer's.
-/
import proofs.«179847_j10969346474792_2_alg».proof.Proof.Gen.KernelIdeal.Frame
import proofs.«179847_j10969346474792_2_alg».proof.Proof.Gen.ReferenceIdeal.Read
import proofs.«179847_j10969346474792_2_alg».proof.Proof.KThread
import proofs.«179847_j10969346474792_2_alg».proof.Proof.KHost0
import proofs.«179847_j10969346474792_2_alg».proof.Proof.KStage1
import proofs.«179847_j10969346474792_2_alg».proof.Proof.LibGatherRows
import proofs.«179847_j10969346474792_2_alg».proof.Proof.LibHostLayout
import proofs.«179847_j10969346474792_2_alg».proof.Proof.LibConcatCols
import Idealize.ShloMosaic.Lib.ValueLayout

set_option maxRecDepth 16384

noncomputable section

namespace Cert.KernelIdeal.KHost1

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- Column `q` of the left half of a 128-column matrix. -/
abbrev lo (q : Fin 64) : Fin 128 := ⟨q.val, by omega⟩
/-- Column `q` of the right half of a 128-column matrix. -/
abbrev hi (q : Fin 64) : Fin 128 := ⟨q.val + 64, by omega⟩

/-- Two accumulating scatters with the same dimension numbers agree when their three operands do. -/
theorem scatter_congr {s si u : Shape} {w : Nat} {φ : FTy} (d : ScatterDims s si u)
    {z z' : FVec Ideal s φ} {i i' : IVec si w} {v v' : FVec Ideal u φ} (hz : z = z') (hi : i = i') (hv : v = v') :
    Host.scatterAdd (F := Ideal) d z i v = Host.scatterAdd (F := Ideal) d z' i' v' := by
  subst hz hi hv; rfl

/-- The gathered, scaled rows of the first product, entry by entry, are the reference's. -/
theorem msg1_apply (H : FVec Ideal S50000x128 .bf16) (N : FVec Ideal S800000x1 .f32)
    (hH : ∀ p q, H (ix2 p q) = Cert.ReferenceIdeal.Read.val_main_v11 (F := Ideal) (m ((c : Thread nD τ).loc main_arg0)) (m ((c : Thread nD τ).loc main_arg3)) (ix2 p q))
    (hN : ∀ e : Fin 800000, N (ix2 e 0) = Cert.ReferenceIdeal.Read.val_main_v26 (F := Ideal) (m ((c : Thread nD τ).loc main_arg1)) (ix1 e)) (e : Fin 800000) (j : Fin 128) :
    mulf (extf .f32 (Host.gather gather_S50000x128_S800000x1_S800000x128_1_0_n_n_0_1_1128 H (Cert.ReferenceIdeal.Read.val_main_v32 (F := Ideal) (m ((c : Thread nD τ).loc main_arg1)))) bitsLt_bf16_f32)
        (broadcastInDim S800000x128 ![0, 1] bcast_S800000x1_S800000x128_0_1 N) (ix2 e j)
      = Cert.ReferenceIdeal.Read.val_main_v36 (F := Ideal) (m ((c : Thread nD τ).loc main_arg0)) (m ((c : Thread nD τ).loc main_arg1)) (m ((c : Thread nD τ).loc main_arg3)) (ix2 e j) := by
  rw [mulf_apply, extf_apply,
    Cert.GatherRows.gather_rows2 (by decide) gather_S50000x128_S800000x1_S800000x128_1_0_n_n_0_1_1128 rfl rfl rfl rfl rfl rfl,
    Cert.HostLayout.broadcastInDim_a1_ab_apply, hH, hN]
  rw [Cert.ReferenceIdeal.Read.val_main_v36_apply, Cert.ReferenceIdeal.Read.val_main_v35_apply, Cert.ReferenceIdeal.Read.val_main_v34_apply]
  unfold Cert.ReferenceIdeal.Read.val_main_v33
  rw [Cert.GatherRows.gather_rows2 (by decide) Cert.ReferenceIdeal.gather_S50000x128_S800000x1_S800000x128_1_0_n_n_0_1_1128 rfl rfl rfl rfl rfl rfl]
  have hi : Cert.ReferenceIdeal.Read.idx_main_v34 (Cert.ReferenceIdeal.Read.idx_main_v35 (ix2 e j)) = ix1 e :=
    funext fun a => Fin.ext (by match a with | ⟨0, _⟩ => rfl)
  rw [hi]
  rfl

/-- The first product, untouched by the second stretch, entry by entry. -/
theorem h1_W3 (p : Fin 50000) (q : Fin 128) :
    W3 m ρ c (Proc.devRef .tc main_v29) (ix2 p q) = Cert.ReferenceIdeal.Read.val_main_v11 (F := Ideal) (m ((c : Thread nD τ).loc main_arg0)) (m ((c : Thread nD τ).loc main_arg3)) (ix2 p q) := by
  rw [KThread.v29_W3 m ρ c]; exact KStage1.h1_apply m ρ c p q

/-- The squared inverse square root of node `p`'s degree, as the second launch finds it. -/
theorem dsq_W3 (p : Fin 50000) :
    W3 m ρ c (Proc.devRef .tc main_v12) (ix2 p 0) = Cert.ReferenceIdeal.Read.val_main_v40 (F := Ideal) (m ((c : Thread nD τ).loc main_arg1)) (ix1 p) := by
  rw [KThread.v12_W3 m ρ c]; exact KHost0.dsq_apply m ρ c p

set_option maxHeartbeats 4000000 in
/-- THE FIRST NEIGHBOURHOOD SUM is the reference's: the same scatter of the same gathered, scaled rows. -/
theorem agg1_eq : W3 m ρ c (Proc.devRef .tc main_v42) = Cert.ReferenceIdeal.Read.val_main_v39 (F := Ideal) (m ((c : Thread nD τ).loc main_arg0)) (m ((c : Thread nD τ).loc main_arg1)) (m ((c : Thread nD τ).loc main_arg3)) := by
  show StableHlo.after hostOps1 (W2 m ρ c) (Proc.devRef .tc main_v42) = _
  after_results_simp
  rw [KThread.v3_W2 m ρ c, KThread.v1_W2 m ρ c, KHost0.dst_eq m ρ c, KHost0.src_eq m ρ c]
  unfold Cert.ReferenceIdeal.Read.val_main_v39
  refine scatter_congr scatter_S50000x128_S800000x1_S800000x128_1_0_0_1 rfl rfl ?_
  funext i
  obtain ⟨e, j, rfl⟩ : ∃ (e : Fin 800000) (j : Fin 128), i = ix2 e j := ⟨i 0, i 1, eq_ix2 i⟩
  exact msg1_apply m c (W2 m ρ c (Proc.devRef .tc main_v29)) (W2 m ρ c (Proc.devRef .tc main_v28))
    (fun p q => KStage1.h1_apply m ρ c p q)
    (fun e => by rw [KThread.v28_W2 m ρ c]; exact KHost0.nrm_apply m ρ c e) e j

/-- The first bias as a row. -/
theorem b1row_apply (k : Fin 128) :
    W3 m ρ c (Proc.devRef .tc main_v43) (ix2 0 k) = (m ((c : Thread nD τ).loc main_arg4)) (ix1 k) := by
  have e : W3 m ρ c (Proc.devRef .tc main_v43) = shapeCast S1x128 (m ((c : Thread nD τ).loc main_arg4)) shapeCasts_S128_S1x128 := by
    show StableHlo.after hostOps1 (W2 m ρ c) (Proc.devRef .tc main_v43) = _
    after_results_simp
    rw [KThread.arg4_W2 m ρ c]
    rfl
  rw [e]
  exact shapeCast_a_1a_apply _ _ 0 k

/-- The joined second-layer weights. -/
theorem w34_eq : W3 m ρ c (Proc.devRef .tc main_v44)
    = concatenate S128x128 1 [⟨S128x64, (m ((c : Thread nD τ).loc main_arg5))⟩, ⟨S128x64, (m ((c : Thread nD τ).loc main_arg7))⟩] concatenates_S128x64_S128x64_S128x128_d1 := by
  show StableHlo.after hostOps1 (W2 m ρ c) (Proc.devRef .tc main_v44) = _
  after_results
  rw [KThread.arg5_W2 m ρ c, KThread.arg7_W2 m ρ c]

/-- The left half of the joined weights is the third layer's. -/
theorem w34_lo (k : Fin 128) (q : Fin 64) : W3 m ρ c (Proc.devRef .tc main_v44) (ix2 k (lo q)) = (m ((c : Thread nD τ).loc main_arg5)) (ix2 k q) := by
  rw [w34_eq]
  exact Cert.ConcatCols.concat_cols_left _ _ _ k (lo q) q rfl

/-- The right half of the joined weights is the fourth layer's. -/
theorem w34_hi (k : Fin 128) (q : Fin 64) : W3 m ρ c (Proc.devRef .tc main_v44) (ix2 k (hi q)) = (m ((c : Thread nD τ).loc main_arg7)) (ix2 k q) := by
  rw [w34_eq]
  exact Cert.ConcatCols.concat_cols_right _ _ _ k (hi q) q rfl

/-- The joined second-layer biases. -/
theorem b34_eq : W3 m ρ c (Proc.devRef .tc main_v45)
    = concatenate S128 0 [⟨S64, (m ((c : Thread nD τ).loc main_arg6))⟩, ⟨S64, (m ((c : Thread nD τ).loc main_arg8))⟩] concatenates_S64_S64_S128_d0 := by
  show StableHlo.after hostOps1 (W2 m ρ c) (Proc.devRef .tc main_v45) = _
  after_results
  rw [KThread.arg6_W2 m ρ c, KThread.arg8_W2 m ρ c]

/-- The first half of the joined biases is the third layer's. -/
theorem b34_lo (q : Fin 64) : W3 m ρ c (Proc.devRef .tc main_v45) (ix1 (lo q)) = (m ((c : Thread nD τ).loc main_arg6)) (ix1 q) := by
  rw [b34_eq]
  exact concatenate_pair_apply_left 0 _ _ concatenates_S64_S64_S128_d0 (ix1 (lo q)) rfl (ix1 q)
    (fun b => by match b with | ⟨0, _⟩ => rfl)

/-- The second half of the joined biases is the fourth layer's. -/
theorem b34_hi (q : Fin 64) : W3 m ρ c (Proc.devRef .tc main_v45) (ix1 (hi q)) = (m ((c : Thread nD τ).loc main_arg8)) (ix1 q) := by
  rw [b34_eq]
  exact concatenate_pair_apply_right 0 _ _ concatenates_S64_S64_S128_d0 (ix1 (hi q)) rfl rfl (ix1 q)
    (fun b hb => by match b, hb with | ⟨0, _⟩, hb => exact absurd rfl hb) rfl

end Cert.KernelIdeal.KHost1

end
-- ==== Proof.Region1.lean ====
/-
  The second matrix-product region, from blocks to the whole array.

  The region's grid has ten points. At point `t` the body reads rows `5000 t … 5000 t + 4999` of two `[50000, 128]`
  arrays `u`, `w` and of a `[50000, 1]` column `d`, the whole `[1, 128]` row `s` and the whole `[128, 128]` matrix `m`,
  forms `h[p, k] = max (u[p, k] + w[p, k] · d[p, 0] + s[0, k]) 0` on its rows, and writes rows
  `5000 t … 5000 t + 4999` of the plain matrix product `h · m` into a zero accumulator (the format conversions
  and the same-shape casts are the identity on the ideal values). Row `p` of the result depends only on row `p` of the
  row-blocked operands, so every block written is the restriction of ONE function of the five whole arrays, and the ten
  row blocks cover the result.
-/
import proofs.«179847_j10969346474792_2_alg».proof.Proof.Gen.KernelIdeal.Frame
import proofs.«179847_j10969346474792_2_alg».proof.Proof.LibPlainProduct
import proofs.«179847_j10969346474792_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

/-! ## The dimension numbers of the block product: contraction over the left operand's columns and the right operand's rows -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## One block: the body's result at an entry -/

/-- The hidden value: the affine combination of one entry of `u`, `w`, the row's scale and the column's shift, clamped
    below at the constant the body compares with (the zero word's value). -/
abbrev hidden (u w d s : Elt Ideal .f32) : Elt Ideal .f32 :=
  max (u + w * d + s) (Scalar.ofBits (F := Ideal) .f32 0x00000000#32)

/-- Entry `(p, q)` of the block the body writes is the inner product of row `p` of the hidden block with column `q` of the
    matrix. -/
theorem block_entry (x0 : Vec Ideal S5000x128 .f32) (x1 : Vec Ideal S5000x128 .bf16) (x2 : Vec Ideal S5000x1 .f32)
    (x3 : Vec Ideal S1x128 .f32) (x4 : Vec Ideal S128x128 .f32) (p : Fin 5000) (q : Fin 128) :
    k1_pay1 (F := Ideal) x0 x1 x2 x3 x4 (ix2 p q)
      = ∑ k : Fin 128, hidden (x0 (ix2 p k)) (x1 (ix2 p k)) (x2 (ix2 p (0 : Fin 1))) (x3 (ix2 (0 : Fin 1) k)) * x4 (ix2 k q) := by
  unfold k1_pay1
  rw [truncf_apply]
  refine (Cert.PlainProduct.matmul_zero_entry dot_S5000x128_S128x128_S5000x128_1_0_0_1_n_n rfl rfl lhs_row lhs_col rhs_row rhs_col _ _ p q).trans ?_
  refine Finset.sum_congr rfl fun k _ => ?_
  rw [truncf_apply, truncf_apply, maximumf_apply, broadcast_apply, addf_apply, addf_apply, mulf_apply, extf_apply]
  simp only [shapeCast_self]
  rw [Cert.ColumnLayout.broadcastTo_a1_ab_apply, broadcastTo_1b_ab_apply]

/-- Two such inner products agree when the entries read agree term by term. -/
theorem inner_congr (x0 : Vec Ideal S5000x128 .f32) (x1 : Vec Ideal S5000x128 .bf16) (x2 : Vec Ideal S5000x1 .f32)
    (x3 : Vec Ideal S1x128 .f32) (x4 : Vec Ideal S128x128 .f32)
    (u : S50000x128.Idx → Elt Ideal .f32) (w : S50000x128.Idx → Elt Ideal .bf16) (d : S50000x1.Idx → Elt Ideal .f32)
    (s : S1x128.Idx → Elt Ideal .f32) (m : S128x128.Idx → Elt Ideal .f32)
    (p : Fin 5000) (q : Fin 128) (P : Fin 50000) (Q : Fin 128)
    (h0 : ∀ k : Fin 128, x0 (ix2 p k) = u (ix2 P k)) (h1 : ∀ k : Fin 128, x1 (ix2 p k) = w (ix2 P k))
    (h2 : x2 (ix2 p (0 : Fin 1)) = d (ix2 P (0 : Fin 1))) (h3 : ∀ k : Fin 128, x3 (ix2 (0 : Fin 1) k) = s (ix2 (0 : Fin 1) k))
    (h4 : ∀ k : Fin 128, x4 (ix2 k q) = m (ix2 k Q)) :
    ∑ k : Fin 128, hidden (x0 (ix2 p k)) (x1 (ix2 p k)) (x2 (ix2 p (0 : Fin 1))) (x3 (ix2 (0 : Fin 1) k)) * x4 (ix2 k q)
      = ∑ k : Fin 128, hidden (u (ix2 P k)) (w (ix2 P k)) (d (ix2 P (0 : Fin 1))) (s (ix2 (0 : Fin 1) k)) * m (ix2 k Q) :=
  Finset.sum_congr rfl fun k _ => by rw [h0 k, h1 k, h2, h3 k, h4 k]

/-! ## The whole result as one function of the five operand arrays -/

/-- Entry `(p, q)` of the result from the whole arrays. -/
abbrev entry (u : S50000x128.Idx → Elt Ideal .f32) (w : S50000x128.Idx → Elt Ideal .bf16) (d : S50000x1.Idx → Elt Ideal .f32)
    (s : S1x128.Idx → Elt Ideal .f32) (m : S128x128.Idx → Elt Ideal .f32) (p : Fin 50000) (q : Fin 128) : Elt Ideal .bf16 :=
  ∑ k : Fin 128, hidden (u (ix2 p k)) (w (ix2 p k)) (d (ix2 p (0 : Fin 1))) (s (ix2 (0 : Fin 1) k)) * m (ix2 k q)

/-- The result from the whole arrays, as a function of the result's index. -/
abbrev result (u : S50000x128.Idx → Elt Ideal .f32) (w : S50000x128.Idx → Elt Ideal .bf16) (d : S50000x1.Idx → Elt Ideal .f32)
    (s : S1x128.Idx → Elt Ideal .f32) (m : S128x128.Idx → Elt Ideal .f32) : S50000x128.Idx → Elt Ideal .bf16 :=
  fun i => entry u w d s m ⟨(i 0).val, (i 0).isLt⟩ ⟨(i 1).val, (i 1).isLt⟩

theorem zeros : (![0, 0] : Fin 2 → Nat) = fun _ => 0 := funext fun a => by fin_cases a <;> rfl

/-- The printed index maps over the grid: the three row-blocked operands' row block moves with the result's, which is the
    point's number; every other block index is zero. -/
theorem index_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = win1_5.index t (0 : Fin 2)
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) ≤ 9
    ∧ win1_5.index t (1 : Fin 2) = 0 :=
  (by decide +kernel : ∀ t : Fin grid1.N, _)

/-- Every row block of the result is some point's. -/
theorem index_onto : ∀ r : Fin 10, ∃ t : Fin cfg1.N, win1_5.index t = ![r.val, 0] :=
  (by decide +kernel : ∀ r : Fin 10, ∃ t : Fin grid1.N, win1_5.index t = ![r.val, 0])

/-- What point `t` writes, entry by entry, is the result from the whole arrays at the entry's place in the result. -/
theorem written_entry (V : (c : Dev nD) → (b : Ref sig .tc) → Buf (Elt Ideal) ((c : Thread nD τ).loc b)) (c : Dev nD)
    (t : Fin cfg1.N) (j : S5000x128.Idx) :
    k1_pay1 (F := Ideal) (iblk1 V c 0 t) (iblk1 V c 1 t) (iblk1 V c 2 t) (iblk1 V c 3 t) (iblk1 V c 4 t) j
      = result (V c main_v42) (V c main_v29) (V c main_v12) (V c main_v43) (V c main_v44) (((cfg1.win 5).blk t).view.emb j) := by
  obtain ⟨p, q, rfl⟩ : ∃ (p : Fin 5000) (q : Fin 128), j = ix2 p q := ⟨j 0, j 1, eq_ix2 j⟩
  obtain ⟨e0, e1, e2, e3, e4, e5, e6, e7, e8, e9, e10, e11⟩ := index_facts t
  refine (block_entry (iblk1 V c 0 t) (iblk1 V c 1 t) (iblk1 V c 2 t) (iblk1 V c 3 t) (iblk1 V c 4 t) p q).trans
    (inner_congr _ _ _ _ _ (V c main_v42) (V c main_v29) (V c main_v12) (V c main_v43) (V c main_v44) p q _ _
      (fun k => ?_) (fun k => ?_) ?_ (fun k => ?_) (fun k => ?_))
  · show V c main_v42 (((cfg1.win 0).blk t).view.emb (ix2 p k)) = _
    refine congrArg (V c main_v42) ?_
    funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · show V c main_v29 (((cfg1.win 1).blk t).view.emb (ix2 p k)) = _
    refine congrArg (V c main_v29) ?_
    funext a; apply Fin.ext
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  · show V c main_v12 (((cfg1.win 2).blk t).view.emb (ix2 p (0 : Fin 1))) = _
    refine congrArg (V c main_v12) ?_
    funext a; apply Fin.ext
    match a with
    | ⟨0, _⟩ => show win1_2.index t (0 : Fin 2) * 5000 + 1 * p.val = win1_5.index t (0 : Fin 2) * 5000 + 1 * p.val; omega
    | ⟨1, _⟩ => show win1_2.index t (1 : Fin 2) * 1 + 1 * 0 = 0; omega
  · show V c main_v43 (((cfg1.win 3).blk t).view.emb (ix2 (0 : Fin 1) k)) = _
    refine congrArg (V c main_v43) ?_
    funext a; apply Fin.ext
    match a with
    | ⟨0, _⟩ => show win1_3.index t (0 : Fin 2) * 1 + 1 * 0 = 0; omega
    | ⟨1, _⟩ => show win1_3.index t (1 : Fin 2) * 128 + 1 * k.val = k.val; omega
  · show V c main_v44 (((cfg1.win 4).blk t).view.emb (ix2 k q)) = _
    refine congrArg (V c main_v44) ?_
    funext a; apply Fin.ext
    match a with
    | ⟨0, _⟩ => show win1_4.index t (0 : Fin 2) * 128 + 1 * k.val = k.val; omega
    | ⟨1, _⟩ => show win1_4.index t (1 : Fin 2) * 128 + 1 * q.val = win1_5.index t (1 : Fin 2) * 128 + 1 * q.val; omega

/-- WHAT POINT `t` WRITES BACK is block `t` of the result from the whole arrays. -/
theorem flushed_eq (V : (c : Dev nD) → (b : Ref sig .tc) → Buf (Elt Ideal) ((c : Thread nD τ).loc b)) (c : Dev nD)
    (t : Fin cfg1.N) :
    (dat1 (F := Ideal) V c).flushed 5 t
      = ((cfg1.win 5).blk t).view.read (Elt Ideal) (result (V c main_v42) (V c main_v29) (V c main_v12) (V c main_v43) (V c main_v44)) := by
  show (cfg1.win 5).cut (grid1.coords t) ((dat1 (F := Ideal) V c).after 5 t) = _
  rw [after1_5]
  unfold out1_5
  rw [View.canon_unit_zero zeros]
  simp only [View.ld_unit_zero (S := S5000x128) zeros, View.ld_unit_zero (S := S5000x1) zeros, View.ld_unit_zero (S := S1x128) zeros, View.ld_unit_zero (S := S128x128) zeros]
  funext j
  exact written_entry V c t j

/-! ## The ten row blocks cover the result -/

/-- An index of the result is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v46).slice (win1_5.rect t)).set ↔ _
  rw [View.set_slice_whole, Rect.mem_set_unit]
  exact Iff.rfl

/-- Row `r` of the result is written at point `r / 5000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := index_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-! ## The array after the region -/

/-- The result array after the region is that function of the five operand arrays as the region finds them. -/
theorem final_array (V : (c : Dev nD) → (b : Ref sig .tc) → Buf (Elt Ideal) ((c : Thread nD τ).loc b)) (c : Dev nD) :
    (dat1 (F := Ideal) V c).arrAt 5 cfg1.N = result (V c main_v42) (V c main_v29) (V c main_v12) (V c main_v43) (V c main_v44) :=
  (dat1 (F := Ideal) V c).arrAt_eq_of_cover 5 (result (V c main_v42) (V c main_v29) (V c main_v12) (V c main_v43) (V c main_v44))
    (fun t _ => flushed_eq V c t) cover

/-- Entry `(p, q)` of the result array after the region. -/
theorem final (V : (c : Dev nD) → (b : Ref sig .tc) → Buf (Elt Ideal) ((c : Thread nD τ).loc b)) (c : Dev nD)
    (p : Fin 50000) (q : Fin 128) :
    (dat1 (F := Ideal) V c).arrAt 5 cfg1.N (ix2 p q)
      = entry (V c main_v42) (V c main_v29) (V c main_v12) (V c main_v43) (V c main_v44) p q :=
  congrFun (final_array V c) (ix2 p q)

end Cert.KernelIdeal.Region1

end
-- ==== Proof.RefHidden.lean ====
/-
  The reference's hidden layer and the two linear maps applied to it, read at an entry.

  The hidden value at `(p, k)` is the first neighbourhood sum at `(p, k)` plus the transformed features at `(p, k)` times
  node `p`'s self weight, plus the bias at `k`, clamped below at the zero word's value. Each of the two linear maps that
  follow is a plain matrix product: entry `(p, q)` is the inner product of row `p` of the hidden layer with column `q` of
  the map's matrix.
-/
import proofs.«179847_j10969346474792_2_alg».proof.Proof.Gen.ReferenceIdeal.Read
import Idealize.ShloMosaic.Lib.ValueIdx
import Idealize.ShloMosaic.PureOps.Ideal.Laws

set_option maxRecDepth 16384

noncomputable section

namespace Cert.ReferenceIdeal.RefHidden

open Cert.ReferenceIdeal Idealize.ShloMosaic Idealize.ShloMosaic.ValueIdx

/-- The hidden layer at `(p, k)`. -/
theorem hidden_apply (x0 : (⟨S50000x256, .f32⟩ : BufTy).Contents (Elt Ideal)) (x1 : (⟨S2x800000, .i32⟩ : BufTy).Contents (Elt Ideal)) (x3 : (⟨S256x128, .f32⟩ : BufTy).Contents (Elt Ideal)) (x4 : (⟨S128, .f32⟩ : BufTy).Contents (Elt Ideal)) (p : Fin 50000) (k : Fin 128) :
    Read.val_main_v48 (F := Ideal) x0 x1 x3 x4 (ix2 p k)
      = max ((Read.val_main_v39 (F := Ideal) x0 x1 x3 (ix2 p k)
              + Read.val_main_v11 (F := Ideal) x0 x3 (ix2 p k) * Read.val_main_v40 (F := Ideal) x1 (ix1 p))
            + x4 (ix1 k))
          (Scalar.ofBits (F := Ideal) .f32 0x00000000#32) := by
  rw [Read.val_main_v48_apply, Read.val_main_v47_apply, Read.val_main_v44_apply, Read.val_main_v43_apply,
    Read.val_main_v42_apply, Read.val_main_v41_apply, Read.val_main_v46_apply, Read.val_main_v45_apply,
    Read.val_main_call0_v0_apply, Read.val_main_call0_cst_apply]
  have hrow : Read.idx_main_v41 (Read.idx_main_v42 (ix2 p k)) = ix1 p :=
    funext fun a => Fin.ext (by match a with | ⟨0, _⟩ => rfl)
  have hcol : Read.idx_main_v45 (Read.idx_main_v46 (ix2 p k)) = ix1 k :=
    funext fun a => Fin.ext (by match a with | ⟨0, _⟩ => rfl)
  rw [hrow, hcol]
  rfl

/-- The first linear map of the hidden layer at `(p, q)`. -/
theorem lin3_apply (x0 : (⟨S50000x256, .f32⟩ : BufTy).Contents (Elt Ideal)) (x1 : (⟨S2x800000, .i32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (p : Fin 50000) (q : Fin 64) :
    Read.val_main_v49 (F := Ideal) x0 x1 x3 x4 x5 (ix2 p q)
      = ∑ k : Fin 128, Read.val_main_v48 (F := Ideal) x0 x1 x3 x4 (ix2 p k) * x5 (ix2 k q) := by
  rw [Read.val_main_v49_apply]
  refine Finset.sum_congr rfl fun k _ => ?_
  have hl : Read.lidx_main_v49 (ix2 p q) k = ix2 p k :=
    funext fun a => Fin.ext (by match a with | ⟨0, _⟩ => rfl | ⟨1, _⟩ => rfl)
  have hr : Read.ridx_main_v49 (ix2 p q) k = ix2 k q :=
    funext fun a => Fin.ext (by match a with | ⟨0, _⟩ => rfl | ⟨1, _⟩ => rfl)
  rw [hl, hr]

/-- The second linear map of the hidden layer at `(p, q)`. -/
theorem lin4_apply (x0 : (⟨S50000x256, .f32⟩ : BufTy).Contents (Elt Ideal)) (x1 : (⟨S2x800000, .i32⟩ : BufTy).Contents (Elt Ideal)) (x3 : (⟨S256x128, .f32⟩ : BufTy).Contents (Elt Ideal)) (x4 : (⟨S128, .f32⟩ : BufTy).Contents (Elt Ideal)) (x7 : (⟨S128x64, .f32⟩ : BufTy).Contents (Elt Ideal)) (p : Fin 50000) (q : Fin 64) :
    Read.val_main_v86 (F := Ideal) x0 x1 x3 x4 x7 (ix2 p q)
      = ∑ k : Fin 128, Read.val_main_v48 (F := Ideal) x0 x1 x3 x4 (ix2 p k) * x7 (ix2 k q) := by
  rw [Read.val_main_v86_apply]
  refine Finset.sum_congr rfl fun k _ => ?_
  have hl : Read.lidx_main_v86 (ix2 p q) k = ix2 p k :=
    funext fun a => Fin.ext (by match a with | ⟨0, _⟩ => rfl | ⟨1, _⟩ => rfl)
  have hr : Read.ridx_main_v86 (ix2 p q) k = ix2 k q :=
    funext fun a => Fin.ext (by match a with | ⟨0, _⟩ => rfl | ⟨1, _⟩ => rfl)
  rw [hl, hr]

end Cert.ReferenceIdeal.RefHidden

end
-- ==== Proof.KStage2.lean ====
/-
  The second launch computes the reference's two second-layer products, side by side.

  The second launch forms, row by row, the first layer's output — the neighbourhood sum plus the node's own product
  scaled by its squared inverse root degree, plus the bias, clamped below at zero — and multiplies it by the joined
  weight matrix.  Column q of the left half of the result is therefore the product with the third layer's weights,
  column q of the right half the product with the fourth layer's: the reference's two separate products of the same
  hidden layer.
-/
import proofs.«179847_j10969346474792_2_alg».proof.Proof.Gen.KernelIdeal.Frame
import proofs.«179847_j10969346474792_2_alg».proof.Proof.Gen.ReferenceIdeal.Read
import proofs.«179847_j10969346474792_2_alg».proof.Proof.KThread
import proofs.«179847_j10969346474792_2_alg».proof.Proof.KHost1
import proofs.«179847_j10969346474792_2_alg».proof.Proof.Region1
import proofs.«179847_j10969346474792_2_alg».proof.Proof.RefHidden

set_option maxRecDepth 16384

noncomputable section

namespace Cert.KernelIdeal.KStage2

open Cert.KernelIdeal Cert.KernelIdeal.Gen
open Idealize.ShloMosaic Idealize.ShloMosaic.TcCoe Idealize.ShloMosaic.ValueIdx Idealize.SL.Sem
open Cert.KernelIdeal.KHost1 (lo hi)

variable (m : (ℓ : Loc nD τ sig) → Buf (Elt Ideal) ℓ) (ρ : Dev nD → PrngReg) (c : Dev nD)

/-- One term of a row of the second launch's product: the hidden layer's entry (p, k), as the reference has it, times
    the joined weights' entry (k, j). -/
theorem term_eq (p : Fin 50000) (k : Fin 128) (j : Fin 128) (w : EReal)
    (hw : V3 m ρ c main_v44 (ix2 k j) = w) :
    Region1.hidden (V3 m ρ c main_v42 (ix2 p k)) (V3 m ρ c main_v29 (ix2 p k)) (V3 m ρ c main_v12 (ix2 p (0 : Fin 1)))
        (V3 m ρ c main_v43 (ix2 (0 : Fin 1) k)) * V3 m ρ c main_v44 (ix2 k j)
      = Cert.ReferenceIdeal.Read.val_main_v48 (F := Ideal) (m ((c : Thread nD τ).loc main_arg0)) (m ((c : Thread nD τ).loc main_arg1)) (m ((c : Thread nD τ).loc main_arg3)) (m ((c : Thread nD τ).loc main_arg4)) (ix2 p k) * w := by
  have e42 : V3 m ρ c main_v42 = Cert.ReferenceIdeal.Read.val_main_v39 (F := Ideal) (m ((c : Thread nD τ).loc main_arg0)) (m ((c : Thread nD τ).loc main_arg1)) (m ((c : Thread nD τ).loc main_arg3)) := KHost1.agg1_eq m ρ c
  have e29 : V3 m ρ c main_v29 (ix2 p k) = Cert.ReferenceIdeal.Read.val_main_v11 (F := Ideal) (m ((c : Thread nD τ).loc main_arg0)) (m ((c : Thread nD τ).loc main_arg3)) (ix2 p k) := KHost1.h1_W3 m ρ c p k
  have e12 : V3 m ρ c main_v12 (ix2 p (0 : Fin 1)) = Cert.ReferenceIdeal.Read.val_main_v40 (F := Ideal) (m ((c : Thread nD τ).loc main_arg1)) (ix1 p) := KHost1.dsq_W3 m ρ c p
  have e43 : V3 m ρ c main_v43 (ix2 (0 : Fin 1) k) = (m ((c : Thread nD τ).loc main_arg4)) (ix1 k) := KHost1.b1row_apply m ρ c k
  rw [hw, e42, e29, e12, e43, Cert.ReferenceIdeal.RefHidden.hidden_apply]

/-- A row of the second launch's product against a column of the joined weights, term by term. -/
theorem row_eq (p : Fin 50000) (j : Fin 128) (w : Fin 128 → EReal)
    (hw : ∀ k : Fin 128, V3 m ρ c main_v44 (ix2 k j) = w k) :
    Region1.entry (V3 m ρ c main_v42) (V3 m ρ c main_v29) (V3 m ρ c main_v12) (V3 m ρ c main_v43) (V3 m ρ c main_v44) p j
      = ∑ k : Fin 128, Cert.ReferenceIdeal.Read.val_main_v48 (F := Ideal) (m ((c : Thread nD τ).loc main_arg0)) (m ((c : Thread nD τ).loc main_arg1)) (m ((c : Thread nD τ).loc main_arg3)) (m ((c : Thread nD τ).loc main_arg4)) (ix2 p k) * w k :=
  Finset.sum_congr rfl fun k _ => term_eq m ρ c p k j _ (hw k)

/-- The left half of the second launch's output is the reference's third-layer product. -/
theorem h34_lo (p : Fin 50000) (q : Fin 64) :
    W4 m ρ c (Proc.devRef .tc main_v46) (ix2 p (lo q)) = Cert.ReferenceIdeal.Read.val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 p q) := by
  show W4 m ρ c (Proc.devRef .tc (Pipeline.arrRef spec1 5)) (ix2 p (lo q)) = _
  rw [W4_arr m ρ c 5, Region1.final (V3 m ρ) c p (lo q), Cert.ReferenceIdeal.RefHidden.lin3_apply]
  exact row_eq m ρ c p (lo q) _ (fun k => KHost1.w34_lo m ρ c k q)

/-- The right half of the second launch's output is the reference's fourth-layer product. -/
theorem h34_hi (p : Fin 50000) (q : Fin 64) :
    W4 m ρ c (Proc.devRef .tc main_v46) (ix2 p (hi q)) = Cert.ReferenceIdeal.Read.val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg7)) (ix2 p q) := by
  show W4 m ρ c (Proc.devRef .tc (Pipeline.arrRef spec1 5)) (ix2 p (hi q)) = _
  rw [W4_arr m ρ c 5, Region1.final (V3 m ρ) c p (hi q), Cert.ReferenceIdeal.RefHidden.lin4_apply]
  exact row_eq m ρ c p (hi q) _ (fun k => KHost1.w34_hi m ρ c k q)

end Cert.KernelIdeal.KStage2

end
-- ==== Proof.LibScatterRows.lean ====
/-
  A host scatter whose combiner is float addition, read at one element, for the dimension numbers of a segment
  sum over rows: scatter indices of shape [E, 1] (one start coordinate per update row, on operand axis 0), the
  operand's axis 0 inserted, every other axis a window axis carried over unchanged.  At the
  ideal instance the result element (n, rest) is the operand's element plus the sum, over the update rows
  e whose start index is n, of the update element (e, rest).  Three ranks are stated: a vector [N],
  a matrix [N, C] and a rank-3 array [N, 1, C].
-/
import Idealize.ShloMosaic.PureOps.Ideal
import Idealize.ShloMosaic.Lib.ValueIdx

noncomputable section

namespace Cert.ScatterRows

open Idealize.ShloMosaic Idealize.ShloMosaic.ValueIdx

/-- An update index lands on the operand index `i` exactly when, on every operand axis, its start
    coordinate plus its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h2 := h a
      rw [← hf]
      simp only
      rw [Int.toNat_of_nonneg h2.1]
    · intro hf
      funext a
      apply Fin.ext
      simp only
      rw [hf a]
      exact Int.toNat_natCast _
  · rename_i h
    constructor
    · intro hf
      cases hf
    · intro hf
      exfalso
      apply h
      intro a
      rw [hf a]
      exact ⟨Int.natCast_nonneg _, by exact_mod_cast (i a).isLt⟩

section Rank2
variable {N E C w : Nat}

/-- Matrix case: the scatter-indices position read for an update index is `(row, 0)`. -/
theorem siIdx2 (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (j : (⟨2, ![E, C]⟩ : Shape).Idx) (h0 : 0 < d.scatterDimsToOperandDims.length) :
    d.siIdx j ⟨0, h0⟩ = ix2 (j 0) 0 := by
  obtain ⟨uw, iw, sd, iv, wf⟩ := d
  simp only at huw hiw hsd hiv
  subst huw hiw hsd hiv
  funext b
  match b with
  | ⟨0, _⟩ => rfl
  | ⟨1, _⟩ => rfl

/-- Matrix case: an update index lands on `(n, c)` exactly when its row's start index is `n` and its column is `c`. -/
theorem resultIdx2_iff (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (j : (⟨2, ![E, C]⟩ : Shape).Idx) (idx : IVec ⟨2, ![E, 1]⟩ w)
    (n : Fin N) (c : Fin C) :
    d.resultIdx? j idx = some (ix2 n c) ↔ (idx (ix2 (j 0) 0)).toInt = (n.val : ℤ) ∧ (j 1).val = c.val := by
  rw [resultIdx?_eq_some_iff, Fin.forall_fin_two]
  have hs := siIdx2 d huw hiw hsd hiv j
  obtain ⟨uw, iw, sd, iv, wf⟩ := d
  simp only at huw hiw hsd hiv
  subst huw hiw hsd hiv
  have s0 : ScatterDims.start ⟨[1], [0], [0], 1, wf⟩ j idx 0 = (idx (ix2 (j 0) 0)).toInt := by
    unfold ScatterDims.start
    rw [dif_pos (show _ from List.mem_singleton.2 rfl)]
    exact congrArg (fun t => (idx t).toInt) (hs _)
  have s1 : ScatterDims.start ⟨[1], [0], [0], 1, wf⟩ j idx 1 = 0 := by
    unfold ScatterDims.start
    rw [dif_neg (by simp)]
  have w0 : ScatterDims.window ⟨[1], [0], [0], 1, wf⟩ j 0 = 0 := by
    unfold ScatterDims.window
    rw [dif_neg (by simp [ScatterDims.sKept, Shape.kept])]
  have w1 : ScatterDims.window ⟨[1], [0], [0], 1, wf⟩ j 1 = (j 1).val := by
    unfold ScatterDims.window
    rw [dif_pos (by simp [ScatterDims.sKept, Shape.kept])]
    rfl
  rw [s0, s1, w0, w1]
  show (idx (ix2 (j 0) 0)).toInt + ((0 : ℕ) : ℤ) = (n.val : ℤ) ∧ (0 : ℤ) + (((j 1).val : ℕ) : ℤ) = (c.val : ℤ) ↔ _
  constructor
  · rintro ⟨h1, h2⟩
    exact ⟨by omega, by omega⟩
  · rintro ⟨h1, h2⟩
    exact ⟨by omega, by omega⟩

end Rank2

section Rank1
variable {N E w : Nat}

/-- Vector case: the scatter-indices position read for an update index is `(row, 0)`. -/
theorem siIdx1 (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (j : (⟨1, ![E]⟩ : Shape).Idx) (h0 : 0 < d.scatterDimsToOperandDims.length) :
    d.siIdx j ⟨0, h0⟩ = ix2 (j 0) 0 := by
  obtain ⟨uw, iw, sd, iv, wf⟩ := d
  simp only at huw hiw hsd hiv
  subst huw hiw hsd hiv
  funext b
  match b with
  | ⟨0, _⟩ => rfl
  | ⟨1, _⟩ => rfl

/-- Vector case: an update index lands on `n` exactly when its row's start index is `n`. -/
theorem resultIdx1_iff (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (j : (⟨1, ![E]⟩ : Shape).Idx) (idx : IVec ⟨2, ![E, 1]⟩ w) (n : Fin N) :
    d.resultIdx? j idx = some (ix1 n) ↔ (idx (ix2 (j 0) 0)).toInt = (n.val : ℤ) := by
  rw [resultIdx?_eq_some_iff, Fin.forall_fin_one]
  have hs := siIdx1 d huw hiw hsd hiv j
  obtain ⟨uw, iw, sd, iv, wf⟩ := d
  simp only at huw hiw hsd hiv
  subst huw hiw hsd hiv
  have s0 : ScatterDims.start ⟨[], [0], [0], 1, wf⟩ j idx 0 = (idx (ix2 (j 0) 0)).toInt := by
    unfold ScatterDims.start
    rw [dif_pos (show _ from List.mem_singleton.2 rfl)]
    exact congrArg (fun t => (idx t).toInt) (hs _)
  have w0 : ScatterDims.window ⟨[], [0], [0], 1, wf⟩ j 0 = 0 := by
    unfold ScatterDims.window
    rw [dif_neg (by simp [ScatterDims.sKept, Shape.kept])]
  rw [s0, w0]
  show (idx (ix2 (j 0) 0)).toInt + ((0 : ℕ) : ℤ) = (n.val : ℤ) ↔ _
  constructor
  · intro h1
    omega
  · intro h1
    omega

end Rank1

section Rank3
variable {N E C w : Nat}

/-- Rank-3 case: the scatter-indices position read for an update index is `(row, 0)`. -/
theorem siIdx3 (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hiv : d.indexVectorDim = 1) (j : (⟨3, ![E, 1, C]⟩ : Shape).Idx) (h0 : 0 < d.scatterDimsToOperandDims.length) :
    d.siIdx j ⟨0, h0⟩ = ix2 (j 0) 0 := by
  obtain ⟨uw, iw, sd, iv, wf⟩ := d
  simp only at huw hiw hsd hiv
  subst huw hiw hsd hiv
  funext b
  match b with
  | ⟨0, _⟩ => rfl
  | ⟨1, _⟩ => rfl

/-- Rank-3 case: an update index lands on `(n, 0, c)` exactly when its row's start index is `n` and its last
    coordinate is `c` (the middle coordinate lives on a unit axis, so it is `0` on both sides). -/
theorem resultIdx3_iff (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hiv : d.indexVectorDim = 1) (j : (⟨3, ![E, 1, C]⟩ : Shape).Idx) (idx : IVec ⟨2, ![E, 1]⟩ w) (n : Fin N) (c : Fin C) :
    d.resultIdx? j idx = some (ix3 n 0 c) ↔ (idx (ix2 (j 0) 0)).toInt = (n.val : ℤ) ∧ (j 2).val = c.val := by
  rw [resultIdx?_eq_some_iff]
  have hs := siIdx3 d huw hiw hsd hiv j
  have hj1 : (j 1).val < 1 := (j 1).isLt
  obtain ⟨uw, iw, sd, iv, wf⟩ := d
  simp only at huw hiw hsd hiv
  subst huw hiw hsd hiv
  have s0 : ScatterDims.start ⟨[1, 2], [0], [0], 1, wf⟩ j idx 0 = (idx (ix2 (j 0) 0)).toInt := by
    unfold ScatterDims.start
    rw [dif_pos (show _ from List.mem_singleton.2 rfl)]
    exact congrArg (fun t => (idx t).toInt) (hs _)
  have s1 : ScatterDims.start ⟨[1, 2], [0], [0], 1, wf⟩ j idx 1 = 0 := by
    unfold ScatterDims.start
    rw [dif_neg (by simp)]
  have s2 : ScatterDims.start ⟨[1, 2], [0], [0], 1, wf⟩ j idx 2 = 0 := by
    unfold ScatterDims.start
    rw [dif_neg (by simp)]
  have w0 : ScatterDims.window ⟨[1, 2], [0], [0], 1, wf⟩ j 0 = 0 := by
    unfold ScatterDims.window
    rw [dif_neg (by simp [ScatterDims.sKept, Shape.kept])]
  have w1 : ScatterDims.window ⟨[1, 2], [0], [0], 1, wf⟩ j 1 = (j 1).val := by
    unfold ScatterDims.window
    rw [dif_pos (by simp [ScatterDims.sKept, Shape.kept])]
    rfl
  have w2 : ScatterDims.window ⟨[1, 2], [0], [0], 1, wf⟩ j 2 = (j 2).val := by
    unfold ScatterDims.window
    rw [dif_pos (by simp [ScatterDims.sKept, Shape.kept])]
    rfl
  constructor
  · intro h
    have h0 := h 0
    have h2 := h 2
    rw [s0, w0] at h0
    rw [s2, w2] at h2
    have h0' : (idx (ix2 (j 0) 0)).toInt + ((0 : ℕ) : ℤ) = (n.val : ℤ) := h0
    have h2' : (0 : ℤ) + (((j 2).val : ℕ) : ℤ) = (c.val : ℤ) := h2
    exact ⟨by omega, by omega⟩
  · rintro ⟨h0, h2⟩ a
    match a with
    | ⟨0, _⟩ =>
      show ScatterDims.start ⟨[1, 2], [0], [0], 1, wf⟩ j idx 0
        + ((ScatterDims.window ⟨[1, 2], [0], [0], 1, wf⟩ j 0 : ℕ) : ℤ) = (n.val : ℤ)
      rw [s0, w0]
      omega
    | ⟨1, _⟩ =>
      show ScatterDims.start ⟨[1, 2], [0], [0], 1, wf⟩ j idx 1
        + ((ScatterDims.window ⟨[1, 2], [0], [0], 1, wf⟩ j 1 : ℕ) : ℤ) = ((0 : ℕ) : ℤ)
      rw [s1, w1]
      omega
    | ⟨2, _⟩ =>
      show ScatterDims.start ⟨[1, 2], [0], [0], 1, wf⟩ j idx 2
        + ((ScatterDims.window ⟨[1, 2], [0], [0], 1, wf⟩ j 2 : ℕ) : ℤ) = (c.val : ℤ)
      rw [s2, w2]
      omega

end Rank3

/-- Rows scattered into a vector: element `n` gains the updates of the rows whose start index is `n`. -/
theorem scatterAdd_rows1 {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e ∈ Finset.univ.filter (fun e : Fin E => (idx (ix2 e 0)).toInt = (n.val : ℤ)), upd (ix1 e) := by
  unfold Ideal.hostScatterAdd
  congr 1
  symm
  apply Finset.sum_nbij (fun e => ix1 e)
  · intro e he
    rw [Finset.mem_filter] at he ⊢
    refine ⟨Finset.mem_univ _, ?_⟩
    rw [resultIdx1_iff d huw hiw hsd hiv]
    exact he.2
  · intro e1 _ e2 _ h
    exact congrFun h 0
  · intro j hj
    rw [Finset.mem_coe, Finset.mem_filter, resultIdx1_iff d huw hiw hsd hiv] at hj
    refine ⟨j 0, ?_, ?_⟩
    · exact Finset.mem_coe.2 (Finset.mem_filter.2 ⟨Finset.mem_univ _, hj.2⟩)
    · exact (eq_ix1 j).symm
  · intro e _
    rfl

/-- Rows scattered into a matrix: element `(n, c)` gains column `c` of the rows whose start index is `n`. -/
theorem scatterAdd_rows2 {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c)
      = x (ix2 n c) + ∑ e ∈ Finset.univ.filter (fun e : Fin E => (idx (ix2 e 0)).toInt = (n.val : ℤ)), upd (ix2 e c) := by
  unfold Ideal.hostScatterAdd
  congr 1
  symm
  apply Finset.sum_nbij (fun e => ix2 e c)
  · intro e he
    rw [Finset.mem_filter] at he ⊢
    refine ⟨Finset.mem_univ _, ?_⟩
    rw [resultIdx2_iff d huw hiw hsd hiv]
    exact ⟨he.2, rfl⟩
  · intro e1 _ e2 _ h
    exact congrFun h 0
  · intro j hj
    rw [Finset.mem_coe, Finset.mem_filter, resultIdx2_iff d huw hiw hsd hiv] at hj
    refine ⟨j 0, ?_, ?_⟩
    · exact Finset.mem_coe.2 (Finset.mem_filter.2 ⟨Finset.mem_univ _, hj.2.1⟩)
    · have hc : j 1 = c := Fin.ext hj.2.2
      rw [← hc]
      exact (eq_ix2 j).symm
  · intro e _
    rfl

/-- Rows scattered into a rank-3 array with a unit middle axis: element `(n, 0, c)` gains element `(e, 0, c)`
    of the rows `e` whose start index is `n`. -/
theorem scatterAdd_rows3 {N E C w : Nat} (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hiv : d.indexVectorDim = 1)
    (x : (⟨3, ![N, 1, C]⟩ : Shape).Idx → EReal) (idx : IVec ⟨2, ![E, 1]⟩ w) (upd : (⟨3, ![E, 1, C]⟩ : Shape).Idx → EReal)
    (n : Fin N) (c : Fin C) :
    Ideal.hostScatterAdd d x idx upd (ix3 n 0 c)
      = x (ix3 n 0 c) + ∑ e ∈ Finset.univ.filter (fun e : Fin E => (idx (ix2 e 0)).toInt = (n.val : ℤ)), upd (ix3 e 0 c) := by
  unfold Ideal.hostScatterAdd
  congr 1
  symm
  apply Finset.sum_nbij (fun e => ix3 e 0 c)
  · intro e he
    rw [Finset.mem_filter] at he ⊢
    refine ⟨Finset.mem_univ _, ?_⟩
    rw [resultIdx3_iff d huw hiw hsd hiv]
    exact ⟨he.2, rfl⟩
  · intro e1 _ e2 _ h
    exact congrFun h 0
  · intro j hj
    rw [Finset.mem_coe, Finset.mem_filter, resultIdx3_iff d huw hiw hsd hiv] at hj
    refine ⟨j 0, ?_, ?_⟩
    · exact Finset.mem_coe.2 (Finset.mem_filter.2 ⟨Finset.mem_univ _, hj.2.1⟩)
    · have hj1 : (j 1).val < 1 := (j 1).isLt
      have hb : j 1 = (0 : Fin 1) := Fin.ext (Nat.lt_one_iff.1 hj1)
      have hc : j 2 = c := Fin.ext hj.2.2
      rw [← hb, ← hc]
      exact (eq_ix3 j).symm
  · intro e _
    rfl

/-! ## The same, stated of the host operation at the ideal instance

The host's accumulating scatter is, at the ideal instance, the exact sum by definition, whatever the shapes; the
three element forms above follow for it. -/

/-- At the ideal instance the host's accumulating scatter is the exact sum. -/
theorem host_scatterAdd_eq {s si u : Shape} {w : Nat} {φ : FTy} (d : ScatterDims s si u) (x : FVec Ideal s φ)
    (idx : IVec si w) (upd : FVec Ideal u φ) :
    Host.scatterAdd (F := Ideal) d x idx upd = Ideal.hostScatterAdd d x idx upd := rfl

/-- Rows scattered into a vector by the host operation: element `n` gains the updates of the rows whose start index is `n`. -/
theorem host_scatterAdd_rows1 {N E w : Nat} {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![E, 1]⟩ w) (upd : FVec Ideal ⟨1, ![E]⟩ φ) (n : Fin N) :
    Host.scatterAdd (F := Ideal) d x idx upd (ix1 n)
      = x (ix1 n) + ∑ e ∈ Finset.univ.filter (fun e : Fin E => (idx (ix2 e 0)).toInt = (n.val : ℤ)), upd (ix1 e) :=
  (congrFun (host_scatterAdd_eq d x idx upd) (ix1 n)).trans (scatterAdd_rows1 d huw hiw hsd hiv x idx upd n)

/-- Rows scattered into a matrix by the host operation: element `(n, c)` gains column `c` of the rows whose start index is `n`. -/
theorem host_scatterAdd_rows2 {N E C w : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) d x idx upd (ix2 n c)
      = x (ix2 n c) + ∑ e ∈ Finset.univ.filter (fun e : Fin E => (idx (ix2 e 0)).toInt = (n.val : ℤ)), upd (ix2 e c) :=
  (congrFun (host_scatterAdd_eq d x idx upd) (ix2 n c)).trans (scatterAdd_rows2 d huw hiw hsd hiv x idx upd n c)

/-- Rows scattered into a rank-3 array with a unit middle axis by the host operation: element `(n, 0, c)` gains element
    `(e, 0, c)` of the rows `e` whose start index is `n`. -/
theorem host_scatterAdd_rows3 {N E C w : Nat} {φ : FTy} (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hiv : d.indexVectorDim = 1)
    (x : FVec Ideal ⟨3, ![N, 1, C]⟩ φ) (idx : IVec ⟨2, ![E, 1]⟩ w) (upd : FVec Ideal ⟨3, ![E, 1, C]⟩ φ) (n : Fin N) (c : Fin C) :
    Host.scatterAdd (F := Ideal) d x idx upd (ix3 n 0 c)
      = x (ix3 n 0 c) + ∑ e ∈ Finset.univ.filter (fun e : Fin E => (idx (ix2 e 0)).toInt = (n.val : ℤ)), upd (ix3 e 0 c) :=
  (congrFun (host_scatterAdd_eq d x idx upd) (ix3 n 0 c)).trans (scatterAdd_rows3 d huw hiw hsd hiv x idx upd n c)

end Cert.ScatterRows

end
-- ==== Proof.RefAgg.lean ====
/-
  The reference's two neighbourhood sums, read at an entry.

  Each of the two layers gathers, for every edge, the row of the transformed features named by the edge's source, scales
  it by the edge's weight, and adds it into the row named by the edge's target, starting from zeros. At the ideal values
  entry `(p, q)` of the result is therefore the zero word's value plus the sum, over the edges whose target is `p`, of
  the transformed features at (source row, `q`) times the edge's weight. The program recomputes the source rows, the
  target rows and the edge weights before each use with the same operations; those copies are equal to the first.
-/
import proofs.«179847_j10969346474792_2_alg».proof.Proof.Gen.ReferenceIdeal.Read
import proofs.«179847_j10969346474792_2_alg».proof.Proof.LibScatterRows
import proofs.«179847_j10969346474792_2_alg».proof.Proof.LibGatherRows
import Idealize.ShloMosaic.Lib.ValueIdx
import Idealize.ShloMosaic.PureOps.Ideal.Laws

set_option maxRecDepth 16384

noncomputable section

namespace Cert.ReferenceIdeal.RefAgg

open Cert.ReferenceIdeal Idealize.ShloMosaic Idealize.ShloMosaic.ValueIdx

/-! ## The recomputed index arrays and edge weights are the first ones -/

theorem targets3_eq (x1 : (⟨S2x800000, .i32⟩ : BufTy).Contents (Elt Ideal)) : Read.val_main_v76 (F := Ideal) x1 = Read.val_main_v38 (F := Ideal) x1 := rfl
theorem targets4_eq (x1 : (⟨S2x800000, .i32⟩ : BufTy).Contents (Elt Ideal)) : Read.val_main_v113 (F := Ideal) x1 = Read.val_main_v38 (F := Ideal) x1 := rfl
theorem sources3_eq (x1 : (⟨S2x800000, .i32⟩ : BufTy).Contents (Elt Ideal)) : Read.val_main_v70 (F := Ideal) x1 = Read.val_main_v32 (F := Ideal) x1 := rfl
theorem sources4_eq (x1 : (⟨S2x800000, .i32⟩ : BufTy).Contents (Elt Ideal)) : Read.val_main_v107 (F := Ideal) x1 = Read.val_main_v32 (F := Ideal) x1 := rfl
theorem weights3_eq (x1 : (⟨S2x800000, .i32⟩ : BufTy).Contents (Elt Ideal)) : Read.val_main_v64 (F := Ideal) x1 = Read.val_main_v26 (F := Ideal) x1 := rfl
theorem weights4_eq (x1 : (⟨S2x800000, .i32⟩ : BufTy).Contents (Elt Ideal)) : Read.val_main_v101 (F := Ideal) x1 = Read.val_main_v26 (F := Ideal) x1 := rfl

/-! ## Layer 3 -/

/-- Layer 3: an edge's weight broadcast along the feature axis reads the edge's weight. -/
theorem weight3_apply (x1 : (⟨S2x800000, .i32⟩ : BufTy).Contents (Elt Ideal)) (e : Fin 800000) (q : Fin 64) :
    Read.val_main_v73 (F := Ideal) x1 (ix2 e q) = Read.val_main_v26 (F := Ideal) x1 (ix1 e) := by
  rw [Read.val_main_v73_apply, Read.val_main_v72_apply, weights3_eq]
  exact congrArg (Read.val_main_v26 (F := Ideal) x1) (funext fun a => Fin.ext (by match a with | ⟨0, _⟩ => rfl))

/-- Layer 3: the gathered source rows read the transformed features at the edge's source row. -/
theorem gathered3_apply (x0 : (⟨S50000x256, .f32⟩ : BufTy).Contents (Elt Ideal)) (x1 : (⟨S2x800000, .i32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (e : Fin 800000) (q : Fin 64) :
    Read.val_main_v71 (F := Ideal) x0 x1 x3 x4 x5 (ix2 e q)
      = Read.val_main_v49 (F := Ideal) x0 x1 x3 x4 x5 (ix2 (Cert.GatherRows.row (N := 50000) (by decide) (Read.val_main_v32 (F := Ideal) x1) e) q) := by
  unfold Read.val_main_v71
  rw [sources3_eq]
  exact Cert.GatherRows.gather_rows2 (by decide) gather_S50000x64_S800000x1_S800000x64_1_0_n_n_0_1_164 rfl rfl rfl rfl rfl rfl _ _ e q

/-- Layer 3: entry `(p, q)` of the neighbourhood sum is the zero word's value plus, over the edges whose target is `p`,
    the transformed features of the edge's source row at `q` times the edge's weight. -/
theorem agg3_apply (x0 : (⟨S50000x256, .f32⟩ : BufTy).Contents (Elt Ideal)) (x1 : (⟨S2x800000, .i32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (p : Fin 50000) (q : Fin 64) :
    Read.val_main_v77 (F := Ideal) x0 x1 x3 x4 x5 (ix2 p q)
      = Ideal.ofBits .f32 0x00000000#32
        + ∑ e ∈ Finset.univ.filter (fun e : Fin 800000 => (Read.val_main_v38 (F := Ideal) x1 (ix2 e 0)).toInt = (p.val : ℤ)),
            Read.val_main_v49 (F := Ideal) x0 x1 x3 x4 x5 (ix2 (Cert.GatherRows.row (N := 50000) (by decide) (Read.val_main_v32 (F := Ideal) x1) e) q)
              * Read.val_main_v26 (F := Ideal) x1 (ix1 e) := by
  unfold Read.val_main_v77
  rw [targets3_eq]
  refine (Cert.ScatterRows.host_scatterAdd_rows2 scatter_S50000x64_S800000x1_S800000x64_1_0_0_1 rfl rfl rfl rfl _ _ _ p q).trans ?_
  rw [Read.val_main_v75_apply, Read.val_main_cst_14_apply]
  refine congrArg (Ideal.ofBits .f32 0x00000000#32 + ·) (Finset.sum_congr rfl fun e _ => ?_)
  rw [Read.val_main_v74_apply, gathered3_apply, weight3_apply]
  rfl

/-! ## Layer 4 -/

/-- Layer 4: an edge's weight broadcast along the feature axis reads the edge's weight. -/
theorem weight4_apply (x1 : (⟨S2x800000, .i32⟩ : BufTy).Contents (Elt Ideal)) (e : Fin 800000) (q : Fin 64) :
    Read.val_main_v110 (F := Ideal) x1 (ix2 e q) = Read.val_main_v26 (F := Ideal) x1 (ix1 e) := by
  rw [Read.val_main_v110_apply, Read.val_main_v109_apply, weights4_eq]
  exact congrArg (Read.val_main_v26 (F := Ideal) x1) (funext fun a => Fin.ext (by match a with | ⟨0, _⟩ => rfl))

/-- Layer 4: the gathered source rows read the transformed features at the edge's source row. -/
theorem gathered4_apply (x0 : (⟨S50000x256, .f32⟩ : BufTy).Contents (Elt Ideal)) (x1 : (⟨S2x800000, .i32⟩ : BufTy).Contents (Elt Ideal)) (x3 : (⟨S256x128, .f32⟩ : BufTy).Contents (Elt Ideal)) (x4 : (⟨S128, .f32⟩ : BufTy).Contents (Elt Ideal)) (x7 : (⟨S128x64, .f32⟩ : BufTy).Contents (Elt Ideal)) (e : Fin 800000) (q : Fin 64) :
    Read.val_main_v108 (F := Ideal) x0 x1 x3 x4 x7 (ix2 e q)
      = Read.val_main_v86 (F := Ideal) x0 x1 x3 x4 x7 (ix2 (Cert.GatherRows.row (N := 50000) (by decide) (Read.val_main_v32 (F := Ideal) x1) e) q) := by
  unfold Read.val_main_v108
  rw [sources4_eq]
  exact Cert.GatherRows.gather_rows2 (by decide) gather_S50000x64_S800000x1_S800000x64_1_0_n_n_0_1_164 rfl rfl rfl rfl rfl rfl _ _ e q

/-- Layer 4: entry `(p, q)` of the neighbourhood sum is the zero word's value plus, over the edges whose target is `p`,
    the transformed features of the edge's source row at `q` times the edge's weight. -/
theorem agg4_apply (x0 : (⟨S50000x256, .f32⟩ : BufTy).Contents (Elt Ideal)) (x1 : (⟨S2x800000, .i32⟩ : BufTy).Contents (Elt Ideal)) (x3 : (⟨S256x128, .f32⟩ : BufTy).Contents (Elt Ideal)) (x4 : (⟨S128, .f32⟩ : BufTy).Contents (Elt Ideal)) (x7 : (⟨S128x64, .f32⟩ : BufTy).Contents (Elt Ideal)) (p : Fin 50000) (q : Fin 64) :
    Read.val_main_v114 (F := Ideal) x0 x1 x3 x4 x7 (ix2 p q)
      = Ideal.ofBits .f32 0x00000000#32
        + ∑ e ∈ Finset.univ.filter (fun e : Fin 800000 => (Read.val_main_v38 (F := Ideal) x1 (ix2 e 0)).toInt = (p.val : ℤ)),
            Read.val_main_v86 (F := Ideal) x0 x1 x3 x4 x7 (ix2 (Cert.GatherRows.row (N := 50000) (by decide) (Read.val_main_v32 (F := Ideal) x1) e) q)
              * Read.val_main_v26 (F := Ideal) x1 (ix1 e) := by
  unfold Read.val_main_v114
  rw [targets4_eq]
  refine (Cert.ScatterRows.host_scatterAdd_rows2 scatter_S50000x64_S800000x1_S800000x64_1_0_0_1 rfl rfl rfl rfl _ _ _ p q).trans ?_
  rw [Read.val_main_v112_apply, Read.val_main_cst_21_apply]
  refine congrArg (Ideal.ofBits .f32 0x00000000#32 + ·) (Finset.sum_congr rfl fun e _ => ?_)
  rw [Read.val_main_v111_apply, gathered4_apply, weight4_apply]
  rfl

end Cert.ReferenceIdeal.RefAgg

end
-- ==== Proof.KHost2.lean ====
/-
  What the third stretch of host operations leaves for the third launch.

  Between the second and third launches the program gathers the rows of the second launch's output along the edges'
  sources, scales each by its edge's weight and sums them into their destinations — all 128 columns at once.  Entry
  (p, j) of this neighbourhood sum is the sum, over the edges whose destination is p, of the gathered entry times the
  edge's weight; for a column of the left half these are the terms of the reference's third-layer neighbourhood sum,
  for a column of the right half those of its fourth-layer one.  The joined bias is reshaped into a row.
-/
import proofs.«179847_j10969346474792_2_alg».proof.Proof.Gen.KernelIdeal.Frame
import proofs.«179847_j10969346474792_2_alg».proof.Proof.Gen.ReferenceIdeal.Read
import proofs.«179847_j10969346474792_2_alg».proof.Proof.KThread
import proofs.«179847_j10969346474792_2_alg».proof.Proof.KHost0
import proofs.«179847_j10969346474792_2_alg».proof.Proof.KHost1
import proofs.«179847_j10969346474792_2_alg».proof.Proof.KStage2
import proofs.«179847_j10969346474792_2_alg».proof.Proof.RefAgg
import proofs.«179847_j10969346474792_2_alg».proof.Proof.LibGatherRows
import proofs.«179847_j10969346474792_2_alg».proof.Proof.LibScatterRows
import proofs.«179847_j10969346474792_2_alg».proof.Proof.LibHostLayout
import Idealize.ShloMosaic.Lib.ValueLayout

set_option maxRecDepth 16384

noncomputable section

namespace Cert.KernelIdeal.KHost2

open Cert.KernelIdeal Cert.KernelIdeal.Gen
open Idealize.ShloMosaic Idealize.ShloMosaic.TcCoe Idealize.ShloMosaic.ValueIdx Idealize.SL.Sem
open Cert.KernelIdeal.KHost1 (lo hi)

variable (m : (ℓ : Loc nD τ sig) → Buf (Elt Ideal) ℓ) (ρ : Dev nD → PrngReg) (c : Dev nD)

set_option maxHeartbeats 4000000 in
/-- The second neighbourhood sum as ONE scatter of gathered, scaled rows, with the index arrays and the edge weights
    named as the reference names them. -/
theorem agg34_eq : W5 m ρ c (Proc.devRef .tc main_v59)
    = Host.scatterAdd (F := Ideal) scatter_S50000x128_S800000x1_S800000x128_1_0_0_1
        (broadcastInDim S50000x128 ![] bcast_S_S50000x128 (constant (F := Ideal) S_ .f32 0x00000000#32))
        (Cert.ReferenceIdeal.Read.val_main_v38 (F := Ideal) (m ((c : Thread nD τ).loc main_arg1)))
        (mulf (extf .f32 (Host.gather gather_S50000x128_S800000x1_S800000x128_1_0_n_n_0_1_1128 (W4 m ρ c (Proc.devRef .tc main_v46)) (Cert.ReferenceIdeal.Read.val_main_v32 (F := Ideal) (m ((c : Thread nD τ).loc main_arg1)))) bitsLt_bf16_f32)
          (broadcastInDim S800000x128 ![0, 1] bcast_S800000x1_S800000x128_0_1 (W4 m ρ c (Proc.devRef .tc main_v28)))) := by
  show StableHlo.after hostOps2 (W4 m ρ c) (Proc.devRef .tc main_v59) = _
  after_results_simp
  rw [KThread.v3_W4 m ρ c, KThread.v1_W4 m ρ c, KHost0.dst_eq m ρ c, KHost0.src_eq m ρ c]
  rfl

/-- The second launch's output, as the third stretch finds it, as an array of extended reals. -/
abbrev lin34 : S50000x128.Idx → EReal := W4 m ρ c (Proc.devRef .tc main_v46)

/-- Entry (p, j) of the second neighbourhood sum: over the edges into p, the gathered entry times the edge's weight. -/
theorem agg34_apply (p : Fin 50000) (j : Fin 128) :
    (W5 m ρ c (Proc.devRef .tc main_v59) (ix2 p j) : EReal)
      = Ideal.ofBits .f32 0x00000000#32
        + ∑ e ∈ Finset.univ.filter (fun e : Fin 800000 => ((Cert.ReferenceIdeal.Read.val_main_v38 (F := Ideal) (m ((c : Thread nD τ).loc main_arg1))) (ix2 e 0)).toInt = (p.val : ℤ)),
            lin34 m ρ c (ix2 (Cert.GatherRows.row (N := 50000) (by decide) (Cert.ReferenceIdeal.Read.val_main_v32 (F := Ideal) (m ((c : Thread nD τ).loc main_arg1))) e) j)
              * Cert.ReferenceIdeal.Read.val_main_v26 (F := Ideal) (m ((c : Thread nD τ).loc main_arg1)) (ix1 e) := by
  rw [agg34_eq, Cert.ScatterRows.host_scatterAdd_rows2 scatter_S50000x128_S800000x1_S800000x128_1_0_0_1 rfl rfl rfl rfl]
  refine congrArg₂ (· + ·) ?_ (Finset.sum_congr rfl fun e _ => ?_)
  · rw [Cert.HostLayout.broadcastInDim_scalar_apply]; rfl
  · rw [mulf_apply, extf_apply,
      Cert.GatherRows.gather_rows2 (by decide) gather_S50000x128_S800000x1_S800000x128_1_0_n_n_0_1_1128 rfl rfl rfl rfl rfl rfl,
      Cert.HostLayout.broadcastInDim_a1_ab_apply, KThread.v28_W4 m ρ c, KHost0.nrm_apply m ρ c e]

/-- A left-half column of the second neighbourhood sum is the reference's third-layer neighbourhood sum. -/
theorem agg34_lo (p : Fin 50000) (q : Fin 64) :
    W5 m ρ c (Proc.devRef .tc main_v59) (ix2 p (lo q)) = Cert.ReferenceIdeal.Read.val_main_v77 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 p q) := by
  rw [agg34_apply, Cert.ReferenceIdeal.RefAgg.agg3_apply]
  refine congrArg (Ideal.ofBits .f32 0x00000000#32 + ·) (Finset.sum_congr rfl fun e _ => ?_)
  have h : lin34 m ρ c (ix2 (Cert.GatherRows.row (N := 50000) (by decide) (Cert.ReferenceIdeal.Read.val_main_v32 (F := Ideal) (m ((c : Thread nD τ).loc main_arg1))) e) (lo q)) = Cert.ReferenceIdeal.Read.val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 (Cert.GatherRows.row (N := 50000) (by decide) (Cert.ReferenceIdeal.Read.val_main_v32 (F := Ideal) (m ((c : Thread nD τ).loc main_arg1))) e) q) :=
    KStage2.h34_lo m ρ c _ q
  rw [h]

/-- A right-half column of the second neighbourhood sum is the reference's fourth-layer neighbourhood sum. -/
theorem agg34_hi (p : Fin 50000) (q : Fin 64) :
    W5 m ρ c (Proc.devRef .tc main_v59) (ix2 p (hi q)) = Cert.ReferenceIdeal.Read.val_main_v114 (F := Ideal) (m ((c : Thread nD τ).loc main_arg0)) (m ((c : Thread nD τ).loc main_arg1)) (m ((c : Thread nD τ).loc main_arg3)) (m ((c : Thread nD τ).loc main_arg4)) (m ((c : Thread nD τ).loc main_arg7)) (ix2 p q) := by
  rw [agg34_apply, Cert.ReferenceIdeal.RefAgg.agg4_apply]
  refine congrArg (Ideal.ofBits .f32 0x00000000#32 + ·) (Finset.sum_congr rfl fun e _ => ?_)
  have h : lin34 m ρ c (ix2 (Cert.GatherRows.row (N := 50000) (by decide) (Cert.ReferenceIdeal.Read.val_main_v32 (F := Ideal) (m ((c : Thread nD τ).loc main_arg1))) e) (hi q)) = Cert.ReferenceIdeal.Read.val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg7)) (ix2 (Cert.GatherRows.row (N := 50000) (by decide) (Cert.ReferenceIdeal.Read.val_main_v32 (F := Ideal) (m ((c : Thread nD τ).loc main_arg1))) e) q) :=
    KStage2.h34_hi m ρ c _ q
  rw [h]

/-- The joined bias as a row. -/
theorem b34row_apply (j : Fin 128) :
    W5 m ρ c (Proc.devRef .tc main_v60) (ix2 0 j) = W3 m ρ c (Proc.devRef .tc main_v45) (ix1 j) := by
  have e : W5 m ρ c (Proc.devRef .tc main_v60) = shapeCast S1x128 (W4 m ρ c (Proc.devRef .tc main_v45)) shapeCasts_S128_S1x128 := by
    show StableHlo.after hostOps2 (W4 m ρ c) (Proc.devRef .tc main_v60) = _
    after_results_simp
    rfl
  rw [e, KThread.v45_W4 m ρ c]
  exact shapeCast_a_1a_apply _ _ 0 j

end Cert.KernelIdeal.KHost2

end
-- ==== Proof.Region2.lean ====
/-
  The third kernel region: the combined update and the reparameterised sample.

  Each grid point holds a block of 5000 rows. On it the body forms, column by column over 128 columns, the combined
  array  C = (A + B · s) + b  — A and B the two row-blocked operands, s the per-row scale (one column, spread over the
  128 columns), b the bias row (one row, spread over the 5000 rows) — and writes, at column q < 64,
  C[·, q] + E[·, q] · exp (C[·, q + 64]): the left half of C is the mean, the right half the log-scale, E the noise.
  The blocks tile the 50000 rows, so the output array is that one function of the five operand arrays at every index.
-/
import proofs.«179847_j10969346474792_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)

/-- Column `q` of the left half of a 128-column row. -/
abbrev lo (q : Fin 64) : Fin 128 := ⟨q.val, by omega⟩
/-- Column `q` of the right half: column `q + 64` of the row. -/
abbrev hi (q : Fin 64) : Fin 128 := ⟨q.val + 64, by omega⟩

/-- A `[a, 1]` column broadcast to `[a, b]` reads, at `(p, c)`, the column's entry `p`, whatever the column `c`. -/
theorem column_spread {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One block -/

/-- The combined block before it is split: `(x0 + x1 · x2) + x3`, the scale column and the bias row spread. -/
def comb (x0 : Vec Ideal S5000x128 .f32) (x1 : Vec Ideal S5000x128 .bf16) (x2 : Vec Ideal S5000x1 .f32)
    (x3 : Vec Ideal S1x128 .f32) : FVec Ideal S5000x128 .f32 :=
  addf (addf (shapeCast S5000x128 x0 shapeCasts_S5000x128_S5000x128)
      (mulf (extf .f32 (shapeCast S5000x128 x1 shapeCasts_S5000x128_S5000x128) bitsLt_bf16_f32)
        (broadcastTo S5000x128 (shapeCast S5000x1 x2 shapeCasts_S5000x1_S5000x1) broadcasts_S5000x1_S5000x128)))
    (broadcastTo S5000x128 (shapeCast S1x128 x3 shapeCasts_S1x128_S1x128) broadcasts_S1x128_S5000x128)

/-- The combined block at row `r`, column `j`. -/
theorem comb_apply (x0 : Vec Ideal S5000x128 .f32) (x1 : Vec Ideal S5000x128 .bf16) (x2 : Vec Ideal S5000x1 .f32)
    (x3 : Vec Ideal S1x128 .f32) (r : Fin 5000) (j : Fin 128) :
    comb x0 x1 x2 x3 (ix2 r j)
      = (x0 (ix2 r j) + x1 (ix2 r j) * x2 (ix2 r (0 : Fin 1))) + x3 (ix2 (0 : Fin 1) j) := by
  unfold comb
  rw [shapeCast_self, shapeCast_self, shapeCast_self, shapeCast_self]
  show (x0 (ix2 r j) + x1 (ix2 r j) * broadcastTo S5000x128 x2 broadcasts_S5000x1_S5000x128 (ix2 r j))
      + broadcastTo S5000x128 x3 broadcasts_S1x128_S5000x128 (ix2 r j) = _
  rw [column_spread, broadcastTo_1b_ab_apply]

/-- Splitting a 128-column block `X` into its halves and recombining: at `(r, q)` the left half plus the noise times
    the exponential of the right half. -/
theorem split_apply (X : FVec Ideal S5000x128 .f32) (x4 : Vec Ideal S5000x64 .f32) (r : Fin 5000) (q : Fin 64) :
    addf (extractStridedSlice S5000x64 ![0, 0] X slices_S5000x128_o0_0_S5000x64)
        (mulf x4 (exp (extractStridedSlice S5000x64 ![0, 64] X slices_S5000x128_o0_64_S5000x64))) (ix2 r q)
      = X (ix2 r (lo q)) + x4 (ix2 r q) * Ideal.exp (X (ix2 r (hi q))) := by
  show extractStridedSlice S5000x64 ![0, 0] X slices_S5000x128_o0_0_S5000x64 (ix2 r q)
      + x4 (ix2 r q) * Ideal.exp (extractStridedSlice S5000x64 ![0, 64] X slices_S5000x128_o0_64_S5000x64 (ix2 r q)) = _
  rw [slice2_axis1_apply 0 X slices_S5000x128_o0_0_S5000x64 r q (lo q) (by show q.val = 0 + q.val; omega),
    slice2_axis1_apply 64 X slices_S5000x128_o0_64_S5000x64 r q (hi q) (by show q.val + 64 = 64 + q.val; omega)]

/-- The body's payload is the split of the combined block. -/
theorem pay_eq (x0 : Vec Ideal S5000x128 .f32) (x1 : Vec Ideal S5000x128 .bf16) (x2 : Vec Ideal S5000x1 .f32)
    (x3 : Vec Ideal S1x128 .f32) (x4 : Vec Ideal S5000x64 .f32) :
    k2_pay1 (F := Ideal) x0 x1 x2 x3 x4
      = addf (extractStridedSlice S5000x64 ![0, 0] (comb x0 x1 x2 x3) slices_S5000x128_o0_0_S5000x64)
          (mulf x4 (exp (extractStridedSlice S5000x64 ![0, 64] (comb x0 x1 x2 x3) slices_S5000x128_o0_64_S5000x64))) := rfl

/-- The payload at row `r` of the block, column `q`. -/
theorem pay_apply (x0 : Vec Ideal S5000x128 .f32) (x1 : Vec Ideal S5000x128 .bf16) (x2 : Vec Ideal S5000x1 .f32)
    (x3 : Vec Ideal S1x128 .f32) (x4 : Vec Ideal S5000x64 .f32) (r : Fin 5000) (q : Fin 64) :
    k2_pay1 (F := Ideal) x0 x1 x2 x3 x4 (ix2 r q)
      = ((x0 (ix2 r (lo q)) + x1 (ix2 r (lo q)) * x2 (ix2 r (0 : Fin 1))) + x3 (ix2 (0 : Fin 1) (lo q)))
        + x4 (ix2 r q) * Ideal.exp ((x0 (ix2 r (hi q)) + x1 (ix2 r (hi q)) * x2 (ix2 r (0 : Fin 1))) + x3 (ix2 (0 : Fin 1) (hi q))) := by
  rw [pay_eq, split_apply, comb_apply, comb_apply]

/-! ## From blocks to the array -/

theorem zero_offsets : (![0, 0] : Fin 2 → Nat) = fun _ => 0 := funext fun a => by fin_cases a <;> rfl

/-- The index maps, decided over the ten grid points: a row-blocked window's block index is `(t, 0)`, the bias
    row's is `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- There are ten grid points. -/
theorem point_lt (t : Fin cfg2.N) : t.val < 10 := by
  have h := t.isLt
  have hN : cfg2.N = 10 := N_2
  omega

section
variable (V : (c : Dev nD) → (b : Ref sig .tc) → Buf (Elt Ideal) ((c : Thread nD τ).loc b)) (c : Dev nD)

/-- The five operand arrays as the region finds them: the aggregate, the linear part, the per-row scale (one
    column), the bias (one row) and the noise. -/
abbrev agg : S50000x128.Idx → EReal := V c main_v59
abbrev lin : S50000x128.Idx → EReal := V c main_v46
abbrev dsq : S50000x1.Idx → EReal := V c main_v12
abbrev bias : S1x128.Idx → EReal := V c main_v60
abbrev noise : S50000x64.Idx → EReal := V c main_arg11

/-- The combined array `(agg + lin · dsq) + bias` at row `p`, column `j`. -/
def C (p : Fin 50000) (j : Fin 128) : EReal :=
  (agg V c (ix2 p j) + lin V c (ix2 p j) * dsq V c (ix2 p (0 : Fin 1))) + bias V c (ix2 (0 : Fin 1) j)

/-- What the output array ends holding, index by index: the mean plus the noise times the exponential of the
    log-scale. -/
def G : S50000x64.Idx → EReal := fun i =>
  C V c (i 0) (lo (i 1)) + noise V c (ix2 (i 0) (i 1)) * Ideal.exp (C V c (i 0) (hi (i 1)))

theorem G_apply (p : Fin 50000) (q : Fin 64) :
    G V c (ix2 p q) = C V c p (lo q) + noise V c (ix2 p q) * Ideal.exp (C V c p (hi q)) := rfl

/-- Row `r` of a 128-column block at point `t` is row `t · 5000 + r` of its array (window 0). -/
theorem emb0 (t : Fin cfg2.N) (r : Fin 5000) (j : Fin 128) (p : Fin 50000) (hp : p.val = t.val * 5000 + r.val) :
    ((cfg2.win 0).blk t).view.emb (ix2 r j) = ix2 p j := by
  obtain ⟨i00, i01, -⟩ := idx_facts t
  funext a; apply Fin.ext
  match a with
  | ⟨0, _⟩ => show win2_0.index t (0 : Fin 2) * 5000 + 1 * r.val = p.val; rw [i00]; omega
  | ⟨1, _⟩ => show win2_0.index t (1 : Fin 2) * 128 + 1 * j.val = j.val; rw [i01]; omega

/-- The same for the linear part's window (window 1). -/
theorem emb1 (t : Fin cfg2.N) (r : Fin 5000) (j : Fin 128) (p : Fin 50000) (hp : p.val = t.val * 5000 + r.val) :
    ((cfg2.win 1).blk t).view.emb (ix2 r j) = ix2 p j := by
  obtain ⟨-, -, i10, i11, -⟩ := idx_facts t
  funext a; apply Fin.ext
  match a with
  | ⟨0, _⟩ => show win2_1.index t (0 : Fin 2) * 5000 + 1 * r.val = p.val; rw [i10]; omega
  | ⟨1, _⟩ => show win2_1.index t (1 : Fin 2) * 128 + 1 * j.val = j.val; rw [i11]; omega

/-- Row `r` of the scale column's block at point `t` is row `t · 5000 + r` of the column (window 2). -/
theorem emb2 (t : Fin cfg2.N) (r : Fin 5000) (u : Fin 1) (p : Fin 50000) (hp : p.val = t.val * 5000 + r.val) :
    ((cfg2.win 2).blk t).view.emb (ix2 r u) = ix2 p u := by
  obtain ⟨-, -, -, -, i20, i21, -⟩ := idx_facts t
  funext a; apply Fin.ext
  match a with
  | ⟨0, _⟩ => show win2_2.index t (0 : Fin 2) * 5000 + 1 * r.val = p.val; rw [i20]; omega
  | ⟨1, _⟩ => show win2_2.index t (1 : Fin 2) * 1 + 1 * u.val = u.val; rw [i21]; omega

/-- The bias row's block is the whole row at every point (window 3). -/
theorem emb3 (t : Fin cfg2.N) (u : Fin 1) (j : Fin 128) :
    ((cfg2.win 3).blk t).view.emb (ix2 u j) = ix2 u j := by
  obtain ⟨-, -, -, -, -, -, i30, i31, -⟩ := idx_facts t
  funext a; apply Fin.ext
  match a with
  | ⟨0, _⟩ => show win2_3.index t (0 : Fin 2) * 1 + 1 * u.val = u.val; rw [i30]; omega
  | ⟨1, _⟩ => show win2_3.index t (1 : Fin 2) * 128 + 1 * j.val = j.val; rw [i31]; omega

/-- Row `r` of a 64-column block at point `t` is row `t · 5000 + r` of its array (the noise's window 4). -/
theorem emb4 (t : Fin cfg2.N) (r : Fin 5000) (q : Fin 64) (p : Fin 50000) (hp : p.val = t.val * 5000 + r.val) :
    ((cfg2.win 4).blk t).view.emb (ix2 r q) = ix2 p q := by
  obtain ⟨-, -, -, -, -, -, -, -, i40, i41, -⟩ := idx_facts t
  funext a; apply Fin.ext
  match a with
  | ⟨0, _⟩ => show win2_4.index t (0 : Fin 2) * 5000 + 1 * r.val = p.val; rw [i40]; omega
  | ⟨1, _⟩ => show win2_4.index t (1 : Fin 2) * 64 + 1 * q.val = q.val; rw [i41]; omega

/-- The same for the output's window 5. -/
theorem emb5 (t : Fin cfg2.N) (r : Fin 5000) (q : Fin 64) (p : Fin 50000) (hp : p.val = t.val * 5000 + r.val) :
    ((cfg2.win 5).blk t).view.emb (ix2 r q) = ix2 p q := by
  obtain ⟨-, -, -, -, -, -, -, -, -, -, i50, i51⟩ := idx_facts t
  funext a; apply Fin.ext
  match a with
  | ⟨0, _⟩ => show win2_5.index t (0 : Fin 2) * 5000 + 1 * r.val = p.val; rw [i50]; omega
  | ⟨1, _⟩ => show win2_5.index t (1 : Fin 2) * 64 + 1 * q.val = q.val; rw [i51]; omega

/-- WHAT POINT `t` WRITES BACK is block `t` of `G`: each operand block read where the output's rows sit. -/
theorem flushed_eq (t : Fin cfg2.N) :
    (dat2 (F := Ideal) V c).flushed 5 t = ((cfg2.win 5).blk t).view.read (Elt Ideal) (G V c) := by
  show (cfg2.win 5).cut (grid2.coords t) ((dat2 (F := Ideal) V c).after 5 t) = _
  rw [after2_5]
  unfold out2_5
  rw [View.canon_unit_zero zero_offsets]
  simp only [View.ld_unit_zero (S := S5000x128) zero_offsets, View.ld_unit_zero (S := S5000x1) zero_offsets,
    View.ld_unit_zero (S := S1x128) zero_offsets, View.ld_unit_zero (S := S5000x64) zero_offsets]
  funext y
  obtain ⟨r, q, rfl⟩ : ∃ (r : Fin 5000) (q : Fin 64), y = ix2 r q := ⟨y 0, y 1, eq_ix2 y⟩
  show k2_pay1 (F := Ideal) (iblk2 V c 0 t) (iblk2 V c 1 t) (iblk2 V c 2 t) (iblk2 V c 3 t) (iblk2 V c 4 t) (ix2 r q)
      = G V c (((cfg2.win 5).blk t).view.emb (ix2 r q))
  refine (pay_apply _ _ _ _ _ r q).trans ?_
  have ht := point_lt t
  have hp : (⟨t.val * 5000 + r.val, by have := r.isLt; omega⟩ : Fin 50000).val = t.val * 5000 + r.val := rfl
  have e0 : ∀ j : Fin 128, iblk2 (F := Ideal) V c 0 t (ix2 r j) = agg V c (ix2 ⟨t.val * 5000 + r.val, by have := r.isLt; omega⟩ j) :=
    fun j => congrArg (V c main_v59) (emb0 t r j _ hp)
  have e1 : ∀ j : Fin 128, iblk2 (F := Ideal) V c 1 t (ix2 r j) = lin V c (ix2 ⟨t.val * 5000 + r.val, by have := r.isLt; omega⟩ j) :=
    fun j => congrArg (V c main_v46) (emb1 t r j _ hp)
  have e2 : iblk2 (F := Ideal) V c 2 t (ix2 r (0 : Fin 1)) = dsq V c (ix2 ⟨t.val * 5000 + r.val, by have := r.isLt; omega⟩ (0 : Fin 1)) :=
    congrArg (V c main_v12) (emb2 t r 0 _ hp)
  have e3 : ∀ j : Fin 128, iblk2 (F := Ideal) V c 3 t (ix2 (0 : Fin 1) j) = bias V c (ix2 (0 : Fin 1) j) :=
    fun j => congrArg (V c main_v60) (emb3 t 0 j)
  have e4 : iblk2 (F := Ideal) V c 4 t (ix2 r q) = noise V c (ix2 ⟨t.val * 5000 + r.val, by have := r.isLt; omega⟩ q) :=
    congrArg (V c main_arg11) (emb4 t r q _ hp)
  rw [e0, e0, e1, e1, e2, e3, e3, e4, emb5 t r q _ hp]
  rfl

/-- An index of the array is in point `t`'s block iff each coordinate is in the block's range on its axis. -/
theorem mem_blk (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v61).slice (win2_5.rect t)).set ↔ _
  rw [View.set_slice_whole, Rect.mem_set_unit]
  exact Iff.rfl

/-- Every index of the output is in some point's block: row `p` in the block of point `p / 5000`. -/
theorem cover (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  refine ⟨⟨(i 0).val / 5000, by omega⟩, flush2_5 _, ?_⟩
  rw [mem_blk]
  obtain ⟨-, -, -, -, -, -, -, -, -, -, i50, i51⟩ := idx_facts ⟨(i 0).val / 5000, by omega⟩
  intro a
  match a with
  | ⟨0, _⟩ =>
    show win2_5.index ⟨(i 0).val / 5000, _⟩ (0 : Fin 2) * 5000 ≤ (i 0).val ∧ (i 0).val < win2_5.index ⟨(i 0).val / 5000, _⟩ (0 : Fin 2) * 5000 + 5000
    rw [i50]; show (i 0).val / 5000 * 5000 ≤ (i 0).val ∧ (i 0).val < (i 0).val / 5000 * 5000 + 5000; omega
  | ⟨1, _⟩ =>
    show win2_5.index ⟨(i 0).val / 5000, _⟩ (1 : Fin 2) * 64 ≤ (i 1).val ∧ (i 1).val < win2_5.index ⟨(i 0).val / 5000, _⟩ (1 : Fin 2) * 64 + 64
    rw [i51]; omega

/-- THE OUTPUT ARRAY after the region is `G` of the operand arrays as the region finds them. -/
theorem final_eq : (dat2 (F := Ideal) V c).arrAt 5 cfg2.N = G V c :=
  (dat2 (F := Ideal) V c).arrAt_eq_of_cover 5 (G V c) (fun t _ => flushed_eq V c t) cover

/-- Index by index: at row `p`, column `q`, the mean plus the noise times the exponential of the log-scale. -/
theorem final (p : Fin 50000) (q : Fin 64) :
    (dat2 (F := Ideal) V c).arrAt 5 cfg2.N (ix2 p q)
      = C V c p (lo q) + noise V c (ix2 p q) * Ideal.exp (C V c p (hi q)) :=
  (congrFun (final_eq V c) (ix2 p q)).trans (G_apply V c p q)

end

end Cert.KernelIdeal.Region2

end
-- ==== Proof.RefZ.lean ====
/-
  The reference's reparameterised sample, read at one entry.

  The reference forms the mean as  (aggregate + linear · d²) + bias  with the first head's weights and bias, the
  log-scale the same way with the second head's, and returns  mean + noise · exp (log-scale).  Here d² is the per-row
  factor (one number per row, spread over the 64 columns) and each bias is one number per column, spread over the rows.
  Every stage is pointwise or a spread, so the entry at row p, column q is that expression of the stages' entries at
  (p, q), the factor at p and the biases at q.
-/
import proofs.«179847_j10969346474792_2_alg».proof.Proof.Gen.ReferenceIdeal.Read
import Idealize.ShloMosaic.Lib.ValueIdx

set_option maxRecDepth 16384

noncomputable section

namespace Cert.ReferenceIdeal.RefZ

open Cert.ReferenceIdeal Cert.ReferenceIdeal.Gen Cert.ReferenceIdeal.Read Idealize.ShloMosaic Idealize.ShloMosaic.TcCoe
open Idealize.ShloMosaic.ValueIdx Idealize.SL.Sem Idealize.ShloMosaic.StableHlo

/-- The per-row factor is computed three times by the same expression. -/
theorem v78_eq (x1 : (⟨S2x800000, .i32⟩ : BufTy).Contents (Elt Ideal)) : val_main_v78 (F := Ideal) x1 = val_main_v40 (F := Ideal) x1 := rfl
theorem v115_eq (x1 : (⟨S2x800000, .i32⟩ : BufTy).Contents (Elt Ideal)) : val_main_v115 (F := Ideal) x1 = val_main_v40 (F := Ideal) x1 := rfl

/-- A column spread over the 64 columns is read at its row. -/
theorem row_of_v80 (p : Fin 50000) (q : Fin 64) : idx_main_v79 (idx_main_v80 (ix2 p q)) = ix1 p :=
  funext fun a => Fin.ext (by match a with | ⟨0, _⟩ => rfl)
theorem row_of_v117 (p : Fin 50000) (q : Fin 64) : idx_main_v116 (idx_main_v117 (ix2 p q)) = ix1 p :=
  funext fun a => Fin.ext (by match a with | ⟨0, _⟩ => rfl)
/-- A row spread over the 50000 rows is read at its column. -/
theorem col_of_v84 (p : Fin 50000) (q : Fin 64) : idx_main_v83 (idx_main_v84 (ix2 p q)) = ix1 q :=
  funext fun a => Fin.ext (by match a with | ⟨0, _⟩ => rfl)
theorem col_of_v121 (p : Fin 50000) (q : Fin 64) : idx_main_v120 (idx_main_v121 (ix2 p q)) = ix1 q :=
  funext fun a => Fin.ext (by match a with | ⟨0, _⟩ => rfl)

/-- The mean at row `p`, column `q`. -/
theorem mean_apply (x0 : (⟨S50000x256, .f32⟩ : BufTy).Contents (Elt Ideal)) (x1 : (⟨S2x800000, .i32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (p : Fin 50000) (q : Fin 64) :
    val_main_v85 (F := Ideal) x0 x1 x3 x4 x5 x6 (ix2 p q)
      = (val_main_v77 (F := Ideal) x0 x1 x3 x4 x5 (ix2 p q)
          + val_main_v49 (F := Ideal) x0 x1 x3 x4 x5 (ix2 p q) * val_main_v40 (F := Ideal) x1 (ix1 p)) + x6 (ix1 q) := by
  rw [val_main_v85_apply, val_main_v82_apply, val_main_v81_apply, val_main_v84_apply, val_main_v83_apply,
    val_main_v80_apply, val_main_v79_apply, row_of_v80, col_of_v84, v78_eq]
  rfl

/-- The log-scale at row `p`, column `q`. -/
theorem logScale_apply (x0 : (⟨S50000x256, .f32⟩ : BufTy).Contents (Elt Ideal)) (x1 : (⟨S2x800000, .i32⟩ : BufTy).Contents (Elt Ideal)) (x3 : (⟨S256x128, .f32⟩ : BufTy).Contents (Elt Ideal)) (x4 : (⟨S128, .f32⟩ : BufTy).Contents (Elt Ideal)) (x7 : (⟨S128x64, .f32⟩ : BufTy).Contents (Elt Ideal)) (x8 : (⟨S64, .f32⟩ : BufTy).Contents (Elt Ideal)) (p : Fin 50000) (q : Fin 64) :
    val_main_v122 (F := Ideal) x0 x1 x3 x4 x7 x8 (ix2 p q)
      = (val_main_v114 (F := Ideal) x0 x1 x3 x4 x7 (ix2 p q)
          + val_main_v86 (F := Ideal) x0 x1 x3 x4 x7 (ix2 p q) * val_main_v40 (F := Ideal) x1 (ix1 p)) + x8 (ix1 q) := by
  rw [val_main_v122_apply, val_main_v119_apply, val_main_v118_apply, val_main_v121_apply, val_main_v120_apply,
    val_main_v117_apply, val_main_v116_apply, row_of_v117, col_of_v121, v115_eq]
  rfl

/-- The sample at row `p`, column `q`: the mean plus the noise times the exponential of the log-scale. -/
theorem z_apply (x0 : (⟨S50000x256, .f32⟩ : BufTy).Contents (Elt Ideal)) (x1 : (⟨S2x800000, .i32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (x11 : (⟨S50000x64, .f32⟩ : BufTy).Contents (Elt Ideal)) (p : Fin 50000) (q : Fin 64) :
    val_main_v125 (F := Ideal) x0 x1 x3 x4 x5 x6 x7 x8 x11 (ix2 p q)
      = ((val_main_v77 (F := Ideal) x0 x1 x3 x4 x5 (ix2 p q)
            + val_main_v49 (F := Ideal) x0 x1 x3 x4 x5 (ix2 p q) * val_main_v40 (F := Ideal) x1 (ix1 p)) + x6 (ix1 q))
        + x11 (ix2 p q) * Ideal.exp ((val_main_v114 (F := Ideal) x0 x1 x3 x4 x7 (ix2 p q)
            + val_main_v86 (F := Ideal) x0 x1 x3 x4 x7 (ix2 p q) * val_main_v40 (F := Ideal) x1 (ix1 p)) + x8 (ix1 q)) := by
  rw [val_main_v125_apply, val_main_v124_apply, val_main_v123_apply, mean_apply, logScale_apply,
    Ideal.addf_def, Ideal.mulf_def, Ideal.hostUnary_exp_def]

end Cert.ReferenceIdeal.RefZ

end
-- ==== Proof.KStage3.lean ====
/-
  The third launch computes the reference's reparameterised sample.

  The third launch forms, row by row, the two second-layer outputs at once — the 128-column neighbourhood sum plus the
  node's own 128-column product scaled by its squared inverse root degree, plus the joined bias — and returns the left
  half plus the noise times the exponential of the right half.  Column by column the left half is the reference's
  mean and the right half its log standard deviation.
-/
import proofs.«179847_j10969346474792_2_alg».proof.Proof.Gen.KernelIdeal.Frame
import proofs.«179847_j10969346474792_2_alg».proof.Proof.Gen.ReferenceIdeal.Read
import proofs.«179847_j10969346474792_2_alg».proof.Proof.KThread
import proofs.«179847_j10969346474792_2_alg».proof.Proof.KHost0
import proofs.«179847_j10969346474792_2_alg».proof.Proof.KHost1
import proofs.«179847_j10969346474792_2_alg».proof.Proof.KStage2
import proofs.«179847_j10969346474792_2_alg».proof.Proof.KHost2
import proofs.«179847_j10969346474792_2_alg».proof.Proof.Region2
import proofs.«179847_j10969346474792_2_alg».proof.Proof.RefZ

set_option maxRecDepth 16384

noncomputable section

namespace Cert.KernelIdeal.KStage3

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- A left-half column of the combined second-layer output is the reference's mean before the noise term. -/
theorem comb_lo (p : Fin 50000) (q : Fin 64) :
    Region2.C (V5 m ρ) c p (Region2.lo q)
      = (Cert.ReferenceIdeal.Read.val_main_v77 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 p q) + Cert.ReferenceIdeal.Read.val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 p q) * Cert.ReferenceIdeal.Read.val_main_v40 (F := Ideal) (m ((c : Thread nD τ).loc main_arg1)) (ix1 p)) + (m ((c : Thread nD τ).loc main_arg6)) (ix1 q) := by
  have e59 : Region2.agg (V5 m ρ) c (ix2 p (Region2.lo q)) = Cert.ReferenceIdeal.Read.val_main_v77 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 p q) := KHost2.agg34_lo m ρ c p q
  have e46 : Region2.lin (V5 m ρ) c (ix2 p (Region2.lo q)) = Cert.ReferenceIdeal.Read.val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 p q) :=
    (congrFun (KThread.v46_W5 m ρ c) _).trans (KStage2.h34_lo m ρ c p q)
  have e12 : Region2.dsq (V5 m ρ) c (ix2 p (0 : Fin 1)) = Cert.ReferenceIdeal.Read.val_main_v40 (F := Ideal) (m ((c : Thread nD τ).loc main_arg1)) (ix1 p) :=
    (congrFun (KThread.v12_W5 m ρ c) _).trans (KHost0.dsq_apply m ρ c p)
  have e60 : Region2.bias (V5 m ρ) c (ix2 (0 : Fin 1) (Region2.lo q)) = (m ((c : Thread nD τ).loc main_arg6)) (ix1 q) :=
    (KHost2.b34row_apply m ρ c (KHost1.lo q)).trans (KHost1.b34_lo m ρ c q)
  unfold Region2.C
  rw [e59, e46, e12, e60]

/-- A right-half column of the combined second-layer output is the reference's log standard deviation. -/
theorem comb_hi (p : Fin 50000) (q : Fin 64) :
    Region2.C (V5 m ρ) c p (Region2.hi q)
      = (Cert.ReferenceIdeal.Read.val_main_v114 (F := Ideal) (m ((c : Thread nD τ).loc main_arg0)) (m ((c : Thread nD τ).loc main_arg1)) (m ((c : Thread nD τ).loc main_arg3)) (m ((c : Thread nD τ).loc main_arg4)) (m ((c : Thread nD τ).loc main_arg7)) (ix2 p q) + Cert.ReferenceIdeal.Read.val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg7)) (ix2 p q) * Cert.ReferenceIdeal.Read.val_main_v40 (F := Ideal) (m ((c : Thread nD τ).loc main_arg1)) (ix1 p)) + (m ((c : Thread nD τ).loc main_arg8)) (ix1 q) := by
  have e59 : Region2.agg (V5 m ρ) c (ix2 p (Region2.hi q)) = Cert.ReferenceIdeal.Read.val_main_v114 (F := Ideal) (m ((c : Thread nD τ).loc main_arg0)) (m ((c : Thread nD τ).loc main_arg1)) (m ((c : Thread nD τ).loc main_arg3)) (m ((c : Thread nD τ).loc main_arg4)) (m ((c : Thread nD τ).loc main_arg7)) (ix2 p q) := KHost2.agg34_hi m ρ c p q
  have e46 : Region2.lin (V5 m ρ) c (ix2 p (Region2.hi q)) = Cert.ReferenceIdeal.Read.val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg7)) (ix2 p q) :=
    (congrFun (KThread.v46_W5 m ρ c) _).trans (KStage2.h34_hi m ρ c p q)
  have e12 : Region2.dsq (V5 m ρ) c (ix2 p (0 : Fin 1)) = Cert.ReferenceIdeal.Read.val_main_v40 (F := Ideal) (m ((c : Thread nD τ).loc main_arg1)) (ix1 p) :=
    (congrFun (KThread.v12_W5 m ρ c) _).trans (KHost0.dsq_apply m ρ c p)
  have e60 : Region2.bias (V5 m ρ) c (ix2 (0 : Fin 1) (Region2.hi q)) = (m ((c : Thread nD τ).loc main_arg8)) (ix1 q) :=
    (KHost2.b34row_apply m ρ c (KHost1.hi q)).trans (KHost1.b34_hi m ρ c q)
  unfold Region2.C
  rw [e59, e46, e12, e60]

/-- THE THIRD LAUNCH'S OUTPUT, entry by entry, is the reference's sample. -/
theorem z_apply (p : Fin 50000) (q : Fin 64) :
    W6 m ρ c (Proc.devRef .tc main_v61) (ix2 p q) = Cert.ReferenceIdeal.Read.val_main_v125 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (ix2 p q) := by
  have e11 : Region2.noise (V5 m ρ) c = (m ((c : Thread nD τ).loc main_arg11)) := KThread.arg11_W5 m ρ c
  show W6 m ρ c (Proc.devRef .tc (Pipeline.arrRef spec2 5)) (ix2 p q) = _
  rw [W6_arr m ρ c 5, Region2.final (V5 m ρ) c p q, comb_lo, comb_hi, Cert.ReferenceIdeal.RefZ.z_apply]
  rw [e11]

/-- The third launch's output as a whole array. -/
theorem z_eq : W6 m ρ c (Proc.devRef .tc main_v61) = Cert.ReferenceIdeal.Read.val_main_v125 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) := by
  funext i
  obtain ⟨p, q, rfl⟩ : ∃ (p : Fin 50000) (q : Fin 64), i = ix2 p q := ⟨i 0, i 1, eq_ix2 i⟩
  exact z_apply m ρ c p q

end Cert.KernelIdeal.KStage3

end
-- ==== Proof.KHost3.lean ====
/-
  What the last stretch of host operations leaves for the last launch.

  After the third launch the program sums the sample's rows into their graphs, counts each graph's nodes, divides
  each graph's sum by its count (at least one), and reshapes the last bias into a row.  The pooling is, operation for
  operation, the reference's, applied to the third launch's output, which is the reference's sample.
-/
import proofs.«179847_j10969346474792_2_alg».proof.Proof.Gen.KernelIdeal.Frame
import proofs.«179847_j10969346474792_2_alg».proof.Proof.Gen.ReferenceIdeal.Read
import proofs.«179847_j10969346474792_2_alg».proof.Proof.KThread
import proofs.«179847_j10969346474792_2_alg».proof.Proof.KStage3
import Idealize.ShloMosaic.Lib.ValueLayout

set_option maxRecDepth 16384

noncomputable section

namespace Cert.KernelIdeal.KHost3

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

set_option maxHeartbeats 4000000 in
/-- THE POOLED FEATURES are the reference's: the same pooling of the same sample by the same graph labels. -/
theorem pooled_eq : W7 m ρ c (Proc.devRef .tc main_v73) = Cert.ReferenceIdeal.Read.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) := by
  show StableHlo.after hostOps3 (W6 m ρ c) (Proc.devRef .tc main_v73) = _
  after_results_simp
  rw [KThread.arg2_W6 m ρ c, KStage3.z_eq m ρ c]
  rfl

/-- The last bias as a row. -/
theorem bfcrow_apply (j : Fin 4) : W7 m ρ c (Proc.devRef .tc main_v74) (ix2 0 j) = (m ((c : Thread nD τ).loc main_arg10)) (ix1 j) := by
  have e : W7 m ρ c (Proc.devRef .tc main_v74) = shapeCast S1x4 (m ((c : Thread nD τ).loc main_arg10)) shapeCasts_S4_S1x4 := by
    show StableHlo.after hostOps3 (W6 m ρ c) (Proc.devRef .tc main_v74) = _
    after_results_simp
    rw [KThread.arg10_W6 m ρ c]
    rfl
  rw [e]
  exact shapeCast_a_1a_apply _ _ 0 j

end Cert.KernelIdeal.KHost3

end
-- ==== Proof.Region3.lean ====
/-
  The last kernel region: the class scores and their log-softmax.

  There is one grid point and every window is its whole array. The body multiplies the pooled features
  ([512, 64]) by the weights ([64, 4]) into a zero accumulator, adds the bias row, and takes the log-softmax of
  each row of the resulting scores L: with M the row's maximum,
      out[g, j] = (L[g, j] - M[g]) - log (∑ j', exp (L[g, j'] - M[g])).
-/
import proofs.«179847_j10969346474792_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«179847_j10969346474792_2_alg».proof.Proof.LibPlainProduct
import proofs.«179847_j10969346474792_2_alg».proof.Proof.LibColumnLayout

set_option maxRecDepth 16384

noncomputable section

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat)

/-! ## The product's dimension numbers -/

/-- The product contracts the features' second axis with the weights' first. -/
abbrev dims : DotDims S512x64 S64x4 S512x4 := dot_S512x64_S64x4_S512x4_1_0_0_1_n_n

theorem lhs_row (i : S512x4.Idx) (q : dims.contr.Idx) : (dims.lhsIdx i q (0 : Fin 2)).val = (i (0 : Fin 2)).val := by
  unfold DotDims.lhsIdx
  rw [dif_neg (show ¬(0 : Fin S512x64.rank) ∈ dims.lhsBatch by decide), dif_pos (show (0 : Fin S512x64.rank) ∈ dims.lhsNonContracting by decide)]
  rfl
theorem lhs_col (i : S512x4.Idx) (q : dims.contr.Idx) : (dims.lhsIdx i q (1 : Fin 2)).val = (q ⟨0, by decide⟩).val :=
  dims.lhsIdx_val_of_single rfl i q
theorem rhs_row (i : S512x4.Idx) (q : dims.contr.Idx) : (dims.rhsIdx i q (0 : Fin 2)).val = (q ⟨0, by decide⟩).val :=
  dims.rhsIdx_val_of_single rfl i q
theorem rhs_col (i : S512x4.Idx) (q : dims.contr.Idx) : (dims.rhsIdx i q (1 : Fin 2)).val = (i (1 : Fin 2)).val := by
  unfold DotDims.rhsIdx
  rw [dif_neg (show ¬(1 : Fin S64x4.rank) ∈ dims.rhsBatch by decide), dif_pos (show (1 : Fin S64x4.rank) ∈ dims.rhsNonContracting by decide)]
  rfl

/-! ## The scores -/

/-- The scores: the product of the features and the weights plus the bias row spread over the rows. -/
def scores (x0 : Vec Ideal S512x64 .f32) (x1 : Vec Ideal S64x4 .f32) (x2 : Vec Ideal S1x4 .f32) : FVec Ideal S512x4 .f32 :=
  addf (matmul dot_S512x64_S64x4_S512x4_1_0_0_1_n_n none
      (truncf .bf16 (shapeCast S512x64 x0 shapeCasts_S512x64_S512x64) bitsLt_bf16_f32) (truncf .bf16 x1 bitsLt_bf16_f32)
      (constant (F := Ideal) S512x4 .f32 0x00000000#32))
    (broadcastTo S512x4 (shapeCast S1x4 x2 shapeCasts_S1x4_S1x4) broadcasts_S1x4_S512x4)

/-- The score of row `g`, class `j`. -/
theorem scores_apply (x0 : Vec Ideal S512x64 .f32) (x1 : Vec Ideal S64x4 .f32) (x2 : Vec Ideal S1x4 .f32) (g : Fin 512) (j : Fin 4) :
    scores x0 x1 x2 (ix2 g j) = (∑ k : Fin 64, x0 (ix2 g k) * x1 (ix2 k j)) + x2 (ix2 (0 : Fin 1) j) := by
  unfold scores
  rw [shapeCast_self, shapeCast_self]
  show FloatOps.matmul dot_S512x64_S64x4_S512x4_1_0_0_1_n_n none (truncf .bf16 x0 bitsLt_bf16_f32) (truncf .bf16 x1 bitsLt_bf16_f32)
        (constant (F := Ideal) S512x4 .f32 0x00000000#32) (ix2 g j)
      + broadcastTo S512x4 x2 broadcasts_S1x4_S512x4 (ix2 g j) = _
  rw [broadcastTo_1b_ab_apply]
  exact congrArg (· + x2 (ix2 (0 : Fin 1) j))
    (Cert.PlainProduct.matmul_zero_entry dims rfl rfl lhs_row lhs_col rhs_row rhs_col
      (truncf .bf16 x0 bitsLt_bf16_f32) (truncf .bf16 x1 bitsLt_bf16_f32) g j)

/-! ## A row's maximum and a row's sum -/

/-- The index of row `g` with class `k` put back. -/
theorem lift_eq (g : Fin 512) (k : Fin 4) : reduces_S512x4_S512.lift (ix1 g) k = ix2 g k := by
  funext a; apply Fin.ext
  match a with
  | ⟨0, _⟩ => rfl
  | ⟨1, _⟩ => rfl

/-- Each row's maximum over the four classes. -/
def rowMax (X : FVec Ideal S512x4 .f32) : FVec Ideal S512 .f32 :=
  multiReduction (F := Ideal) .maximumf [1] S512 X 0xFF800000#32 reduces_S512x4_S512 (.inl rfl) rfl

/-- Row `g`'s maximum is the fold of `max` over the four classes from the accumulator's value. -/
theorem rowMax_apply (X : FVec Ideal S512x4 .f32) (g : Fin 512) :
    rowMax X (ix1 g) = (Finset.univ : Finset (Fin 4)).fold max (Ideal.ofBits .f32 0xFF800000#32) (fun j => X (ix2 g j)) := by
  unfold rowMax
  refine (Ideal.multiReduction_maximumf_single X 0xFF800000#32 reduces_S512x4_S512 (.inl rfl) rfl (ix1 g)).trans ?_
  exact congrArg (fun f : Fin 4 → EReal => (Finset.univ : Finset (Fin 4)).fold max (Ideal.ofBits .f32 0xFF800000#32) f)
    (funext fun k => congrArg X (lift_eq g k))

/-- Row `g`'s sum over the four classes. -/
theorem rowSum_apply (Y : FVec Ideal S512x4 .f32) (g : Fin 512) :
    multiReduction (F := Ideal) .add [1] S512 Y 0x00000000#32 reduces_S512x4_S512 (.inl rfl) rfl (ix1 g) = ∑ k : Fin 4, Y (ix2 g k) := by
  refine (Ideal.multiReduction_add_single Y 0x00000000#32 reduces_S512x4_S512 (.inl rfl) rfl (ix1 g)).trans ?_
  exact Finset.sum_congr rfl fun k _ => congrArg Y (lift_eq g k)

/-! ## The log-softmax of the scores -/

/-- The scores less their row's maximum. -/
def shifted (X : FVec Ideal S512x4 .f32) : FVec Ideal S512x4 .f32 :=
  subf X (broadcastTo S512x4 (shapeCast S512x1 (rowMax X) shapeCasts_S512_S512x1) broadcasts_S512x1_S512x4)

theorem shifted_apply (X : FVec Ideal S512x4 .f32) (g : Fin 512) (j : Fin 4) :
    shifted X (ix2 g j) = X (ix2 g j) - rowMax X (ix1 g) := by
  show X (ix2 g j) - broadcastTo S512x4 (shapeCast S512x1 (rowMax X) shapeCasts_S512_S512x1) broadcasts_S512x1_S512x4 (ix2 g j) = _
  rw [Cert.ColumnLayout.broadcastTo_a1_ab_apply, Cert.ColumnLayout.shapeCast_a_a1_apply]

/-- A block less the logarithm of its rows' sums of exponentials. -/
def lessLogSumExp (Y : FVec Ideal S512x4 .f32) : FVec Ideal S512x4 .f32 :=
  subf Y (broadcastTo S512x4
    (log (shapeCast S512x1 (multiReduction (F := Ideal) .add [1] S512 (exp Y) 0x00000000#32 reduces_S512x4_S512 (.inl rfl) rfl) shapeCasts_S512_S512x1))
    broadcasts_S512x1_S512x4)

theorem lessLogSumExp_apply (Y : FVec Ideal S512x4 .f32) (g : Fin 512) (j : Fin 4) :
    lessLogSumExp Y (ix2 g j) = Y (ix2 g j) - Ideal.log (∑ k : Fin 4, Ideal.exp (Y (ix2 g k))) := by
  show Y (ix2 g j) - broadcastTo S512x4
    (log (shapeCast S512x1 (multiReduction (F := Ideal) .add [1] S512 (exp Y) 0x00000000#32 reduces_S512x4_S512 (.inl rfl) rfl) shapeCasts_S512_S512x1))
    broadcasts_S512x1_S512x4 (ix2 g j) = _
  rw [Cert.ColumnLayout.broadcastTo_a1_ab_apply]
  show Y (ix2 g j) - Ideal.log (shapeCast S512x1 (multiReduction (F := Ideal) .add [1] S512 (exp Y) 0x00000000#32 reduces_S512x4_S512 (.inl rfl) rfl) shapeCasts_S512_S512x1 (ix2 g (0 : Fin 1))) = _
  rw [Cert.ColumnLayout.shapeCast_a_a1_apply, rowSum_apply]
  rfl

/-! ## The specification, index by index -/

/-- The score of row `g`, class `j`, of a features array `a`, a weights array `w` and a bias row `b`. -/
def logit (a : S512x64.Idx → EReal) (w : S64x4.Idx → EReal) (b : S1x4.Idx → EReal) (g : Fin 512) (j : Fin 4) : EReal :=
  (∑ k : Fin 64, a (ix2 g k) * w (ix2 k j)) + b (ix2 (0 : Fin 1) j)

/-- Row `g`'s largest score: the fold of `max` over the four classes from minus infinity's word. -/
def top (a : S512x64.Idx → EReal) (w : S64x4.Idx → EReal) (b : S1x4.Idx → EReal) (g : Fin 512) : EReal :=
  (Finset.univ : Finset (Fin 4)).fold max (Ideal.ofBits .f32 0xFF800000#32) (fun j => logit a w b g j)

/-- The log-softmax of the scores, index by index. -/
def logSoftmax (a : S512x64.Idx → EReal) (w : S64x4.Idx → EReal) (b : S1x4.Idx → EReal) : S512x4.Idx → EReal := fun i =>
  (logit a w b (i 0) (i 1) - top a w b (i 0)) - Ideal.log (∑ k : Fin 4, Ideal.exp (logit a w b (i 0) k - top a w b (i 0)))

theorem logSoftmax_apply (a : S512x64.Idx → EReal) (w : S64x4.Idx → EReal) (b : S1x4.Idx → EReal) (g : Fin 512) (j : Fin 4) :
    logSoftmax a w b (ix2 g j)
      = (logit a w b g j - top a w b g) - Ideal.log (∑ k : Fin 4, Ideal.exp (logit a w b g k - top a w b g)) := rfl

theorem scores_eq_logit (x0 : Vec Ideal S512x64 .f32) (x1 : Vec Ideal S64x4 .f32) (x2 : Vec Ideal S1x4 .f32) (g : Fin 512) (j : Fin 4) :
    scores x0 x1 x2 (ix2 g j) = logit x0 x1 x2 g j := scores_apply x0 x1 x2 g j

theorem rowMax_eq_top (x0 : Vec Ideal S512x64 .f32) (x1 : Vec Ideal S64x4 .f32) (x2 : Vec Ideal S1x4 .f32) (g : Fin 512) :
    rowMax (scores x0 x1 x2) (ix1 g) = top x0 x1 x2 g :=
  (rowMax_apply (scores x0 x1 x2) g).trans
    (congrArg (fun f : Fin 4 → EReal => (Finset.univ : Finset (Fin 4)).fold max (Ideal.ofBits .f32 0xFF800000#32) f)
      (funext fun j => scores_eq_logit x0 x1 x2 g j))

/-- The body's payload is the log-softmax of the scores. -/
theorem pay_eq (x0 : Vec Ideal S512x64 .f32) (x1 : Vec Ideal S64x4 .f32) (x2 : Vec Ideal S1x4 .f32) :
    k3_pay1 (F := Ideal) x0 x1 x2 = lessLogSumExp (shifted (scores x0 x1 x2)) := rfl

/-- The payload at row `g`, class `j`. -/
theorem pay_apply (x0 : Vec Ideal S512x64 .f32) (x1 : Vec Ideal S64x4 .f32) (x2 : Vec Ideal S1x4 .f32) (g : Fin 512) (j : Fin 4) :
    k3_pay1 (F := Ideal) x0 x1 x2 (ix2 g j) = logSoftmax x0 x1 x2 (ix2 g j) := by
  rw [pay_eq, lessLogSumExp_apply, shifted_apply, logSoftmax_apply, scores_eq_logit, rowMax_eq_top]
  refine congrArg (fun s : EReal => (logit x0 x1 x2 g j - top x0 x1 x2 g) - Ideal.log s) ?_
  refine Finset.sum_congr rfl fun k _ => ?_
  rw [shifted_apply, scores_eq_logit, rowMax_eq_top]

/-! ## From the block to the array -/

theorem zero_offsets : (![0, 0] : Fin 2 → Nat) = fun _ => 0 := funext fun a => by fin_cases a <;> rfl

/-- Every window's block index is `(0, 0)` at the one grid point. -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- A whole-array block sits in its array where it is: the features' window, -/
theorem emb0 (t : Fin cfg3.N) (g : Fin 512) (k : Fin 64) : ((cfg3.win 0).blk t).view.emb (ix2 g k) = ix2 g k := by
  obtain ⟨i0, i1, -⟩ := idx_facts t
  funext a; apply Fin.ext
  match a with
  | ⟨0, _⟩ => show win3_0.index t (0 : Fin 2) * 512 + 1 * g.val = g.val; rw [i0]; omega
  | ⟨1, _⟩ => show win3_0.index t (1 : Fin 2) * 64 + 1 * k.val = k.val; rw [i1]; omega

/-- the weights', -/
theorem emb1 (t : Fin cfg3.N) (k : Fin 64) (j : Fin 4) : ((cfg3.win 1).blk t).view.emb (ix2 k j) = ix2 k j := by
  obtain ⟨-, -, i0, i1, -⟩ := idx_facts t
  funext a; apply Fin.ext
  match a with
  | ⟨0, _⟩ => show win3_1.index t (0 : Fin 2) * 64 + 1 * k.val = k.val; rw [i0]; omega
  | ⟨1, _⟩ => show win3_1.index t (1 : Fin 2) * 4 + 1 * j.val = j.val; rw [i1]; omega

/-- the bias row's, -/
theorem emb2 (t : Fin cfg3.N) (u : Fin 1) (j : Fin 4) : ((cfg3.win 2).blk t).view.emb (ix2 u j) = ix2 u j := by
  obtain ⟨-, -, -, -, i0, i1, -⟩ := idx_facts t
  funext a; apply Fin.ext
  match a with
  | ⟨0, _⟩ => show win3_2.index t (0 : Fin 2) * 1 + 1 * u.val = u.val; rw [i0]; omega
  | ⟨1, _⟩ => show win3_2.index t (1 : Fin 2) * 4 + 1 * j.val = j.val; rw [i1]; omega

/-- and the output's. -/
theorem emb3 (t : Fin cfg3.N) (g : Fin 512) (j : Fin 4) : ((cfg3.win 3).blk t).view.emb (ix2 g j) = ix2 g j := by
  obtain ⟨-, -, -, -, -, -, i0, i1⟩ := idx_facts t
  funext a; apply Fin.ext
  match a with
  | ⟨0, _⟩ => show win3_3.index t (0 : Fin 2) * 512 + 1 * g.val = g.val; rw [i0]; omega
  | ⟨1, _⟩ => show win3_3.index t (1 : Fin 2) * 4 + 1 * j.val = j.val; rw [i1]; omega

section
variable (V : (c : Dev nD) → (b : Ref sig .tc) → Buf (Elt Ideal) ((c : Thread nD τ).loc b)) (c : Dev nD)

/-- The three operand arrays as the region finds them: the pooled features, the weights, the bias row. -/
abbrev pooled : S512x64.Idx → EReal := V c main_v73
abbrev weights : S64x4.Idx → EReal := V c main_arg9
abbrev biasRow : S1x4.Idx → EReal := V c main_v74

/-- The input blocks at the one point are the arrays themselves. -/
theorem blk0_eq (t : Fin cfg3.N) : iblk3 (F := Ideal) V c 0 t = pooled V c := by
  funext y
  obtain ⟨g, k, rfl⟩ : ∃ (g : Fin 512) (k : Fin 64), y = ix2 g k := ⟨y 0, y 1, eq_ix2 y⟩
  exact congrArg (V c main_v73) (emb0 t g k)
theorem blk1_eq (t : Fin cfg3.N) : iblk3 (F := Ideal) V c 1 t = weights V c := by
  funext y
  obtain ⟨k, j, rfl⟩ : ∃ (k : Fin 64) (j : Fin 4), y = ix2 k j := ⟨y 0, y 1, eq_ix2 y⟩
  exact congrArg (V c main_arg9) (emb1 t k j)
theorem blk2_eq (t : Fin cfg3.N) : iblk3 (F := Ideal) V c 2 t = biasRow V c := by
  funext y
  obtain ⟨u, j, rfl⟩ : ∃ (u : Fin 1) (j : Fin 4), y = ix2 u j := ⟨y 0, y 1, eq_ix2 y⟩
  exact congrArg (V c main_v74) (emb2 t u j)

/-- What the output array ends holding. -/
abbrev G : S512x4.Idx → EReal := logSoftmax (pooled V c) (weights V c) (biasRow V c)

/-- WHAT THE POINT WRITES BACK is the whole of `G`. -/
theorem flushed_eq (t : Fin cfg3.N) :
    (dat3 (F := Ideal) V c).flushed 3 t = ((cfg3.win 3).blk t).view.read (Elt Ideal) (G V c) := by
  show (cfg3.win 3).cut (grid3.coords t) ((dat3 (F := Ideal) V c).after 3 t) = _
  rw [after3_3]
  unfold out3_3
  rw [View.canon_unit_zero zero_offsets]
  simp only [View.ld_unit_zero (S := S512x64) zero_offsets, View.ld_unit_zero (S := S64x4) zero_offsets,
    View.ld_unit_zero (S := S1x4) zero_offsets]
  rw [blk0_eq, blk1_eq, blk2_eq]
  funext y
  obtain ⟨g, j, rfl⟩ : ∃ (g : Fin 512) (j : Fin 4), y = ix2 g j := ⟨y 0, y 1, eq_ix2 y⟩
  show k3_pay1 (F := Ideal) (pooled V c) (weights V c) (biasRow V c) (ix2 g j) = G V c (((cfg3.win 3).blk t).view.emb (ix2 g j))
  rw [emb3]
  exact pay_apply _ _ _ g j

/-- An index of the array is in the point's block iff each coordinate is in the block's range on its axis. -/
theorem mem_blk (t : Fin cfg3.N) (i : S512x4.Idx) :
    i ∈ ((cfg3.win 3).blk t).view.set ↔ ∀ a : Fin 2, win3_3.index t a * S512x4.size a ≤ (i a).val ∧ (i a).val < win3_3.index t a * S512x4.size a + S512x4.size a := by
  show i ∈ ((View.whole main_v75).slice (win3_3.rect t)).set ↔ _
  rw [View.set_slice_whole, Rect.mem_set_unit]
  exact Iff.rfl

/-- The one block is the whole array. -/
theorem cover (i : S512x4.Idx) :
    ∃ t : Fin cfg3.N, (cfg3.win 3).flush t = true ∧ i ∈ ((cfg3.win 3).blk t).view.set := by
  have hi0 : (i 0).val < 512 := (i 0).isLt
  have hi1 : (i 1).val < 4 := (i 1).isLt
  have hN : cfg3.N = 1 := N_3
  refine ⟨⟨0, by omega⟩, flush3_3 _, ?_⟩
  rw [mem_blk]
  obtain ⟨-, -, -, -, -, -, i0, i1⟩ := idx_facts ⟨0, by omega⟩
  intro a
  match a with
  | ⟨0, _⟩ =>
    show win3_3.index ⟨0, _⟩ (0 : Fin 2) * 512 ≤ (i 0).val ∧ (i 0).val < win3_3.index ⟨0, _⟩ (0 : Fin 2) * 512 + 512
    rw [i0]; omega
  | ⟨1, _⟩ =>
    show win3_3.index ⟨0, _⟩ (1 : Fin 2) * 4 ≤ (i 1).val ∧ (i 1).val < win3_3.index ⟨0, _⟩ (1 : Fin 2) * 4 + 4
    rw [i1]; omega

/-- THE OUTPUT ARRAY after the region is the log-softmax of the scores of the operand arrays as the region finds them. -/
theorem final_eq : (dat3 (F := Ideal) V c).arrAt 3 cfg3.N = G V c :=
  (dat3 (F := Ideal) V c).arrAt_eq_of_cover 3 (G V c) (fun t _ => flushed_eq V c t) cover

/-- Index by index. -/
theorem final (g : Fin 512) (j : Fin 4) :
    (dat3 (F := Ideal) V c).arrAt 3 cfg3.N (ix2 g j)
      = (logit (pooled V c) (weights V c) (biasRow V c) g j - top (pooled V c) (weights V c) (biasRow V c) g)
        - Ideal.log (∑ k : Fin 4, Ideal.exp (logit (pooled V c) (weights V c) (biasRow V c) g k - top (pooled V c) (weights V c) (biasRow V c) g)) :=
  (congrFun (final_eq V c) (ix2 g j)).trans (logSoftmax_apply _ _ _ g j)

end

end Cert.KernelIdeal.Region3

end
-- ==== Proof.RefTail.lean ====
/-
  The reference's last stages, read at one entry: the class scores and their log-softmax.

  The reference multiplies the pooled features by the weights, adds the bias (one number per class, spread over
  the rows), and calls its log-softmax: each row's maximum M (a maximum-reduce from minus infinity, then once more
  the maximum with minus infinity, which changes nothing), the scores less M, the logarithm of the row's sum of
  their exponentials (a sum-reduce from zero), and the difference. Entry (g, j) is therefore
      (L g j - M g) - log (∑ j', exp (L g j' - M g)),   L g j = ∑ k, pooled[g, k] · W[k, j] + bias[j].
-/
import proofs.«179847_j10969346474792_2_alg».proof.Proof.Gen.ReferenceIdeal.Read
import proofs.«179847_j10969346474792_2_alg».proof.Proof.Region3
import Idealize.ShloMosaic.Lib.ValueIdx
import Idealize.ShloMosaic.PureOps.Ideal.Laws

set_option maxRecDepth 16384

noncomputable section

namespace Cert.ReferenceIdeal.RefTail

open Cert.ReferenceIdeal Cert.ReferenceIdeal.Gen Cert.ReferenceIdeal.Read Idealize.ShloMosaic Idealize.ShloMosaic.TcCoe
open Idealize.ShloMosaic.ValueIdx Idealize.SL.Sem Idealize.ShloMosaic.StableHlo

/-! ## Indices -/

theorem lhs_index (g : Fin 512) (j : Fin 4) (k : Fin 64) : lidx_main_v138 (ix2 g j) k = ix2 g k :=
  funext fun a => Fin.ext (by match a with | ⟨0, _⟩ => rfl | ⟨1, _⟩ => rfl)
theorem rhs_index (g : Fin 512) (j : Fin 4) (k : Fin 64) : ridx_main_v138 (ix2 g j) k = ix2 k j :=
  funext fun a => Fin.ext (by match a with | ⟨0, _⟩ => rfl | ⟨1, _⟩ => rfl)
theorem bias_index (g : Fin 512) (j : Fin 4) : idx_main_v139 (idx_main_v140 (ix2 g j)) = ix1 j :=
  funext fun a => Fin.ext (by match a with | ⟨0, _⟩ => rfl)
theorem max_index (g : Fin 512) (j : Fin 4) : idx_main_call1_v3 (idx_main_call1_v4 (ix2 g j)) = ix1 g :=
  funext fun a => Fin.ext (by match a with | ⟨0, _⟩ => rfl)
theorem sum_index (g : Fin 512) (j : Fin 4) : idx_main_call1_v8 (idx_main_call1_v10 (ix2 g j)) = ix1 g :=
  funext fun a => Fin.ext (by match a with | ⟨0, _⟩ => rfl)
theorem term_index (g : Fin 512) (k : Fin 4) : idx_main_call1_v7 (ix1 g) k = ix2 g k :=
  funext fun a => Fin.ext (by match a with | ⟨0, _⟩ => rfl | ⟨1, _⟩ => rfl)
/-- The index of row `g` with class `k` put back on the reduced axis. -/
theorem lift_index (h : S512x4.Reduces [1] S512) (g : Fin 512) (k : Fin 4) : h.lift (ix1 g) k = ix2 g k :=
  funext fun a => Fin.ext (by match a with | ⟨0, _⟩ => rfl | ⟨1, _⟩ => rfl)

/-! ## A row's maximum on the host -/

/-- The maximum-reduce of a [512, 4] array over its classes from minus infinity's word, at row `g`: the fold of `max`
    over the four classes. -/
theorem hostRowMax (X : (⟨S512x4, .f32⟩ : BufTy).Contents (Elt Ideal)) (g : Fin 512) :
    Host.reduce FloatOps.maximumf X (val_main_call1_cst (F := Ideal)) reducesTo_S512x4_S512_d1 h_S_ (ix1 g)
      = (Finset.univ : Finset (Fin 4)).fold max (Ideal.ofBits .f32 0xFF800000#32) (fun j => X (ix2 g j)) := by
  refine (Host.reduce_eq_fold_single (α := EReal) (FloatOps.maximumf (F := Ideal) (φ := .f32)) X _ reducesTo_S512x4_S512_d1 (by decide) h_S_ (ix1 g)).trans ?_
  exact congrArg (fun f : Fin 4 → EReal => (Finset.univ : Finset (Fin 4)).fold max (Ideal.ofBits .f32 0xFF800000#32) f)
    (funext fun k => congrArg X (lift_index _ g k))

/-- The maximum of the fold's starting value and the fold is the fold. -/
theorem max_fold_self (b : EReal) (f : Fin 4 → EReal) :
    max b ((Finset.univ : Finset (Fin 4)).fold max b f) = (Finset.univ : Finset (Fin 4)).fold max b f :=
  max_eq_right ((Finset.le_fold_max b).mpr (Or.inl le_rfl))

section
variable (x0 : (⟨S50000x256, .f32⟩ : BufTy).Contents (Elt Ideal)) (x1 : (⟨S2x800000, .i32⟩ : BufTy).Contents (Elt Ideal)) (x2 : (⟨S50000, .i32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (x9 : (⟨S64x4, .f32⟩ : BufTy).Contents (Elt Ideal)) (x10 : (⟨S4, .f32⟩ : BufTy).Contents (Elt Ideal)) (x11 : (⟨S50000x64, .f32⟩ : BufTy).Contents (Elt Ideal))
variable (b : S1x4.Idx → EReal) (hb : ∀ j : Fin 4, b (ix2 (0 : Fin 1) j) = x10 (ix1 j))
include hb

/-- The score of row `g`, class `j`. -/
theorem scores_apply (g : Fin 512) (j : Fin 4) :
    val_main_v141 (F := Ideal) x0 x1 x2 x3 x4 x5 x6 x7 x8 x9 x10 x11 (ix2 g j)
      = Cert.KernelIdeal.Region3.logit (val_main_v137 (F := Ideal) x0 x1 x2 x3 x4 x5 x6 x7 x8 x11) x9 b g j := by
  rw [val_main_v141_apply, val_main_v138_apply, val_main_v140_apply, val_main_v139_apply, Ideal.addf_def, bias_index]
  generalize val_main_v137 (F := Ideal) x0 x1 x2 x3 x4 x5 x6 x7 x8 x11 = a
  unfold Cert.KernelIdeal.Region3.logit
  rw [hb]
  simp only [lhs_index, rhs_index]

/-- Row `g`'s maximum as the reference takes it. -/
theorem max_apply (g : Fin 512) :
    val_main_call1_v2 (F := Ideal) x0 x1 x2 x3 x4 x5 x6 x7 x8 x9 x10 x11 (ix1 g)
      = Cert.KernelIdeal.Region3.top (val_main_v137 (F := Ideal) x0 x1 x2 x3 x4 x5 x6 x7 x8 x11) x9 b g := by
  rw [val_main_call1_v2_apply, val_main_call1_v1_apply, val_main_call1_cst_0_apply, Ideal.maximumf_def, Ideal.ofBits_def]
  unfold val_main_call1_v0
  rw [hostRowMax, max_fold_self]
  unfold Cert.KernelIdeal.Region3.top
  exact congrArg (fun f : Fin 4 → EReal => (Finset.univ : Finset (Fin 4)).fold max (Ideal.ofBits .f32 0xFF800000#32) f)
    (funext fun j => scores_apply x0 x1 x2 x3 x4 x5 x6 x7 x8 x9 x10 x11 b hb g j)

/-- The scores less their row's maximum. -/
theorem shifted_apply (g : Fin 512) (j : Fin 4) :
    val_main_call1_v5 (F := Ideal) x0 x1 x2 x3 x4 x5 x6 x7 x8 x9 x10 x11 (ix2 g j)
      = Cert.KernelIdeal.Region3.logit (val_main_v137 (F := Ideal) x0 x1 x2 x3 x4 x5 x6 x7 x8 x11) x9 b g j
        - Cert.KernelIdeal.Region3.top (val_main_v137 (F := Ideal) x0 x1 x2 x3 x4 x5 x6 x7 x8 x11) x9 b g := by
  rw [val_main_call1_v5_apply, val_main_call1_v4_apply, val_main_call1_v3_apply, Ideal.subf_def, max_index,
    scores_apply x0 x1 x2 x3 x4 x5 x6 x7 x8 x9 x10 x11 b hb, max_apply x0 x1 x2 x3 x4 x5 x6 x7 x8 x9 x10 x11 b hb]

/-- Row `g`'s sum of exponentials. -/
theorem sum_apply (g : Fin 512) :
    val_main_call1_v7 (F := Ideal) x0 x1 x2 x3 x4 x5 x6 x7 x8 x9 x10 x11 (ix1 g)
      = ∑ k : Fin 4, Ideal.exp (Cert.KernelIdeal.Region3.logit (val_main_v137 (F := Ideal) x0 x1 x2 x3 x4 x5 x6 x7 x8 x11) x9 b g k
          - Cert.KernelIdeal.Region3.top (val_main_v137 (F := Ideal) x0 x1 x2 x3 x4 x5 x6 x7 x8 x11) x9 b g) := by
  rw [val_main_call1_v7_apply, val_main_call1_cst_1_apply, Ideal.ofBits_def, Ideal.ofBits_zero_f32, zero_add]
  refine Finset.sum_congr rfl fun k _ => ?_
  rw [val_main_call1_v6_apply, Ideal.hostUnary_exp_def, term_index, shifted_apply x0 x1 x2 x3 x4 x5 x6 x7 x8 x9 x10 x11 b hb]

/-- THE REFERENCE'S RESULT at row `g`, class `j` is the log-softmax of the scores of its pooled array. -/
theorem tail_apply (g : Fin 512) (j : Fin 4) :
    val_main_v142 (F := Ideal) x0 x1 x2 x3 x4 x5 x6 x7 x8 x9 x10 x11 (ix2 g j)
      = Cert.KernelIdeal.Region3.logSoftmax (val_main_v137 (F := Ideal) x0 x1 x2 x3 x4 x5 x6 x7 x8 x11) x9 b (ix2 g j) := by
  rw [val_main_v142_apply, val_main_call1_v10_apply, val_main_call1_v9_apply, val_main_call1_v8_apply, Ideal.subf_def,
    Ideal.hostUnary_log_def, sum_index, shifted_apply x0 x1 x2 x3 x4 x5 x6 x7 x8 x9 x10 x11 b hb, sum_apply x0 x1 x2 x3 x4 x5 x6 x7 x8 x9 x10 x11 b hb, Cert.KernelIdeal.Region3.logSoftmax_apply]

end

end Cert.ReferenceIdeal.RefTail

end
-- ==== Proof.KRun.lean ====
/-
  The kernel program's run with its result named.

  The program is four kernel launches among four stretches of host operations.  The generated frame
  follows the buffers' contents through these eight segments as a fold from the launch memory and ends with every
  buffer that outlives the launches at the last boundary's contents.  Read at the result buffer instead of only at
  the arguments, the same run says: every weakly fair execution terminates with the result buffer holding what the
  last launch's write-backs leave in it, and the arguments unchanged.
-/
import proofs.«179847_j10969346474792_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run_value : θ_run defs (onTc (τ := τ) (main (F := F))) ⟨m, fun _ => 0, ρ⟩ (fun r => ∀ c : Dev nD,
      r.2.mem ((c.tc : Thread nD τ).loc main_v75) = W8 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v75 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.KRun

end
-- ==== Proof.KStage4.lean ====
/-
  The last launch computes the reference's log-softmax of the pooled logits, and with it the program's result.

  The last launch multiplies the pooled features by the last weight matrix, adds the bias row, and subtracts from
  every logit its row's maximum and the logarithm of the row's sum of exponentials of the shifted logits.  The
  reference does the same on the host.  Both read the same pooled features, weights and bias, so the result
  buffer after the run holds the reference's result.
-/
import proofs.«179847_j10969346474792_2_alg».proof.Proof.Gen.KernelIdeal.Frame
import proofs.«179847_j10969346474792_2_alg».proof.Proof.Gen.ReferenceIdeal.Read
import proofs.«179847_j10969346474792_2_alg».proof.Proof.KThread
import proofs.«179847_j10969346474792_2_alg».proof.Proof.KHost3
import proofs.«179847_j10969346474792_2_alg».proof.Proof.Region3
import proofs.«179847_j10969346474792_2_alg».proof.Proof.RefTail
import proofs.«179847_j10969346474792_2_alg».proof.Proof.KRun

set_option maxRecDepth 16384

noncomputable section

namespace Cert.KernelIdeal.KStage4

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- THE RESULT BUFFER after the last launch, entry by entry, is the reference's result. -/
theorem out_apply (g : Fin 512) (j : Fin 4) :
    W8 m ρ c (Proc.devRef .tc main_v75) (ix2 g j) = Cert.ReferenceIdeal.Read.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 g j) := by
  have e73 : V7 m ρ c main_v73 = Cert.ReferenceIdeal.Read.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) := KHost3.pooled_eq m ρ c
  have e9 : V7 m ρ c main_arg9 = (m ((c : Thread nD τ).loc main_arg9)) := KThread.arg9_W7 m ρ c
  show W8 m ρ c (Proc.devRef .tc (Pipeline.arrRef spec3 3)) (ix2 g j) = _
  rw [W8_arr m ρ c 3, Region3.final_eq (V7 m ρ) c]
  show Region3.logSoftmax (V7 m ρ c main_v73) (V7 m ρ c main_arg9) (V7 m ρ c main_v74) (ix2 g j) = _
  rw [e73, e9]
  exact (Cert.ReferenceIdeal.RefTail.tail_apply _ _ _ _ _ _ _ _ _ _ _ _ (V7 m ρ c main_v74)
    (fun j => KHost3.bfcrow_apply m ρ c j) g j).symm

/-- The result buffer after the last launch is the reference's result. -/
theorem out_eq : W8 m ρ c (Proc.devRef .tc main_v75) = Cert.ReferenceIdeal.Read.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext i
  obtain ⟨g, j, rfl⟩ : ∃ (g : Fin 512) (j : Fin 4), i = ix2 g j := ⟨i 0, i 1, eq_ix2 i⟩
  exact out_apply m ρ c g j

/-- THE PROGRAM'S RUN, READ: every weakly fair execution terminates, nothing faulting, with the result buffer at the
    reference's result function of the arguments and the arguments as launched. -/
theorem run : θ_run defs (onTc (τ := τ) (main (F := Ideal))) ⟨m, fun _ => 0, ρ⟩ (fun r => ∀ c : Dev nD,
      r.2.mem ((c.tc : Thread nD τ).loc main_v75) = Cert.ReferenceIdeal.Read.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (out_eq m ρ c), (h c).2⟩) (KRun.run_value m ρ)

end Cert.KernelIdeal.KStage4

end
-- ==== Proof.lean ====
/-
  The certificate's five claims.

  The idealized kernel program is four kernel launches among stretches of host operations: a matrix product, a
  neighbourhood sum over the edges (gather, scale, scatter-add), a fused combine-and-product, a second neighbourhood
  sum, a fused combine-and-reparameterise, a pooling over graphs, and a fused product-and-log-softmax.  The idealized
  reference is the same two-layer graph convolution written with host operations only.  At the ideal values a change
  of float format is the identity and every matrix product is the plain sum of products, so stage by stage the two
  programs compute the same arrays; the only rearrangement is that the kernel program treats the two second-layer
  convolutions as one of double width (the weight matrices joined side by side, the biases end to end), and a column of
  the wide product, of the wide neighbourhood sum and of the wide combination is the same column of the corresponding
  narrow one.  No law beyond the definitions of the operations is used: each side's sums run over the same index sets
  in the same order, so finiteness of the inputs is not needed.

  The frames of the two kernel programs are the generated ones; the reference's frame is its generated run with the
  result dropped; the idealization rewrote nothing, so the fourth claim is trivial; the fifth pairs the kernel
  program's run, read at its result buffer (KStage4.run), with the reference's generated run.
-/
import proofs.«179847_j10969346474792_2_alg».proof.Defs
import proofs.«179847_j10969346474792_2_alg».proof.Proof.Gen.Kernel
import proofs.«179847_j10969346474792_2_alg».proof.Proof.Gen.Kernel.Skeleton
import proofs.«179847_j10969346474792_2_alg».proof.Proof.Gen.Kernel.Launch
import proofs.«179847_j10969346474792_2_alg».proof.Proof.Gen.Kernel.Points
import proofs.«179847_j10969346474792_2_alg».proof.Proof.Gen.Kernel.Frame
import proofs.«179847_j10969346474792_2_alg».proof.Proof.Gen.KernelIdeal
import proofs.«179847_j10969346474792_2_alg».proof.Proof.Gen.KernelIdeal.Skeleton
import proofs.«179847_j10969346474792_2_alg».proof.Proof.Gen.KernelIdeal.Launch
import proofs.«179847_j10969346474792_2_alg».proof.Proof.Gen.KernelIdeal.Points
import proofs.«179847_j10969346474792_2_alg».proof.Proof.Gen.KernelIdeal.Frame
import proofs.«179847_j10969346474792_2_alg».proof.Proof.Gen.ReferenceIdeal
import proofs.«179847_j10969346474792_2_alg».proof.Proof.Gen.Pre_finite_inputs
import proofs.«179847_j10969346474792_2_alg».proof.Proof.Gen.ReferenceIdeal.Run
import proofs.«179847_j10969346474792_2_alg».proof.Proof.Gen.ReferenceIdeal.Read
import proofs.«179847_j10969346474792_2_alg».proof.Proof.KStage4
import Idealize.ShloMosaic.Adequacy
import Idealize.ShloMosaic.Init

noncomputable section

namespace Cert.Proof

open Idealize.ShloMosaic Idealize.SL.Sem

/-- The word-level kernel program runs and leaves its arguments unchanged: the generated frame. -/
theorem frame_k : Cert.frame_Kernel :=
  fun m ρ _ => Cert.Kernel.Gen.frame m ρ

/-- The idealized kernel program runs and leaves its arguments unchanged: the generated frame. -/
theorem frame_ki : Cert.frame_KernelIdeal :=
  fun m ρ _ => Cert.KernelIdeal.Gen.frame m ρ

/-- The reference runs and leaves its arguments unchanged: its generated run with the result dropped. -/
theorem frame_ri : Cert.frame_ReferenceIdeal :=
  fun m ρ _ => (θ_run Cert.ReferenceIdeal.defs _ _).mono (fun _ h c => (h c).2)
    (Cert.ReferenceIdeal.Value.run (F := Ideal) m ρ)

/-- From memories that agree on the arguments both idealized programs run, and both end with the reference's result
    function of the arguments in their result buffers. -/
theorem algebraic : Cert.algebraic_KernelIdeal_ReferenceIdeal := by
  intro m ρ m' ρ' _ hagree
  refine ⟨fun c => Cert.ReferenceIdeal.Read.val_main_v142 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.KStage4.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v142_eq, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
